-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S_ : Shape := ⟨0, ![]⟩
abbrev S256x1024 : Shape := ⟨2, ![256, 1024]⟩
abbrev S512x1024 : Shape := ⟨2, ![512, 1024]⟩
abbrev S512x1 : Shape := ⟨2, ![512, 1]⟩
abbrev S512x512 : Shape := ⟨2, ![512, 512]⟩
abbrev S512 : Shape := ⟨1, ![512]⟩

abbrev nBuf : Space → Nat
  | .hbm => 12
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S4096x1024, .f32⟩
  | .hbm, ⟨9, _⟩ => ⟨S4096x1024, .f32⟩
  | .hbm, ⟨10, _⟩ => ⟨S4096x1024, .bf16⟩
  | .hbm, ⟨11, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .bf16⟩
  | .local _ .vmem, ⟨16, _⟩ => ⟨S512x1024, .bf16⟩
  | .local _ .vmem, ⟨17, _⟩ => ⟨S512x1024, .f32⟩
  | .local _ .vmem, ⟨18, _⟩ => ⟨S512x1024, .f32⟩
  | .local _ .vmem, ⟨19, _⟩ => ⟨S512x1, .f32⟩
  | .local _ .vmem, ⟨20, _⟩ => ⟨S512x1, .f32⟩
  | .local _ .vmem, ⟨21, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc1_scratch0 : Ref sig .tc := ⟨.vmem, 19, rfl⟩
abbrev cc1_scratch1 : Ref sig .tc := ⟨.vmem, 20, rfl⟩
abbrev cc1_scratch2 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![8, 8], ![false, false]⟩

def k1_cond2 (i : grid1.Coords) : BitVec 1 :=
  let arg1 : BitVec 32 := BitVec.ofNat 32 (i 1).val
  let c7_i32 : BitVec 32 := 7#32
  let v40 : BitVec 1 := Scalar.cmpi .eq arg1 c7_i32
  let v41 : BitVec 32 := Scalar.extui v40
  let c0_i32_23 : BitVec 32 := 0#32
  let v42 : BitVec 1 := Scalar.cmpi .ne v41 c0_i32_23
  v42

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S1024x1024 : S_.BroadcastsInDim S1024x1024 (![] : Fin 0 → Fin S1024x1024.rank)
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  packedbf16_S256x1024_S256x1024_0_0 : (Rect.unit (s := S256x1024) ![0, 0] S256x1024.size inb_S256x1024_S256x1024_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  dot_S256x1024_S1024x1024_S256x1024_1_0_0_1_n_n_wf : DotDims.WF S256x1024 S1024x1024 S256x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S4096x1024.size a
  hwx0_4 : ∀ i : grid0.Coords, EltTy.bits .f32 = 32 ∨ (Rect.block (s := S4096x1024) S256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .bf16 = 32 ∨ (Rect.block (s := S4096x1024) S256x1024.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .f32 = 32 ∨ (Rect.block (s := S4096x1024) S512x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1024.size a ≤ S4096x1024.size a
  hwx1_1 : ∀ i : grid1.Coords, EltTy.bits .f32 = 32 ∨ (Rect.block (s := S4096x1024) S512x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x1024.size a ≤ S4096x1024.size a
  hwx1_2 : ∀ i : grid1.Coords, EltTy.bits .bf16 = 32 ∨ (Rect.block (s := S4096x1024) S512x1024.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_2) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v3_0) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3_1) S512x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v3_2) S512x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v4) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4096x1024 : Shape := ⟨2, ![4096, 1024]⟩
abbrev S1024x1024 : Shape := ⟨2, ![1024, 1024]⟩
abbrev S_ : Shape := ⟨0, ![]⟩
abbrev S4096x4096 : Shape := ⟨2, ![4096, 4096]⟩
abbrev S4096 : Shape := ⟨1, ![4096]⟩
abbrev S4096x1 : Shape := ⟨2, ![4096, 1]⟩

abbrev nBuf : Space → Nat
  | .hbm => 29
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S4096, .f32⟩
  | .hbm, ⟨16, _⟩ => ⟨S_, .f32⟩
  | .hbm, ⟨17, _⟩ => ⟨S4096, .f32⟩
  | .hbm, ⟨18, _⟩ => ⟨S4096, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096, .f32⟩
  | .hbm, ⟨25, _⟩ => ⟨S4096x1, .f32⟩
  | .hbm, ⟨26, _⟩ => ⟨S4096x4096, .f32⟩
  | .hbm, ⟨27, _⟩ => ⟨S4096x4096, .f32⟩
  | .hbm, ⟨28, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S4096x1024_S4096x4096_1_1_0_0_n_n_wf : DotDims.WF S4096x1024 S4096x1024 S4096x4096 [1] [1] [0] [0] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S4096x1024_S4096x4096_1_1_0_0_n_n : DotDims S4096x1024 S4096x1024 S4096x4096 where
  lhsContracting := [1]
  rhsContracting := [1]
  lhsNonContracting := [0]
  rhsNonContracting := [0]
  lhsBatch := []
  rhsBatch := []
  wf := dot_S4096x1024_S4096x1024_S4096x4096_1_1_0_0_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.BitsProj.lean ====
/- The projection kernel's region (custom_call 0) of the attention program: per grid point the body reads a
   256-row block of the activations and the three weight matrices whole, and leaves in the three output windows the
   block's products with them (the third in bf16). This module gives, at ANY contents `V` of the core's buffers on
   entry to the region, each window's block at a point, what the body leaves in each output window's buffer as a
   function of the input blocks, the body's triple, the pipeline's proof data, and the body obligation at every point. -/
import proofs.«171242_j71287867179099_2_alg».proof.Proof.Gen.Kernel.Regions
import proofs.«171242_j71287867179099_2_alg».proof.Proof.Gen.Kernel.Points
import proofs.«171242_j71287867179099_2_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
set_option pp.maxSteps 5000
set_option pp.deepTerms false

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`): for window 0 rows
    256·t … 256·t+255 of the activations, for windows 1–3 the whole weight matrix, for windows 4–6 the same rows
    of the three products' arrays. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: where the window is not fetched its block
    index has not moved since the point before, so the block is the same. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: where the window is not fetched its block
    index has not moved since the point before, so the block is the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: where the window is not fetched its block
    index has not moved since the point before, so the block is the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: where the window is not fetched its block
    index has not moved since the point before, so the block is the same. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 256×1024 buffer as a rectangle: every load and store of a block-sized buffer goes through it. -/
abbrev rBlk : Rect S256x1024 := Rect.unit (s := S256x1024) ![0, 0] S256x1024.size inb_S256x1024_S256x1024_0_0
/-- The whole 1024×1024 buffer as a rectangle: every load of a weight matrix goes through it. -/
abbrev rMat : Rect S1024x1024 := Rect.unit (s := S1024x1024) ![0, 0] S1024x1024.size inb_S1024x1024_S1024x1024_0_0

/-! ## What the body leaves in each output window's buffer -/

/-- Window 4's staging buffer after the body, from the input blocks: its one store, the block times the first
    weight matrix (fp32 contraction), written over the whole buffer. -/
def out0_4 (x0 : Vec F S256x1024 .f32) (x1 : Vec F S1024x1024 .f32) : Vec F S256x1024 .f32 :=
  View.canon [⟨rBlk, k0_pay1 (View.ld x0 rBlk) (View.ld x1 rMat)⟩]

/-- Window 5's staging buffer after the body: the block times the second weight matrix (fp32 contraction). -/
def out0_5 (x0 : Vec F S256x1024 .f32) (x2 : Vec F S1024x1024 .f32) : Vec F S256x1024 .f32 :=
  View.canon [⟨rBlk, k0_pay2 (View.ld x0 rBlk) (View.ld x2 rMat)⟩]

/-- Window 6's staging buffer after the body: the block rounded to bf16 times the third (bf16) weight matrix,
    accumulated in f32 and rounded to bf16. -/
def out0_6 (x0 : Vec F S256x1024 .f32) (x3 : Vec F S1024x1024 .bf16) : Vec F S256x1024 .bf16 :=
  View.canon [⟨rBlk, k0_pay3 (View.ld x0 rBlk) (View.ld x3 rMat)⟩]

/-- One store through the whole-buffer rectangle tiles the buffer (one block of the buffer's own size), so it
    covers it — at either element type. -/
theorem cover0_f32 (p0 : Vec F S256x1024 .f32) (y : S256x1024.Idx) :
    ∃ pc ∈ ([⟨rBlk, p0⟩] : List (View.Piece (Elt F) S256x1024 .f32)), y ∈ pc.1.set :=
  View.cover_of_tiled [⟨rBlk, p0⟩] S256x1024.size (by rfl) y
theorem cover0_bf16 (p0 : Vec F S256x1024 .bf16) (y : S256x1024.Idx) :
    ∃ pc ∈ ([⟨rBlk, p0⟩] : List (View.Piece (Elt F) S256x1024 .bf16)), y ∈ pc.1.set :=
  View.cover_of_tiled [⟨rBlk, p0⟩] S256x1024.size (by rfl) y

/-! ## The body's triple -/

set_option maxHeartbeats 4000000 in
/-- The kernel body on whole staging memrefs, the inputs' at read contents `x0 … x3` and the outputs' at anything,
    runs to the continuation holding the inputs' as they were and each output's at `out0_W` of the inputs'. The body
    also reads each output buffer just before it overwrites it; what it reads there is used nowhere. -/
theorem sound_kernel0 (c : Dev nD) (E : Set ℕ) (i : grid0.Coords) (arg1 : Memref sig .tc .vmem S256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .bf16) (harg7 : arg7.IsWhole)
    (x0 : Vec F S256x1024 .f32) (x1 : Vec F S1024x1024 .f32) (x2 : Vec F S1024x1024 .f32) (x3 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_f32 _)
  isplitl [H5]
  · iexists _; isplitr
    swap; · iexact H5
    ipureintro
    exact View.read_writes_eq_canon _ _ _ (cover0_f32 _)
  iexists _; isplitr
  swap; · iexact H6
  ipureintro
  exact View.read_writes_eq_canon _ _ _ (cover0_bf16 _)

/-! ## The pipeline's proof data -/

/-- The proof data of the projection pipeline on core `c`: the arrays as the region finds them (`V`); after the body
    at point `t` each input's buffer at its block and each output's at `out0_W` of the input blocks; the invariant
    the rest of the core's state, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, the core's dues, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BitsAttnRuns.lean ====
/- What the three whole-body runs of the attention kernel (region 1) share: the windows' blocks read off the
   region-entry contents, the two branch conditions in closed form over the grid, where the output window is idle,
   the staging and scratch memrefs, and the region invariant with the scratch buffers as owned memrefs. -/
import proofs.«171242_j71287867179099_2_alg».proof.Proof.Gen.Kernel.Launch
import proofs.«171242_j71287867179099_2_alg».proof.Proof.Gen.Kernel.Skeleton
import proofs.«171242_j71287867179099_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first `scf.if` (the scratch buffers are initialised): the key/value coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8) — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second `scf.if` (the output block is stored): the key/value coordinate is 7. -/
abbrev cond1_1 (i : grid1.Coords) : Prop := k1_cond2 i = 1#1
/-- It holds at the points ≡ 7 (mod 8) — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second condition fails, output 3 is idle: nothing is stored into it, -/
theorem idleAt1_3 : ∀ t : Fin cfg1.N, ¬cond1_1 (grid1.coords t) → cfg1.idle 3 (grid1.coords t) = true := by decide +kernel
/-- and the pipeline does not write its block back. -/
theorem noFlush1_3 : ∀ t : Fin cfg1.N, ¬cond1_1 (grid1.coords t) → (cfg1.win 3).flush t = false := by decide +kernel
/-- Where it holds, output 3 is live. -/
theorem liveAt1_3 : ∀ t : Fin cfg1.N, cond1_1 (grid1.coords t) → cfg1.idle 3 (grid1.coords t) = false := by decide +kernel

/-! ## The staging and scratch memrefs -/

/-- One staging buffer of output window 3, through which its contents are stated. -/
abbrev VO1_3 : View sig .tc .vmem S512x1024 .f32 := (Memref.whole cc1_stg3_0 : Memref sig .tc .vmem S512x1024 .f32).view
/-- Each window's current staging memref at point `t`, spelled as the pipeline passes it, and its wholeness. -/
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The scratch operands (the running maximum, the running sum, the accumulator): whole scoped buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
/-- The scratch buffers as views: what they hold between points is stated through them. -/
abbrev VS1_0 : View sig .tc .vmem S512x1 .f32 := scM1_0.view
abbrev VS1_1 : View sig .tc .vmem S512x1 .f32 := scM1_1.view
abbrev VS1_2 : View sig .tc .vmem S512x1024 .f32 := scM1_2.view

/-- The region invariant with the scratch operands as memrefs owned at some contents: what the body obligation hands
    the run before the first point and what it gives back after the last. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.Kernel.Hand

end
-- ==== Proof.BitsAttnRunA.lean ====
/- The attention kernel's body (region 1) in case A: its triple on whole memrefs, the pieces each stored buffer ends
   with being the witness. -/
import proofs.«171242_j71287867179099_2_alg».proof.Proof.BitsAttnRuns

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in output 3's staging memref and in the three scratch memrefs, as pieces (last first),
    IN CASE A (the first `scf.if` taken, the second not: the key/value coordinate is 0): the three scratch buffers are stored whole first (at anything before), then the step; output 3 is not stored; WITH the proof that on whole memrefs — the three inputs' at their contents `x·` — the body runs to the
    continuation holding the inputs' as they were and each stored buffer with its pieces written. The printed function
    and its first part equal their skeletons of memory operations over named payloads; each `scf.if` is decided by the
    case's hypotheses; the pieces are the witness. -/
noncomputable def kernelRun1_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) :
    Σ' (L3 : List (View.Piece (Elt F) S512x1024 .f32)) (LS0 : List (View.Piece (Elt F) S512x1 .f32)) (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.BitsAttnRunB.lean ====
/- The attention kernel's body (region 1) in case B: its triple on whole memrefs, the pieces each stored buffer ends
   with being the witness. -/
import proofs.«171242_j71287867179099_2_alg».proof.Proof.BitsAttnRunA

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in output 3's staging memref and in the three scratch memrefs, as pieces (last first),
    IN CASE B (neither `scf.if` taken: the key/value coordinate is strictly between 0 and 7): the step only, the three scratch buffers loaded at what the point before left (`xs·`) before being stored; output 3 is not stored; WITH the proof that on whole memrefs — the three inputs' at their contents `x·` — the body runs to the
    continuation holding the inputs' as they were and each stored buffer with its pieces written. The printed function
    and its first part equal their skeletons of memory operations over named payloads; each `scf.if` is decided by the
    case's hypotheses; the pieces are the witness. -/
noncomputable def kernelRun1_B (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) :
    Σ' (L3 : List (View.Piece (Elt F) S512x1024 .f32)) (LS0 : List (View.Piece (Elt F) S512x1 .f32)) (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.BitsAttnRunC.lean ====
/- The attention kernel's body (region 1) in case C: its triple on whole memrefs, the pieces each stored buffer ends
   with being the witness. -/
import proofs.«171242_j71287867179099_2_alg».proof.Proof.BitsAttnRunB

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in output 3's staging memref and in the three scratch memrefs, as pieces (last first),
    IN CASE C (the first `scf.if` not taken, the second taken: the key/value coordinate is 7): the step, the three scratch buffers loaded at what the point before left (`xs·`), then the quotient of the accumulator by the running sum stored whole into output 3; WITH the proof that on whole memrefs — the three inputs' at their contents `x·` — the body runs to the
    continuation holding the inputs' as they were and each stored buffer with its pieces written. The printed function
    and its first part equal their skeletons of memory operations over named payloads; each `scf.if` is decided by the
    case's hypotheses; the pieces are the witness. -/
noncomputable def kernelRun1_C (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) :
    Σ' (L3 : List (View.Piece (Elt F) S512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.BitsAttn.lean ====
/- Region 1 (the attention kernel): what output 3 and the three scratch buffers hold per case (the runs' pieces read
   back, with their covers) and point by point (`outsAt1`), the pipeline's proof data over the tracking invariant,
   and the body obligation at every point, by cases on the two closed-form conditions. -/
import proofs.«171242_j71287867179099_2_alg».proof.Proof.BitsAttnRunC

set_option maxRecDepth 16384

noncomputable section

namespace Cert.Kernel.Hand

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## What each case leaves -/

/-- Case A stores nothing into output 3 (the window is idle at its points and not written back there): no pieces —
    a placeholder (junk read back) that nothing consults. -/
def out1_A_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) : Vec F S512x1024 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

/-- Case A's pieces for scratch 0 cover it: whole-buffer stores. -/
theorem scover1_A_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) (y : S512x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S512x1.size (by sl_kernel_rfl) y

/-- What case A leaves in scratch 0: its pieces read back over junk. -/
def sout1_A_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) : Vec F S512x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- Case A's pieces for scratch 1 cover it: whole-buffer stores. -/
theorem scover1_A_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) (y : S512x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S512x1.size (by sl_kernel_rfl) y

/-- What case A leaves in scratch 1: its pieces read back over junk. -/
def sout1_A_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) : Vec F S512x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- Case A's pieces for scratch 2 cover it: whole-buffer stores. -/
theorem scover1_A_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) (y : S512x1024.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S512x1024.size (by sl_kernel_rfl) y

/-- What case A leaves in scratch 2: its pieces read back over junk. -/
def sout1_A_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) : Vec F S512x1024 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- Case B stores nothing into output 3 (the window is idle at its points and not written back there): no pieces —
    a placeholder (junk read back) that nothing consults. -/
def out1_B_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) : Vec F S512x1024 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)

/-- Case B's pieces for scratch 0 cover it: whole-buffer stores. -/
theorem scover1_B_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S512x1.size (by sl_kernel_rfl) y

/-- What case B leaves in scratch 0: its pieces read back over junk. -/
def sout1_B_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

/-- Case B's pieces for scratch 1 cover it: whole-buffer stores. -/
theorem scover1_B_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S512x1.size (by sl_kernel_rfl) y

/-- What case B leaves in scratch 1: its pieces read back over junk. -/
def sout1_B_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

/-- Case B's pieces for scratch 2 cover it: whole-buffer stores. -/
theorem scover1_B_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) (y : S512x1024.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S512x1024.size (by sl_kernel_rfl) y

/-- What case B leaves in scratch 2: its pieces read back over junk. -/
def sout1_B_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- Case C's pieces for output 3 tile its block (one store of the whole block), so they cover it. -/
theorem cover1_C_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S512x1024.size (by sl_kernel_rfl) y

/-- What case C leaves in output 3's staging buffer: its pieces read back over junk. -/
def out1_C_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) : Vec F S512x1024 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- Case C's pieces for scratch 0 cover it: whole-buffer stores. -/
theorem scover1_C_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S512x1.size (by sl_kernel_rfl) y

/-- What case C leaves in scratch 0: its pieces read back over junk. -/
def sout1_C_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- Case C's pieces for scratch 1 cover it: whole-buffer stores. -/
theorem scover1_C_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S512x1.size (by sl_kernel_rfl) y

/-- What case C leaves in scratch 1: its pieces read back over junk. -/
def sout1_C_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- Case C's pieces for scratch 2 cover it: whole-buffer stores. -/
theorem scover1_C_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S512x1024.size (by sl_kernel_rfl) y

/-- What case C leaves in scratch 2: its pieces read back over junk. -/
def sout1_C_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-! ## What the output and the scratch buffers hold after each point -/

/-- Case A at point `t`: (output 3's buffer, the running maximum, the running sum, the accumulator) after the body, from
    the point's three input blocks alone. -/
def caseA1 (c : Dev nD) (t : Fin cfg1.N) (h0 : t.val % 8 = 0) (h1 : ¬t.val % 8 = 7) : Vec F S512x1024 .f32 × Vec F S512x1 .f32 × Vec F S512x1 .f32 × Vec F S512x1024 .f32 :=
  (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))

/-- Case B at point `t`, over what the point before left in the three scratch buffers (`p`). -/
def caseB1 (c : Dev nD) (t : Fin cfg1.N) (h0 : ¬t.val % 8 = 0) (h1 : ¬t.val % 8 = 7) (p : Vec F S512x1 .f32 × Vec F S512x1 .f32 × Vec F S512x1024 .f32) : Vec F S512x1024 .f32 × Vec F S512x1 .f32 × Vec F S512x1 .f32 × Vec F S512x1024 .f32 :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2)

/-- Case C at point `t`, over what the point before left in the three scratch buffers (`p`). -/
def caseC1 (c : Dev nD) (t : Fin cfg1.N) (h0 : ¬t.val % 8 = 0) (h1 : t.val % 8 = 7) (p : Vec F S512x1 .f32 × Vec F S512x1 .f32 × Vec F S512x1024 .f32) : Vec F S512x1024 .f32 × Vec F S512x1 .f32 × Vec F S512x1 .f32 × Vec F S512x1024 .f32 :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2)

/-- THE ACCUMULATION. What output 3's staging buffer and the three scratch buffers hold after the body at position `n`:
    the case the closed forms select at `n`, run at the point's memrefs and input blocks, the scratch buffers it loads
    before storing at what this leaves at `n - 1`. -/
def outsAt1 (c : Dev nD) : (n : ℕ) → n < cfg1.N → Vec F S512x1024 .f32 × Vec F S512x1 .f32 × Vec F S512x1 .f32 × Vec F S512x1024 .f32
  | 0, hn => caseA1 V c ⟨0, hn⟩ (Nat.zero_mod _) (by show ¬(0 % 8 = 7); decide)
  | n + 1, hn =>
    if h0 : (n + 1) % 8 = 0 then
      if h1 : (n + 1) % 8 = 7 then False.elim (by omega)
      else caseA1 V c ⟨n + 1, hn⟩ h0 h1
    else
      if h1 : (n + 1) % 8 = 7 then caseC1 V c ⟨n + 1, hn⟩ h0 h1 (outsAt1 c n (Nat.lt_of_succ_lt hn)).2
      else caseB1 V c ⟨n + 1, hn⟩ h0 h1 (outsAt1 c n (Nat.lt_of_succ_lt hn)).2

/-- `outsAt1` at a point of case A: that case's contents. -/
theorem outsAt1_A (c : Dev nD) (t : Fin cfg1.N) (h0 : t.val % 8 = 0) (h1 : ¬t.val % 8 = 7) :
    outsAt1 V c t.val t.isLt = caseA1 V c t h0 h1 := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = caseB1 V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = caseC1 V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scratch buffer at anything);
    afterwards the scoped rest with the three scratch buffers at what the point before left in them (`outsAt1`'s scratch
    components), and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch buffers at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and output 3's at `outsAt1`'s first component; the tracking invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the three scratch buffers at what the point before left (at anything at the first point)
    and takes them back at this point's contents, the pieces covering them; output 3's buffer comes back untouched
    where the window is idle and at the case's pieces where it is stored; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold caseA1; dsimp only
      unfold sout1_A_0 sout1_A_1 sout1_A_2; (try dsimp only)
      by_cases hz : t.val = 0
      · rw [PhiS1_castSucc V c t, PhiS1_zero V c _ _ hz, PhiA1_eq]
        iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR0 HR1 HR2 HR3 HR4 HR5 HR6 HR7 HR8 HR9 HR10 HS0 HS1 HS2 Hg]
        · isplitl [HR0 HR1 HR2 HR3 HR4 HR5 HR6 HR7 HR8 HR9 HR10 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HR0 HR1 HR2 HR3 HR4 HR5 HR6 HR7 HR8 HR9 HR10 HS0 HS1 HS2 Hg]
        · isplitl [HR0 HR1 HR2 HR3 HR4 HR5 HR6 HR7 HR8 HR9 HR10 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold caseC1; dsimp only
      unfold out1_C_3 sout1_C_0 sout1_C_1 sout1_C_2; (try dsimp only)
      by_cases hz : t.val = 0
      · exfalso; omega
      · rw [PhiS1_castSucc V c t, PhiS1_pos V c _ _ hz]
        iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR0 HR1 HR2 HR3 HR4 HR5 HR6 HR7 HR8 HR9 HR10 HS0 HS1 HS2 Hg]
        · isplitl [HR0 HR1 HR2 HR3 HR4 HR5 HR6 HR7 HR8 HR9 HR10 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold caseB1; dsimp only
      unfold sout1_B_0 sout1_B_1 sout1_B_2; (try dsimp only)
      by_cases hz : t.val = 0
      · exfalso; omega
      · rw [PhiS1_castSucc V c t, PhiS1_pos V c _ _ hz]
        iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR0 HR1 HR2 HR3 HR4 HR5 HR6 HR7 HR8 HR9 HR10 HS0 HS1 HS2 Hg]
        · isplitl [HR0 HR1 HR2 HR3 HR4 HR5 HR6 HR7 HR8 HR9 HR10 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HR10, HS0, HS1, HS2⟩, Hg⟩
  isplitl [HR0 HR1 HR2 HR3 HR4 HR5 HR6 HR7 HR8 HR9 HR10 HS0 HS1 HS2]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.Kernel.Hand

end
-- ==== Proof.BitsRun.lean ====
/-
  The program's run, region by region.

  @main is three segments: the host lines that scale the query weights and round the value weights, the
  projection region, the attention region.  Between two segments a core holds every unscoped buffer whole at a
  known valuation: the launch memory, then the host lines applied, then the projection's three result arrays at what
  its pipeline leaves (each block written back once), then the attention's result array likewise.  Given, for each
  region, proof data whose entry arrays are the valuation's, its body obligation, and that its invariant starts
  from and returns to the region's scoped rest, every weakly fair execution terminates and the final memory holds
  every unscoped buffer at the last valuation — in particular the arguments as launched and the result at the
  attention pipeline's final array.
-/
import proofs.«171242_j71287867179099_2_alg».proof.Proof.Gen.Kernel.Regions
import proofs.«171242_j71287867179099_2_alg».proof.Proof.Gen.Kernel.Points
import Idealize.ShloMosaic.Lib.Pipeline.Frame
import Idealize.ShloMosaic.Lib.Pipeline.FrameSuffix
import Idealize.ShloMosaic.Lib.Pipeline.Regions
import Idealize.ShloMosaic.Lib.Pipeline.RegionsLoop
import Idealize.ShloMosaic.Lib.Pipeline.Kit

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- A core-indexed reading of the TensorCore's references. -/
abbrev Contents (F : FTy → Type) [FloatOps F] : Type := (c : Dev nD) → (b : Ref sig .tc) → Buf (Elt F) ((c : Thread nD τ).loc b)

section Run

variable (m : (ℓ : Loc nD τ sig) → Buf (Elt F) ℓ) (ρ : Dev nD → PrngReg)
variable (dat0 : Contents F → (c : Dev nD) → Dat τ (Elt F) Unit ℕ (UR sig nD τ) ℕ cfg0 c)
variable (dat1 : Contents F → (c : Dev nD) → Dat τ (Elt F) Unit ℕ (UR sig nD τ) ℕ cfg1 c)

/-! ## The valuations between the segments -/

/-- At launch. -/
abbrev W0 : Dev nD → Valuation τ sig (Elt F) := fun c b => m ((c : Dev nD), b)
/-- After the host lines (the projection's entry). -/
abbrev W1 : Dev nD → Valuation τ sig (Elt F) := fun c => StableHlo.after hostOps0 (W0 m c)
abbrev E1 : Contents F := fun c b => W1 m c b
/-- After the projection: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m dat0 c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m dat0 c (Proc.devRef .tc b) = W1 m c (Proc.devRef .tc b) := by
  unfold W2; exact Pipeline.withArrays_of_ne spec0 c _ _ b hb
abbrev E2 : Contents F := fun c b => W2 m dat0 c b
theorem hF0 (c : Dev nD) (w : Fin cfg0.W) : (dat0 (E1 m) c).arrAt w cfg0.N = E2 m dat0 c (Pipeline.arrRef spec0 w) :=
  (W2_arr m dat0 c w).symm
theorem hrest0 (c : Dev nD) : ∀ b, b ∉ Finset.univ.image (Pipeline.arrRef spec0) → E2 m dat0 c b = E1 m c b :=
  fun b hb => W2_of_ne m dat0 c b fun w e => hb (Finset.mem_image.mpr ⟨w, Finset.mem_univ _, e⟩)
/-- After the attention: its arrays at what the pipeline leaves, every other buffer as entered. -/
def W3 (c : Dev nD) : Valuation τ sig (Elt F) :=
  Pipeline.withArrays spec1 c (W2 m dat0 c) fun w => (dat1 (E2 m dat0) c).arrAt w cfg1.N
theorem W3_arr (c : Dev nD) (w : Fin cfg1.W) :
    W3 m dat0 dat1 c (Proc.devRef .tc (Pipeline.arrRef spec1 w)) = (dat1 (E2 m dat0) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m dat0 dat1 c (Proc.devRef .tc b) = W2 m dat0 c (Proc.devRef .tc b) := by
  unfold W3; exact Pipeline.withArrays_of_ne spec1 c _ _ b hb
abbrev E3 : Contents F := fun c b => W3 m dat0 dat1 c b
theorem hF1 (c : Dev nD) (w : Fin cfg1.W) : (dat1 (E2 m dat0) c).arrAt w cfg1.N = E3 m dat0 dat1 c (Pipeline.arrRef spec1 w) :=
  (W3_arr m dat0 dat1 c w).symm
theorem hrest1 (c : Dev nD) : ∀ b, b ∉ Finset.univ.image (Pipeline.arrRef spec1) → E3 m dat0 dat1 c b = E2 m dat0 c b :=
  fun b hb => W3_of_ne m dat0 dat1 c b fun w e => hb (Finset.mem_image.mpr ⟨w, Finset.mem_univ _, e⟩)

/-! ## The proof data family and the thread state -/

abbrev tables : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) tables p) c
  | ⟨0, _⟩ => fun c => dat0 (E1 m) c
  | ⟨1, _⟩ => fun c => dat1 (E2 m dat0) c
abbrev noVar : Variants := Variants.none
abbrev noLev : GSem nD τ sig → Finset Unit := fun _ => ∅
abbrev lev0 : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Last (c : Dev nD) : sProp 𝕄 := iprop(StableHlo.held (c : Thread nD τ) (Pipeline.ucRefs τ sig) (W3 m dat0 dat1 c) ∗ ∃ r, prngReg c r)

/-! ## What the regions' proof data must satisfy -/

variable (hA0 : ∀ (V : Contents F) c w, (dat0 V c).A w = V c (Pipeline.arrRef spec0 w))
variable (hq0 : ∀ (V : Contents F) c w, (dat0 V c).q w = fullShare)
variable (hw0 : ∀ (V : Contents F) c t, (dat0 V c).owed t = 0)
variable (hr0 : ∀ (V : Contents F) c t, (dat0 V c).recorded t = Set.univ)
variable (hin0 : ∀ (V : Contents F) c, Pipeline.ΦA spec0 c ⊢ (dat0 V c).Φ 0)
variable (hout0 : ∀ (V : Contents F) c, (dat0 V c).Φ (Fin.last cfg0.N) ⊢ Pipeline.ΦA spec0 c)
variable (hb0 : ∀ (V : Contents F) c, BodyObligation (dat0 V c) (defs₀ (F := F)) Variants.none () Set.univ)
variable (hA1 : ∀ (V : Contents F) c w, (dat1 V c).A w = V c (Pipeline.arrRef spec1 w))
variable (hq1 : ∀ (V : Contents F) c w, (dat1 V c).q w = fullShare)
variable (hw1 : ∀ (V : Contents F) c t, (dat1 V c).owed t = 0)
variable (hr1 : ∀ (V : Contents F) c t, (dat1 V c).recorded t = Set.univ)
variable (hin1 : ∀ (V : Contents F) c, Pipeline.ΦA spec1 c ⊢ (dat1 V c).Φ 0)
variable (hout1 : ∀ (V : Contents F) c, (dat1 V c).Φ (Fin.last cfg1.N) ⊢ Pipeline.ΦA spec1 c)
variable (hb1 : ∀ (V : Contents F) c, BodyObligation (dat1 V c) (defs₀ (F := F)) Variants.none () Set.univ)

/-! ## The regions as segments -/

set_option backward.isDefEq.respectTransparency.types false in
/-- The projection region over the thread state: entered from every unscoped buffer at `W1`, left at `W2`. -/
def reg0 : Pipeline.RegionSeg (pcfgs (F := F)) tables (pdats m dat0 dat1) () defs₀ noVar noLev lev0 0 where
  win := launch0.win.to₀
  block_pos := launch0.block_pos
  stage_whole := launch0.stage_whole
  K := PEmpty
  osem k := k.elim
  ho := Pipeline.OwnSemFacts.none _
  hbody c := (hb0 (E1 m) c).loose
  hwaits := Pipeline.hwaits_of_owed_zero _ _ _ _ noLev lev0 0 fun c t => hw0 (E1 m) c t
  pre c := iprop(StableHlo.held (c : Thread nD τ) (Pipeline.ucRefs τ sig) (W1 m c) ∗ Rest c)
  post c := iprop(StableHlo.held (c : Thread nD τ) (Pipeline.ucRefs τ sig) (W2 m dat0 c) ∗ Rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) tables (pdats m dat0 dat1) launch0.win launch0.arr_whole c
      ((pdats m dat0 dat1 0 c).share_full fun w => hq0 (E1 m) c w) (E1 m c) fun w => hA0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m dat0 dat1 0 c).owed 0 = 0 from hw0 (E1 m) c 0]
      icases HO with ⟨%W, HO⟩; iexists W; isplitr
      · ipureintro; exact fun _ _ => Or.inl (by rw [show (pdats m dat0 dat1 0 c).recorded 0 = Set.univ from hr0 (E1 m) c 0]; trivial)
      iexact HO
    isplitl [Hp]; · iexact Hp
    iexact Hrest
  hin c := by
    refine (?_ : _ ⊢ (Pipeline.ΦA spec0 c : sProp 𝕄)).trans (hin0 (E1 m) c)
    unfold Pipeline.ΦA
    iintro ⟨Hp, -, Hr⟩
    isplitl [Hr]; · iexact Hr
    iexact Hp
  hout c := by
    rw [Pipeline.ownSems0_none]
    refine (hout0 (E1 m) c).trans (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m dat0 dat1) ((pdats m dat0 dat1 0 c).share_full fun w => hq0 (E1 m) c w)
      (E1 m c) (E2 m dat0 c) ((pdats m dat0 dat1 0 c).arrAt · cfg0.N) (hF0 m dat0 c) (hrest0 m dat0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m dat0 dat1 0 c).owed (Fin.last _) = 0 from hw0 (E1 m) c _]
    icases HO with ⟨%W, -, HO⟩; iexists W; iexact HO

set_option backward.isDefEq.respectTransparency.types false in
/-- The attention region over the thread state: entered from every unscoped buffer at `W2`, left at `W3`. -/
def reg1 : Pipeline.RegionSeg (pcfgs (F := F)) tables (pdats m dat0 dat1) () defs₀ noVar noLev lev0 1 where
  win := launch1.win.to₀
  block_pos := launch1.block_pos
  stage_whole := launch1.stage_whole
  K := PEmpty
  osem k := k.elim
  ho := Pipeline.OwnSemFacts.none _
  hbody c := (hb1 (E2 m dat0) c).loose
  hwaits := Pipeline.hwaits_of_owed_zero _ _ _ _ noLev lev0 1 fun c t => hw1 (E2 m dat0) c t
  pre c := iprop(StableHlo.held (c : Thread nD τ) (Pipeline.ucRefs τ sig) (W2 m dat0 c) ∗ Rest c)
  post c := iprop(Last m dat0 dat1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m dat0 c)
  hentry c := by
    rw [Pipeline.ownSems0_none]
    have hsplit := Pipeline.arrays_of_unscopedBufs (p := 1) (pcfgs (F := F)) tables (pdats m dat0 dat1) launch1.win launch1.arr_whole c
      ((pdats m dat0 dat1 1 c).share_full fun w => hq1 (E2 m dat0) c w) (E2 m dat0 c) fun w => hA1 (E2 m dat0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m dat0 dat1 1 c).owed 0 = 0 from hw1 (E2 m dat0) c 0]
      icases HO with ⟨%W, HO⟩; iexists W; isplitr
      · ipureintro; exact fun _ _ => Or.inl (by rw [show (pdats m dat0 dat1 1 c).recorded 0 = Set.univ from hr1 (E2 m dat0) c 0]; trivial)
      iexact HO
    isplitl [Hp]; · iexact Hp
    iexact Hrest
  hin c := by
    refine (?_ : _ ⊢ (Pipeline.ΦA spec1 c : sProp 𝕄)).trans (hin1 (E2 m dat0) c)
    unfold Pipeline.ΦA
    iintro ⟨Hp, -, Hr⟩
    isplitl [Hr]; · iexact Hr
    iexact Hp
  hout c := by
    rw [Pipeline.ownSems0_none]
    refine (hout1 (E2 m dat0) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m dat0 dat1) ((pdats m dat0 dat1 1 c).share_full fun w => hq1 (E2 m dat0) c w)
      (E2 m dat0 c) (E3 m dat0 dat1 c) ((pdats m dat0 dat1 1 c).arrAt · cfg1.N) (hF1 m dat0 dat1 c) (hrest1 m dat0 dat1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m dat0 dat1 1 c).owed (Fin.last _) = 0 from hw1 (E2 m dat0) c _]
    icases HO with ⟨%W, -, HO⟩; iexists W; iexact HO

/-! ## @main as segments, and the launch -/

abbrev segments : List (Pipeline.Seg (pcfgs (F := F)) tables (pdats m dat0 dat1) () defs₀ noVar noLev lev0) :=
  [ .host (hostSeg hostOps0 hostOps0_sub hostOps0_fresh (W0 m)),
    .region (reg0 m dat0 dat1 hA0 hq0 hw0 hr0 hin0 hout0 hb0),
    .region (reg1 m dat0 dat1 hA1 hq1 hw1 hr1 hin1 hout1 hb1) ]

theorem main_is_segments (c : Dev nD) :
    main (F := F) c = Pipeline.Seg.run (segments m dat0 dat1 hA0 hq0 hw0 hr0 hin0 hout0 hb0 hA1 hq1 hw1 hr1 hin1 hout1 hb1) :=
  (main_chain c).trans (by chain_rfl)

include hA0 hq0 hw0 hr0 hin0 hout0 hb0 hA1 hq1 hw1 hr1 hin1 hout1 hb1 in
set_option backward.isDefEq.respectTransparency.types false in
/-- THE RUN: every weakly fair execution of @main from memory `m` with zero counters terminates, nothing faulting,
    and the final memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m dat0 dat1 c b) :=
  Pipeline.θ_run_regions_kit (pcfgs (F := F)) tables (pdats m dat0 dat1) () cellOf_inj emb₁ defs₀ noVar noLev lev0 m ρ main
    (segments m dat0 dat1 hA0 hq0 hw0 hr0 hin0 hout0 hb0 hA1 hq1 hw1 hr1 hin1 hout1 hb1)
    (fun c Q => by rw [main_is_segments m dat0 dat1 hA0 hq0 hw0 hr0 hin0 hout0 hb0 hA1 hq1 hw1 hr1 hin1 hout1 hb1 c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Last m dat0 dat1)
    (hch := ⟨fun _ => .rfl, fun _ => .rfl, fun _ => .rfl, fun _ => .rfl⟩)
    (hinit := by
      refine Pipeline.initEach noLev lev0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m dat0 dat1 c b)
    (hfin := fun c s' => by
      iintro ⟨⟨Hh, -⟩, HSI⟩
      unfold StableHlo.held
      imodintro
      iapply (pointsTo_read_all (Pipeline.ucRefs τ sig) (fun b => (((c : Thread nD τ)).1, b)) (W3 m dat0 dat1 c) s')
      isplitl [Hh] <;> iassumption)
    (hQ := fun s h c => h c)

end Run

end Cert.Kernel.Hand

end
-- ==== Proof.BitsArgs.lean ====
/-
  The arguments end as launched.

  Between the segments a core holds every unscoped buffer at a known valuation.  No host line writes an argument,
  and no region changes one: the projection reads the activations and the key weights through two input windows,
  whose final arrays are their entry arrays, and touches no other argument; the attention touches none.  So the
  last valuation at each argument walks back to the launch memory.  The regions' result arrays sit at their windows'
  final arrays.
-/
import proofs.«171242_j71287867179099_2_alg».proof.Proof.BitsRun

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

section Args

variable (m : (ℓ : Loc nD τ sig) → Buf (Elt F) ℓ)
variable (dat0 : Contents F → (c : Dev nD) → Dat τ (Elt F) Unit ℕ (UR sig nD τ) ℕ cfg0 c)
variable (dat1 : Contents F → (c : Dev nD) → Dat τ (Elt F) Unit ℕ (UR sig nD τ) ℕ cfg1 c)
variable (hA0 : ∀ (V : Contents F) c w, (dat0 V c).A w = V c (Pipeline.arrRef spec0 w))

/-! ## No host line writes an argument -/

theorem W1_main_arg0 (c : Dev nD) : W1 m c (Proc.devRef .tc main_arg0) = m ((c : Thread nD τ).loc main_arg0) :=
  (V1_of m c main_arg0 (by decide)).trans rfl
theorem W1_main_arg1 (c : Dev nD) : W1 m c (Proc.devRef .tc main_arg1) = m ((c : Thread nD τ).loc main_arg1) :=
  (V1_of m c main_arg1 (by decide)).trans rfl
theorem W1_main_arg2 (c : Dev nD) : W1 m c (Proc.devRef .tc main_arg2) = m ((c : Thread nD τ).loc main_arg2) :=
  (V1_of m c main_arg2 (by decide)).trans rfl
theorem W1_main_arg3 (c : Dev nD) : W1 m c (Proc.devRef .tc main_arg3) = m ((c : Thread nD τ).loc main_arg3) :=
  (V1_of m c main_arg3 (by decide)).trans rfl

/-! ## The arguments end as launched -/

include hA0 in
/-- The activations: no window of the attention; input window 0 of the projection, whose final array is its entry
    array; written by no host line. -/
theorem W3_main_arg0 (c : Dev nD) : W3 m dat0 dat1 c (Proc.devRef .tc main_arg0) = m ((c : Thread nD τ).loc main_arg0) :=
  calc W3 m dat0 dat1 c (Proc.devRef .tc main_arg0)
    _ = W2 m dat0 c (Proc.devRef .tc main_arg0) := W3_of_ne m dat0 dat1 c main_arg0 (by decide)
    _ = W1 m c (Proc.devRef .tc main_arg0) :=
        (W2_arr m dat0 c 0).trans (((dat0 (E1 m) c).arrAt_in 0 rfl _).trans (hA0 (E1 m) c 0))
    _ = m ((c : Thread nD τ).loc main_arg0) := W1_main_arg0 m c

/-- The query weights: no window of either region; written by no host line. -/
theorem W3_main_arg1 (c : Dev nD) : W3 m dat0 dat1 c (Proc.devRef .tc main_arg1) = m ((c : Thread nD τ).loc main_arg1) :=
  calc W3 m dat0 dat1 c (Proc.devRef .tc main_arg1)
    _ = W2 m dat0 c (Proc.devRef .tc main_arg1) := W3_of_ne m dat0 dat1 c main_arg1 (by decide)
    _ = W1 m c (Proc.devRef .tc main_arg1) := W2_of_ne m dat0 c main_arg1 (by decide)
    _ = m ((c : Thread nD τ).loc main_arg1) := W1_main_arg1 m c

include hA0 in
/-- The key weights: no window of the attention; input window 2 of the projection, whose final array is its entry
    array; written by no host line. -/
theorem W3_main_arg2 (c : Dev nD) : W3 m dat0 dat1 c (Proc.devRef .tc main_arg2) = m ((c : Thread nD τ).loc main_arg2) :=
  calc W3 m dat0 dat1 c (Proc.devRef .tc main_arg2)
    _ = W2 m dat0 c (Proc.devRef .tc main_arg2) := W3_of_ne m dat0 dat1 c main_arg2 (by decide)
    _ = W1 m c (Proc.devRef .tc main_arg2) :=
        (W2_arr m dat0 c 2).trans (((dat0 (E1 m) c).arrAt_in 2 rfl _).trans (hA0 (E1 m) c 2))
    _ = m ((c : Thread nD τ).loc main_arg2) := W1_main_arg2 m c

/-- The value weights: no window of either region; written by no host line. -/
theorem W3_main_arg3 (c : Dev nD) : W3 m dat0 dat1 c (Proc.devRef .tc main_arg3) = m ((c : Thread nD τ).loc main_arg3) :=
  calc W3 m dat0 dat1 c (Proc.devRef .tc main_arg3)
    _ = W2 m dat0 c (Proc.devRef .tc main_arg3) := W3_of_ne m dat0 dat1 c main_arg3 (by decide)
    _ = W1 m c (Proc.devRef .tc main_arg3) := W2_of_ne m dat0 c main_arg3 (by decide)
    _ = m ((c : Thread nD τ).loc main_arg3) := W1_main_arg3 m c

/-! ## The regions' result arrays -/

/-- The result: window 3 of the attention, at that window's final array. -/
theorem W3_main_v4 (c : Dev nD) : W3 m dat0 dat1 c (Proc.devRef .tc main_v4) = (dat1 (E2 m dat0) c).arrAt 3 cfg1.N :=
  W3_arr m dat0 dat1 c 3

/-- The queries: window 4 of the projection, at that window's final array. -/
theorem W2_main_v3_0 (c : Dev nD) : W2 m dat0 c (Proc.devRef .tc main_v3_0) = (dat0 (E1 m) c).arrAt 4 cfg0.N :=
  W2_arr m dat0 c 4
/-- The keys: window 5 of the projection. -/
theorem W2_main_v3_1 (c : Dev nD) : W2 m dat0 c (Proc.devRef .tc main_v3_1) = (dat0 (E1 m) c).arrAt 5 cfg0.N :=
  W2_arr m dat0 c 5
/-- The values: window 6 of the projection. -/
theorem W2_main_v3_2 (c : Dev nD) : W2 m dat0 c (Proc.devRef .tc main_v3_2) = (dat0 (E1 m) c).arrAt 6 cfg0.N :=
  W2_arr m dat0 c 6

end Args

end Cert.Kernel.Hand

end
-- ==== Proof.BitsWhole.lean ====
/-
  The whole run of the program with both regions' proof data in place: every weakly fair execution terminates, no
  fault, and the final memory holds every unscoped buffer at the valuation the two pipelines leave.  The frame
  claim reads the four arguments off it: no host line and no region writes an argument.
-/
import proofs.«171242_j71287867179099_2_alg».proof.Proof.BitsProj
import proofs.«171242_j71287867179099_2_alg».proof.Proof.BitsAttn
import proofs.«171242_j71287867179099_2_alg».proof.Proof.BitsRun
import proofs.«171242_j71287867179099_2_alg».proof.Proof.BitsArgs

noncomputable section

namespace Cert.Kernel.Hand

open Idealize.ShloMosaic Idealize.ShloMosaic.TcCoe
open Idealize.SL Idealize.SL.BI Idealize.SL.Sem
open Idealize.ShloMosaic.Pipeline (Dat)
open Cert.Kernel Cert.Kernel.Gen

variable {F : FTy → Type} [FloatOps F]

/-- The two regions' proof data as functions of their entry contents. -/
abbrev projData : Contents F → (c : Dev nD) → Dat τ (Elt F) Unit ℕ (UR sig nD τ) ℕ cfg0 c := fun V c => dat0 V c
abbrev attnData : Contents F → (c : Dev nD) → Dat τ (Elt F) Unit ℕ (UR sig nD τ) ℕ cfg1 c := fun V c => dat1 V c

variable (m : (ℓ : Loc nD τ sig) → Buf (Elt F) ℓ) (ρ : Dev nD → PrngReg)

/-- The valuation the program ends at. -/
abbrev Final : Dev nD → Valuation τ sig (Elt F) := W3 m projData attnData

theorem whole_run : θ_run defs (onTc (τ := τ) (main (F := F))) ⟨m, fun _ => 0, ρ⟩ (fun r => ∀ c : Dev nD,
      ∀ b ∈ Pipeline.ucRefs τ sig, r.2.mem (((c : Thread nD τ)).1, b) = Final m c b) :=
  run_all m ρ projData attnData
    (fun V c w => A_eq0 V c w) (fun _ _ _ => rfl) (fun _ _ _ => rfl) (fun _ _ _ => rfl)
    (fun _ _ => Idealize.SL.BI.Entails.refl _) (fun _ _ => Idealize.SL.BI.Entails.refl _) (fun V c => body_obligation0 V c)
    (fun V c w => A_eq1 V c w) (fun _ _ _ => rfl) (fun _ _ _ => rfl) (fun _ _ _ => rfl)
    (fun V c => hin1 V c) (fun V c => hout1 V c) (fun V c => body_obligation1 V c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m projData attnData (fun V c w => A_eq0 V c w) c),
     (h c _ (mem_uc main_arg1 (by decide))).trans (W3_main_arg1 m projData attnData c),
     (h c _ (mem_uc main_arg2 (by decide))).trans (W3_main_arg2 m projData attnData (fun V c w => A_eq0 V c w) c),
     (h c _ (mem_uc main_arg3 (by decide))).trans (W3_main_arg3 m projData attnData c)⟩)
    (whole_run m ρ)

end Cert.Kernel.Hand

end
-- ==== Proof.IdealProj.lean ====
/- The projection kernel's region (custom_call 0) of the attention program: per grid point the body reads a
   256-row block of the activations and the three weight matrices whole, and leaves in the three output windows the
   block's products with them (the third in bf16). This module gives, at ANY contents `V` of the core's buffers on
   entry to the region, each window's block at a point, what the body leaves in each output window's buffer as a
   function of the input blocks, the body's triple, the pipeline's proof data, and the body obligation at every point. -/
import proofs.«171242_j71287867179099_2_alg».proof.Proof.Gen.KernelIdeal.Regions
import proofs.«171242_j71287867179099_2_alg».proof.Proof.Gen.KernelIdeal.Points
import proofs.«171242_j71287867179099_2_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384
set_option pp.maxSteps 5000
set_option pp.deepTerms false

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered: the parameter everything below is stated at
variable (V : (c : Dev nD) → (b : Ref sig .tc) → Buf (Elt F) ((c : Thread nD τ).loc b))

/-! ## The windows' blocks -/

/-- Window `w`'s block at point `t`, read off its array as the region finds it (`V`): for window 0 rows
    256·t … 256·t+255 of the activations, for windows 1–3 the whole weight matrix, for windows 4–6 the same rows
    of the three products' arrays. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place: where the window is not fetched its block
    index has not moved since the point before, so the block is the same. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place: where the window is not fetched its block
    index has not moved since the point before, so the block is the same. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not, for any proof
    data whose array is `V`'s and whose body leaves the block in place: where the window is not fetched its block
    index has not moved since the point before, so the block is the same. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not, for any proof
    data whose array is `V`'s and whose body leaves the block in place: where the window is not fetched its block
    index has not moved since the point before, so the block is the same. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses -/

/-- The whole 256×1024 buffer as a rectangle: every load and store of a block-sized buffer goes through it. -/
abbrev rBlk : Rect S256x1024 := Rect.unit (s := S256x1024) ![0, 0] S256x1024.size inb_S256x1024_S256x1024_0_0
/-- The whole 1024×1024 buffer as a rectangle: every load of a weight matrix goes through it. -/
abbrev rMat : Rect S1024x1024 := Rect.unit (s := S1024x1024) ![0, 0] S1024x1024.size inb_S1024x1024_S1024x1024_0_0

/-! ## What the body leaves in each output window's buffer -/

/-- Window 4's staging buffer after the body, from the input blocks: its one store, the block times the first
    weight matrix (fp32 contraction), written over the whole buffer. -/
def out0_4 (x0 : Vec F S256x1024 .f32) (x1 : Vec F S1024x1024 .f32) : Vec F S256x1024 .f32 :=
  View.canon [⟨rBlk, k0_pay1 (View.ld x0 rBlk) (View.ld x1 rMat)⟩]

/-- Window 5's staging buffer after the body: the block times the second weight matrix (fp32 contraction). -/
def out0_5 (x0 : Vec F S256x1024 .f32) (x2 : Vec F S1024x1024 .f32) : Vec F S256x1024 .f32 :=
  View.canon [⟨rBlk, k0_pay2 (View.ld x0 rBlk) (View.ld x2 rMat)⟩]

/-- Window 6's staging buffer after the body: the block rounded to bf16 times the third (bf16) weight matrix,
    accumulated in f32 and rounded to bf16. -/
def out0_6 (x0 : Vec F S256x1024 .f32) (x3 : Vec F S1024x1024 .bf16) : Vec F S256x1024 .bf16 :=
  View.canon [⟨rBlk, k0_pay3 (View.ld x0 rBlk) (View.ld x3 rMat)⟩]

/-- One store through the whole-buffer rectangle tiles the buffer (one block of the buffer's own size), so it
    covers it — at either element type. -/
theorem cover0_f32 (p0 : Vec F S256x1024 .f32) (y : S256x1024.Idx) :
    ∃ pc ∈ ([⟨rBlk, p0⟩] : List (View.Piece (Elt F) S256x1024 .f32)), y ∈ pc.1.set :=
  View.cover_of_tiled [⟨rBlk, p0⟩] S256x1024.size (by rfl) y
theorem cover0_bf16 (p0 : Vec F S256x1024 .bf16) (y : S256x1024.Idx) :
    ∃ pc ∈ ([⟨rBlk, p0⟩] : List (View.Piece (Elt F) S256x1024 .bf16)), y ∈ pc.1.set :=
  View.cover_of_tiled [⟨rBlk, p0⟩] S256x1024.size (by rfl) y

/-! ## The body's triple -/

set_option maxHeartbeats 4000000 in
/-- The kernel body on whole staging memrefs, the inputs' at read contents `x0 … x3` and the outputs' at anything,
    runs to the continuation holding the inputs' as they were and each output's at `out0_W` of the inputs'. The body
    also reads each output buffer just before it overwrites it; what it reads there is used nowhere. -/
theorem sound_kernel0 (c : Dev nD) (E : Set ℕ) (i : grid0.Coords) (arg1 : Memref sig .tc .vmem S256x1024 .f32) (harg1 : arg1.IsWhole) (arg2 : Memref sig .tc .vmem S1024x1024 .f32) (harg2 : arg2.IsWhole) (arg3 : Memref sig .tc .vmem S1024x1024 .f32) (harg3 : arg3.IsWhole) (arg4 : Memref sig .tc .vmem S1024x1024 .bf16) (harg4 : arg4.IsWhole) (arg5 : Memref sig .tc .vmem S256x1024 .f32) (harg5 : arg5.IsWhole) (arg6 : Memref sig .tc .vmem S256x1024 .f32) (harg6 : arg6.IsWhole) (arg7 : Memref sig .tc .vmem S256x1024 .bf16) (harg7 : arg7.IsWhole)
    (x0 : Vec F S256x1024 .f32) (x1 : Vec F S1024x1024 .f32) (x2 : Vec F S1024x1024 .f32) (x3 : Vec F S1024x1024 .bf16) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3
        ∗ (∃ d, owns (c : Thread nD τ) arg5 fullShare d) ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3
            ∗ owns (c : Thread nD τ) arg5 fullShare (out0_4 x0 x1) ∗ owns (c : Thread nD τ) arg6 fullShare (out0_5 x0 x2)
            ∗ owns (c : Thread nD τ) arg7 fullShare (out0_6 x0 x3)) -∗ K ⟨⟩))
      ⊢ wp frame (wpE (defs₀ (F := F)) Variants.none c none) E (cc0__proj_kernel i arg1 harg1 arg2 harg2 arg3 harg3 arg4 harg4 arg5 harg5 arg6 harg6 arg7 harg7) K := by
  simp only [cc0__proj_kernel_eq_skeleton]; unfold cc0__proj_kernel_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    exact View.read_writes_eq_canon _ _ _ (cover0_f32 _)
  isplitl [H5]
  · iexists _; isplitr
    swap; · iexact H5
    ipureintro
    exact View.read_writes_eq_canon _ _ _ (cover0_f32 _)
  iexists _; isplitr
  swap; · iexact H6
  ipureintro
  exact View.read_writes_eq_canon _ _ _ (cover0_bf16 _)

/-! ## The pipeline's proof data -/

/-- The proof data of the projection pipeline on core `c`: the arrays as the region finds them (`V`); after the body
    at point `t` each input's buffer at its block and each output's at `out0_W` of the input blocks; the invariant
    the rest of the core's state, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t)
    | ⟨5, _⟩ => out0_5 (iblk0 V c 0 t) (iblk0 V c 2 t)
    | ⟨6, _⟩ => out0_6 (iblk0 V c 0 t) (iblk0 V c 3 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) := by dsimp only [dat0]
theorem after0_5 (c : Dev nD) (t : Fin cfg0.N) : (dat0 V c).after 5 t = out0_5 (iblk0 V c 0 t) (iblk0 V c 2 t) := by dsimp only [dat0]
theorem after0_6 (c : Dev nD) (t : Fin cfg0.N) : (dat0 V c).after 6 t = out0_6 (iblk0 V c 0 t) (iblk0 V c 3 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-! ## The body obligation, at a generic point -/

/-- What the body is called with at point `t`: the invariant, the core's dues, and each window's current staging
    buffer at what the pipeline left in it, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t))

/-- The body at any point: the inputs' memrefs hold their blocks (`before0_W`), so `sound_kernel0` applies; the
    invariant and the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel0 c Set.univ (grid0.coords t) _ _ _ _ _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.IdealAttnRuns.lean ====
/- What the three whole-body runs of the attention kernel (region 1) share: the windows' blocks read off the
   region-entry contents, the two branch conditions in closed form over the grid, where the output window is idle,
   the staging and scratch memrefs, and the region invariant with the scratch buffers as owned memrefs. -/
import proofs.«171242_j71287867179099_2_alg».proof.Proof.Gen.KernelIdeal.Launch
import proofs.«171242_j71287867179099_2_alg».proof.Proof.Gen.KernelIdeal.Skeleton
import proofs.«171242_j71287867179099_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for any proof
    data whose array is `V`'s and whose body leaves the block in place: unfetched, the block index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s and whose body leaves the block in place: unfetched, the block index has not moved. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s and whose body leaves the block in place: unfetched, the block index has not moved. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Region1

/-! ## The body's branch conditions -/

/-- The condition of the body's first `scf.if` (the scratch buffers are initialised): the key/value coordinate is 0. -/
abbrev cond1_0 (i : grid1.Coords) : Prop := (Scalar.cmpi .ne (Scalar.extui (Scalar.cmpi .eq (BitVec.ofNat 32 (i 1).val) 0#32)) 0#32) = 1#1
/-- It holds at the points ≡ 0 (mod 8) — decided over the grid. -/
theorem hcond1_0 : ∀ t : Fin cfg1.N, cond1_0 (grid1.coords t) ↔ t.val % 8 = 0 :=
  (by decide +kernel : ∀ t : Fin grid1.N, cond1_0 (grid1.coords t) ↔ t.val % 8 = 0)

/-- The condition of the body's second `scf.if` (the output block is stored): the key/value coordinate is 7. -/
abbrev cond1_1 (i : grid1.Coords) : Prop := k1_cond2 i = 1#1
/-- It holds at the points ≡ 7 (mod 8) — decided over the grid. -/
theorem hcond1_1 : ∀ t : Fin cfg1.N, cond1_1 (grid1.coords t) ↔ t.val % 8 = 7 :=
  (by decide +kernel : ∀ t : Fin grid1.N, cond1_1 (grid1.coords t) ↔ t.val % 8 = 7)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Where the second condition fails, output 3 is idle: nothing is stored into it, -/
theorem idleAt1_3 : ∀ t : Fin cfg1.N, ¬cond1_1 (grid1.coords t) → cfg1.idle 3 (grid1.coords t) = true := by decide +kernel
/-- and the pipeline does not write its block back. -/
theorem noFlush1_3 : ∀ t : Fin cfg1.N, ¬cond1_1 (grid1.coords t) → (cfg1.win 3).flush t = false := by decide +kernel
/-- Where it holds, output 3 is live. -/
theorem liveAt1_3 : ∀ t : Fin cfg1.N, cond1_1 (grid1.coords t) → cfg1.idle 3 (grid1.coords t) = false := by decide +kernel

/-! ## The staging and scratch memrefs -/

/-- One staging buffer of output window 3, through which its contents are stated. -/
abbrev VO1_3 : View sig .tc .vmem S512x1024 .f32 := (Memref.whole cc1_stg3_0 : Memref sig .tc .vmem S512x1024 .f32).view
/-- Each window's current staging memref at point `t`, spelled as the pipeline passes it, and its wholeness. -/
abbrev ms1_0 (t : Fin cfg1.N) : Memref sig .tc .vmem S512x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1024 .f32 := win1_3.stage (cfg1.slots t 3)
abbrev hs1_3 (t : Fin cfg1.N) : (ms1_3 t).IsWhole := hstage1_3 ((cfg1.slots t 3).cast nbuf1_3)
/-- The scratch operands (the running maximum, the running sum, the accumulator): whole scoped buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
/-- The scratch buffers as views: what they hold between points is stated through them. -/
abbrev VS1_0 : View sig .tc .vmem S512x1 .f32 := scM1_0.view
abbrev VS1_1 : View sig .tc .vmem S512x1 .f32 := scM1_1.view
abbrev VS1_2 : View sig .tc .vmem S512x1024 .f32 := scM1_2.view

/-- The region invariant with the scratch operands as memrefs owned at some contents: what the body obligation hands
    the run before the first point and what it gives back after the last. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

end Cert.KernelIdeal.Hand

end
-- ==== Proof.IdealAttnRunA.lean ====
/- The attention kernel's body (region 1) in case A: its triple on whole memrefs, the pieces each stored buffer ends
   with being the witness. -/
import proofs.«171242_j71287867179099_2_alg».proof.Proof.IdealAttnRuns

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in output 3's staging memref and in the three scratch memrefs, as pieces (last first),
    IN CASE A (the first `scf.if` taken, the second not: the key/value coordinate is 0): the three scratch buffers are stored whole first (at anything before), then the step; output 3 is not stored; WITH the proof that on whole memrefs — the three inputs' at their contents `x·` — the body runs to the
    continuation holding the inputs' as they were and each stored buffer with its pieces written. The printed function
    and its first part equal their skeletons of memory operations over named payloads; each `scf.if` is decided by the
    case's hypotheses; the pieces are the witness. -/
noncomputable def kernelRun1_A (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) :
    Σ' (L3 : List (View.Piece (Elt F) S512x1024 .f32)) (LS0 : List (View.Piece (Elt F) S512x1 .f32)) (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.IdealAttnRunB.lean ====
/- The attention kernel's body (region 1) in case B: its triple on whole memrefs, the pieces each stored buffer ends
   with being the witness. -/
import proofs.«171242_j71287867179099_2_alg».proof.Proof.IdealAttnRunA

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in output 3's staging memref and in the three scratch memrefs, as pieces (last first),
    IN CASE B (neither `scf.if` taken: the key/value coordinate is strictly between 0 and 7): the step only, the three scratch buffers loaded at what the point before left (`xs·`) before being stored; output 3 is not stored; WITH the proof that on whole memrefs — the three inputs' at their contents `x·` — the body runs to the
    continuation holding the inputs' as they were and each stored buffer with its pieces written. The printed function
    and its first part equal their skeletons of memory operations over named payloads; each `scf.if` is decided by the
    case's hypotheses; the pieces are the witness. -/
noncomputable def kernelRun1_B (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) :
    Σ' (L3 : List (View.Piece (Elt F) S512x1024 .f32)) (LS0 : List (View.Piece (Elt F) S512x1 .f32)) (LS1 : List (View.Piece (Elt F) S512x1 .f32)), { LS2 : List (View.Piece (Elt F) S512x1024 .f32) //
      ∀ (xi3 : Vec F S512x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨[], ?_, ?_, ?_, fun xi3 E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.IdealAttnRunC.lean ====
/- The attention kernel's body (region 1) in case C: its triple on whole memrefs, the pieces each stored buffer ends
   with being the witness. -/
import proofs.«171242_j71287867179099_2_alg».proof.Proof.IdealAttnRunB

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- What the body's stores leave in output 3's staging memref and in the three scratch memrefs, as pieces (last first),
    IN CASE C (the first `scf.if` not taken, the second taken: the key/value coordinate is 7): the step, the three scratch buffers loaded at what the point before left (`xs·`), then the quotient of the accumulator by the running sum stored whole into output 3; WITH the proof that on whole memrefs — the three inputs' at their contents `x·` — the body runs to the
    continuation holding the inputs' as they were and each stored buffer with its pieces written. The printed function
    and its first part equal their skeletons of memory operations over named payloads; each `scf.if` is decided by the
    case's hypotheses; the pieces are the witness. -/
noncomputable def kernelRun1_C (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) :
    Σ' (L3 : List (View.Piece (Elt F) S512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__attn_kernel i arg2 harg2 arg3 harg3 arg4 harg4 arg5 harg5 arg6 harg6 arg7 harg7 arg8 harg8) K } := by
  refine ⟨?_, ?_, ?_, ?_, fun E K => ?run⟩
  case run =>
    simp only [cc1__attn_kernel_eq_skeleton]; unfold cc1__attn_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.IdealAttn.lean ====
/- Region 1 (the attention kernel): what output 3 and the three scratch buffers hold per case (the runs' pieces read
   back, with their covers) and point by point (`outsAt1`), the pipeline's proof data over the tracking invariant,
   and the body obligation at every point, by cases on the two closed-form conditions. -/
import proofs.«171242_j71287867179099_2_alg».proof.Proof.IdealAttnRunC

set_option maxRecDepth 16384

noncomputable section

namespace Cert.KernelIdeal.Hand

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1
-- the TensorCore's buffer contents when the region is entered
variable (V : (c : Dev nD) → (b : Ref sig .tc) → Buf (Elt F) ((c : Thread nD τ).loc b))

/-! ## What each case leaves -/

/-- Case A stores nothing into output 3 (the window is idle at its points and not written back there): no pieces —
    a placeholder (junk read back) that nothing consults. -/
def out1_A_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) : Vec F S512x1024 .f32 :=
  VO1_3.read (Elt F) (VO1_3.writes (Elt F) VO1_3.junk (kernelRun1_A c i arg2 harg2 arg3 harg3 arg4 harg4 arg5 harg5 arg6 harg6 arg7 harg7 arg8 harg8 hc0 hc1 x0 x1 x2).1)

/-- Case A's pieces for scratch 0 cover it: whole-buffer stores. -/
theorem scover1_A_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) (y : S512x1.Idx) :
    ∃ pc ∈ (kernelRun1_A c i arg2 harg2 arg3 harg3 arg4 harg4 arg5 harg5 arg6 harg6 arg7 harg7 arg8 harg8 hc0 hc1 x0 x1 x2).2.1, y ∈ pc.1.set :=
  View.cover_of_tiledL (kernelRun1_A c i arg2 harg2 arg3 harg3 arg4 harg4 arg5 harg5 arg6 harg6 arg7 harg7 arg8 harg8 hc0 hc1 x0 x1 x2).2.1 S512x1.size (by sl_kernel_rfl) y

/-- What case A leaves in scratch 0: its pieces read back over junk. -/
def sout1_A_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) : Vec F S512x1 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 x2).2.1)

/-- Case A's pieces for scratch 1 cover it: whole-buffer stores. -/
theorem scover1_A_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) (y : S512x1.Idx) :
    ∃ pc ∈ (kernelRun1_A c i arg2 harg2 arg3 harg3 arg4 harg4 arg5 harg5 arg6 harg6 arg7 harg7 arg8 harg8 hc0 hc1 x0 x1 x2).2.2.1, y ∈ pc.1.set :=
  View.cover_of_tiledL (kernelRun1_A c i arg2 harg2 arg3 harg3 arg4 harg4 arg5 harg5 arg6 harg6 arg7 harg7 arg8 harg8 hc0 hc1 x0 x1 x2).2.2.1 S512x1.size (by sl_kernel_rfl) y

/-- What case A leaves in scratch 1: its pieces read back over junk. -/
def sout1_A_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) : Vec F S512x1 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)

/-- Case A's pieces for scratch 2 cover it: whole-buffer stores. -/
theorem scover1_A_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) (y : S512x1024.Idx) :
    ∃ pc ∈ (kernelRun1_A c i arg2 harg2 arg3 harg3 arg4 harg4 arg5 harg5 arg6 harg6 arg7 harg7 arg8 harg8 hc0 hc1 x0 x1 x2).2.2.2.1, y ∈ pc.1.set :=
  View.cover_of_tiledL (kernelRun1_A c i arg2 harg2 arg3 harg3 arg4 harg4 arg5 harg5 arg6 harg6 arg7 harg7 arg8 harg8 hc0 hc1 x0 x1 x2).2.2.2.1 S512x1024.size (by sl_kernel_rfl) y

/-- What case A leaves in scratch 2: its pieces read back over junk. -/
def sout1_A_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) : Vec F S512x1024 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)

/-- Case B stores nothing into output 3 (the window is idle at its points and not written back there): no pieces —
    a placeholder (junk read back) that nothing consults. -/
def out1_B_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) : Vec F S512x1024 .f32 :=
  VO1_3.read (Elt F) (VO1_3.writes (Elt F) VO1_3.junk (kernelRun1_B c i arg2 harg2 arg3 harg3 arg4 harg4 arg5 harg5 arg6 harg6 arg7 harg7 arg8 harg8 hc0 hc1 x0 x1 x2 xs0 xs1 xs2).1)

/-- Case B's pieces for scratch 0 cover it: whole-buffer stores. -/
theorem scover1_B_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.1 S512x1.size (by sl_kernel_rfl) y

/-- What case B leaves in scratch 0: its pieces read back over junk. -/
def sout1_B_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)

/-- Case B's pieces for scratch 1 cover it: whole-buffer stores. -/
theorem scover1_B_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) (y : S512x1.Idx) :
    ∃ pc ∈ (kernelRun1_B c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.1 S512x1.size (by sl_kernel_rfl) y

/-- What case B leaves in scratch 1: its pieces read back over junk. -/
def sout1_B_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)

/-- Case B's pieces for scratch 2 cover it: whole-buffer stores. -/
theorem scover1_B_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) (y : S512x1024.Idx) :
    ∃ pc ∈ (kernelRun1_B c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_B c i arg2 harg2 arg3 harg3 arg4 harg4 arg5 harg5 arg6 harg6 arg7 harg7 arg8 harg8 hc0 hc1 x0 x1 x2 xs0 xs1 xs2).2.2.2.1 S512x1024.size (by sl_kernel_rfl) y

/-- What case B leaves in scratch 2: its pieces read back over junk. -/
def sout1_B_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)

/-- Case C's pieces for output 3 tile its block (one store of the whole block), so they cover it. -/
theorem cover1_C_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).1, y ∈ pc.1.set :=
  View.cover_of_tiledL (kernelRun1_C c i arg2 harg2 arg3 harg3 arg4 harg4 arg5 harg5 arg6 harg6 arg7 harg7 arg8 harg8 hc0 hc1 x0 x1 x2 xs0 xs1 xs2).1 S512x1024.size (by sl_kernel_rfl) y

/-- What case C leaves in output 3's staging buffer: its pieces read back over junk. -/
def out1_C_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) : Vec F S512x1024 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)

/-- Case C's pieces for scratch 0 cover it: whole-buffer stores. -/
theorem scover1_C_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.1 S512x1.size (by sl_kernel_rfl) y

/-- What case C leaves in scratch 0: its pieces read back over junk. -/
def sout1_C_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) : Vec F S512x1 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)

/-- Case C's pieces for scratch 1 cover it: whole-buffer stores. -/
theorem scover1_C_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) (y : S512x1.Idx) :
    ∃ pc ∈ (kernelRun1_C c i arg2 harg2 arg3 harg3 arg4 harg4 arg5 harg5 arg6 harg6 arg7 harg7 arg8 harg8 hc0 hc1 x0 x1 x2 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.1 S512x1.size (by sl_kernel_rfl) y

/-- What case C leaves in scratch 1: its pieces read back over junk. -/
def sout1_C_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) : Vec F S512x1 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)

/-- Case C's pieces for scratch 2 cover it: whole-buffer stores. -/
theorem scover1_C_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) (y : S512x1024.Idx) :
    ∃ pc ∈ (kernelRun1_C c i arg2 harg2 arg3 harg3 arg4 harg4 arg5 harg5 arg6 harg6 arg7 harg7 arg8 harg8 hc0 hc1 x0 x1 x2 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 x2 xs0 xs1 xs2).2.2.2.1 S512x1024.size (by sl_kernel_rfl) y

/-- What case C leaves in scratch 2: its pieces read back over junk. -/
def sout1_C_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) : Vec F S512x1024 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)

/-! ## What the output and the scratch buffers hold after each point -/

/-- Case A at point `t`: (output 3's buffer, the running maximum, the running sum, the accumulator) after the body, from
    the point's three input blocks alone. -/
def caseA1 (c : Dev nD) (t : Fin cfg1.N) (h0 : t.val % 8 = 0) (h1 : ¬t.val % 8 = 7) : Vec F S512x1024 .f32 × Vec F S512x1 .f32 × Vec F S512x1 .f32 × Vec F S512x1024 .f32 :=
  (out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t), sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) ((hcond1_0 t).mpr h0) (fun h => h1 ((hcond1_1 t).mp h)) (iblk1 V c 0 t) (iblk1 V c 1 t) (iblk1 V c 2 t))

/-- Case B at point `t`, over what the point before left in the three scratch buffers (`p`). -/
def caseB1 (c : Dev nD) (t : Fin cfg1.N) (h0 : ¬t.val % 8 = 0) (h1 : ¬t.val % 8 = 7) (p : Vec F S512x1 .f32 × Vec F S512x1 .f32 × Vec F S512x1024 .f32) : Vec F S512x1024 .f32 × Vec F S512x1 .f32 × Vec F S512x1 .f32 × Vec F S512x1024 .f32 :=
  (out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2, sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) (fun h => h1 ((hcond1_1 t).mp h)) (iblk1 V c 0 t) (iblk1 V c 1 t) (iblk1 V c 2 t) p.1 p.2.1 p.2.2)

/-- Case C at point `t`, over what the point before left in the three scratch buffers (`p`). -/
def caseC1 (c : Dev nD) (t : Fin cfg1.N) (h0 : ¬t.val % 8 = 0) (h1 : t.val % 8 = 7) (p : Vec F S512x1 .f32 × Vec F S512x1 .f32 × Vec F S512x1024 .f32) : Vec F S512x1024 .f32 × Vec F S512x1 .f32 × Vec F S512x1 .f32 × Vec F S512x1024 .f32 :=
  (out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2, sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) (fun h => h0 ((hcond1_0 t).mp h)) ((hcond1_1 t).mpr h1) (iblk1 V c 0 t) (iblk1 V c 1 t) (iblk1 V c 2 t) p.1 p.2.1 p.2.2)

/-- THE ACCUMULATION. What output 3's staging buffer and the three scratch buffers hold after the body at position `n`:
    the case the closed forms select at `n`, run at the point's memrefs and input blocks, the scratch buffers it loads
    before storing at what this leaves at `n - 1`. -/
def outsAt1 (c : Dev nD) : (n : ℕ) → n < cfg1.N → Vec F S512x1024 .f32 × Vec F S512x1 .f32 × Vec F S512x1 .f32 × Vec F S512x1024 .f32
  | 0, hn => caseA1 V c ⟨0, hn⟩ (Nat.zero_mod _) (by show ¬(0 % 8 = 7); decide)
  | n + 1, hn =>
    if h0 : (n + 1) % 8 = 0 then
      if h1 : (n + 1) % 8 = 7 then False.elim (by omega)
      else caseA1 V c ⟨n + 1, hn⟩ h0 h1
    else
      if h1 : (n + 1) % 8 = 7 then caseC1 V c ⟨n + 1, hn⟩ h0 h1 (outsAt1 c n (Nat.lt_of_succ_lt hn)).2
      else caseB1 V c ⟨n + 1, hn⟩ h0 h1 (outsAt1 c n (Nat.lt_of_succ_lt hn)).2

/-- `outsAt1` at a point of case A: that case's contents. -/
theorem outsAt1_A (c : Dev nD) (t : Fin cfg1.N) (h0 : t.val % 8 = 0) (h1 : ¬t.val % 8 = 7) :
    outsAt1 V c t.val t.isLt = caseA1 V c t h0 h1 := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 8 = 0) (h1 : ¬t.val % 8 = 7) :
    outsAt1 V c t.val t.isLt = caseB1 V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 8 = 0) (h1 : t.val % 8 = 7) :
    outsAt1 V c t.val t.isLt = caseC1 V c t h0 h1 (outsAt1 V c (t.val - 1) (Nat.lt_of_le_of_lt (Nat.sub_le _ _) t.isLt)).2 := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the launch's (every scratch buffer at anything);
    afterwards the scoped rest with the three scratch buffers at what the point before left in them (`outsAt1`'s scratch
    components), and the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the scratch buffers at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c n hn).2.1) ∗ owns (c : Thread nD τ) scM1_1 fullShare ((outsAt1 V c n hn).2.2.1) ∗ owns (c : Thread nD τ) scM1_2 fullShare ((outsAt1 V c n hn).2.2.2)) ∗ (∃ r, prngReg c r)) := rfl

/-- Before a point that is not the first: the scratch buffers at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_stg6_0), ((c : Thread nD τ).loc cc0_stg6_0) ↦{fullShare} f) ∗ (∃ f : Buf (Elt F) ((c : Thread nD τ).loc cc0_stg6_1), ((c : Thread nD τ).loc cc0_stg6_1) ↦{fullShare} f) ∗ owns (c : Thread nD τ) scM1_0 fullShare ((outsAt1 V c (n - 1) (by omega)).2.1) ∗ owns (c : Thread nD τ) scM1_1 fullShare ((outsAt1 V c (n - 1) (by omega)).2.2.1) ∗ owns (c : Thread nD τ) scM1_2 fullShare ((outsAt1 V c (n - 1) (by omega)).2.2.2)) ∗ (∃ r, prngReg c r)) := by
  cases n with
  | zero => exact absurd rfl hz
  | succ n => rfl

/-! ## The pipeline's proof data -/

/-- The proof data of pipeline 1 on core `c`: the arrays as the region finds them (`V`); after the body at point `t`
    each input's buffer at its block and output 3's at `outsAt1`'s first component; the tracking invariant `PhiS1`;
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (the body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks; the closed forms say which case the point is in; the
    invariant hands the body the three scratch buffers at what the point before left (at anything at the first point)
    and takes them back at this point's contents, the pieces covering them; output 3's buffer comes back untouched
    where the window is idle and at the case's pieces where it is stored; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 64 := lt_of_lt_of_eq t.isLt (show cfg1.N = 64 from N_1)
  by_cases h0 : t.val % 8 = 0
  · by_cases h1 : t.val % 8 = 7
    · exfalso; omega
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_A V c t h0 h1]
      unfold caseA1; dsimp only
      unfold sout1_A_0 sout1_A_1 sout1_A_2; (try dsimp only)
      by_cases hz : t.val = 0
      · rw [PhiS1_castSucc V c t, PhiS1_zero V c _ _ hz, PhiA1_eq]
        iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR0 HR1 HR2 HR3 HR4 HR5 HR6 HR7 HR8 HR9 HR10 HS0 HS1 HS2 Hg]
        · isplitl [HR0 HR1 HR2 HR3 HR4 HR5 HR6 HR7 HR8 HR9 HR10 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩⟩
        iapply ((kernelRun1_A c (grid1.coords t) _ _ _ _ _ _ _ _ _ _ _ _ _ _ ((hcond1_0 t).mpr h0) (fun h => h1 ((hcond1_1 t).mp h)) (iblk1 V c 0 t) (iblk1 V c 1 t) (iblk1 V c 2 t)).2.2.2.2 _ Set.univ _)
        isplitl [H0]; · iexact H0
        isplitl [H1]; · iexact H1
        isplitl [H2]; · iexact H2
        isplitl [H3]; · iexact H3
        isplitl [HS0]; · iexists _; iexact HS0
        isplitl [HS1]; · iexists _; iexact HS1
        isplitl [HS2]; · iexists _; iexact HS2
        iintro ⟨H0, H1, H2, H3, ⟨%es0, HS0⟩, ⟨%es1, HS1⟩, ⟨%es2, HS2⟩⟩
        isplitl [HR0 HR1 HR2 HR3 HR4 HR5 HR6 HR7 HR8 HR9 HR10 HS0 HS1 HS2 Hg]
        · isplitl [HR0 HR1 HR2 HR3 HR4 HR5 HR6 HR7 HR8 HR9 HR10 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HS0]
            · unfold owns; iexists _; isplitr
              swap; · iexact HS0
              ipureintro; exact View.read_writes_of_cover _ _ _ _ _ (scover1_A_0 c _ _ _ _ _ _ _ _ _ _ _ _ _ _ _ _ _ _ _ _)
            isplitl [HS1]
            · unfold owns; iexists _; isplitr
              swap; · iexact HS1
              ipureintro; exact View.read_writes_of_cover _ _ _ _ _ (scover1_A_1 c _ _ _ _ _ _ _ _ _ _ _ _ _ _ _ _ _ _ _ _)
            unfold owns; iexists _; isplitr
            swap; · iexact HS2
            ipureintro; exact View.read_writes_of_cover _ _ _ _ _ (scover1_A_2 c _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 8 = 7
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [show (dat1 V c).leavesExact 3 t = owns (c : Thread nD τ) (ms1_3 t) fullShare ((dat1 V c).after 3 t) from by
        unfold Dat.leavesExact; rw [liveAt1_3 t ((hcond1_1 t).mpr h1)], after1_3]
      rw [outsAt1_C V c t h0 h1]
      unfold caseC1; dsimp only
      unfold out1_C_3 sout1_C_0 sout1_C_1 sout1_C_2; (try dsimp only)
      by_cases hz : t.val = 0
      · exfalso; omega
      · rw [PhiS1_castSucc V c t, PhiS1_pos V c _ _ hz]
        iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩⟩
        iapply ((kernelRun1_C c (grid1.coords t) _ _ _ _ _ _ _ _ _ _ _ _ _ _ (fun h => h0 ((hcond1_0 t).mp h)) ((hcond1_1 t).mpr h1) (iblk1 V c 0 t) (iblk1 V c 1 t) (iblk1 V c 2 t) _ _ _).2.2.2.2 Set.univ _)
        isplitl [H0]; · iexact H0
        isplitl [H1]; · iexact H1
        isplitl [H2]; · iexact H2
        isplitl [H3]; · iexists _; iexact H3
        isplitl [HS0]; · iexact HS0
        isplitl [HS1]; · iexact HS1
        isplitl [HS2]; · iexact HS2
        iintro ⟨H0, H1, H2, ⟨%e3, H3⟩, ⟨%es0, HS0⟩, ⟨%es1, HS1⟩, ⟨%es2, HS2⟩⟩
        isplitl [HR0 HR1 HR2 HR3 HR4 HR5 HR6 HR7 HR8 HR9 HR10 HS0 HS1 HS2 Hg]
        · isplitl [HR0 HR1 HR2 HR3 HR4 HR5 HR6 HR7 HR8 HR9 HR10 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HS0]
            · unfold owns; iexists _; isplitr
              swap; · iexact HS0
              ipureintro; exact View.read_writes_of_cover _ _ _ _ _ (scover1_C_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_C_1 c _ _ _ _ _ _ _ _ _ _ _ _ _ _ _ _ _ _ _ _ _ _ _)
            unfold owns; iexists _; isplitr
            swap; · iexact HS2
            ipureintro; exact View.read_writes_of_cover _ _ _ _ _ (scover1_C_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _ _ _ _ _ _ _)
    · rw [show (dat1 V c).leavesExact 0 t = owns (c : Thread nD τ) (ms1_0 t) fullShare ((dat1 V c).after 0 t) from by
        unfold Dat.leavesExact; rw [liveAt1_0 t], after1_0]
      rw [show (dat1 V c).leavesExact 1 t = owns (c : Thread nD τ) (ms1_1 t) fullShare ((dat1 V c).after 1 t) from by
        unfold Dat.leavesExact; rw [liveAt1_1 t], after1_1]
      rw [show (dat1 V c).leavesExact 2 t = owns (c : Thread nD τ) (ms1_2 t) fullShare ((dat1 V c).after 2 t) from by
        unfold Dat.leavesExact; rw [liveAt1_2 t], after1_2]
      rw [Dat.leavesExact_idle (dat1 V c) 3 t (idleAt1_3 t (fun h => h1 ((hcond1_1 t).mp h))) (noFlush1_3 t (fun h => h1 ((hcond1_1 t).mp h)))]
      rw [outsAt1_B V c t h0 h1]
      unfold caseB1; dsimp only
      unfold sout1_B_0 sout1_B_1 sout1_B_2; (try dsimp only)
      by_cases hz : t.val = 0
      · exfalso; omega
      · rw [PhiS1_castSucc V c t, PhiS1_pos V c _ _ hz]
        iintro ⟨⟨⟨HR0, HR1, HR2, HR3, HR4, HR5, HR6, HR7, HR8, HR9, HR10, HS0, HS1, HS2⟩, Hg⟩, Ho, ⟨%d0, H0⟩, ⟨%d1, H1⟩, ⟨%d2, H2⟩, ⟨%d3, H3⟩⟩
        iapply ((kernelRun1_B c (grid1.coords t) _ _ _ _ _ _ _ _ _ _ _ _ _ _ (fun h => h0 ((hcond1_0 t).mp h)) (fun h => h1 ((hcond1_1 t).mp h)) (iblk1 V c 0 t) (iblk1 V c 1 t) (iblk1 V c 2 t) _ _ _).2.2.2.2 _ Set.univ _)
        isplitl [H0]; · iexact H0
        isplitl [H1]; · iexact H1
        isplitl [H2]; · iexact H2
        isplitl [H3]; · iexact H3
        isplitl [HS0]; · iexact HS0
        isplitl [HS1]; · iexact HS1
        isplitl [HS2]; · iexact HS2
        iintro ⟨H0, H1, H2, H3, ⟨%es0, HS0⟩, ⟨%es1, HS1⟩, ⟨%es2, HS2⟩⟩
        isplitl [HR0 HR1 HR2 HR3 HR4 HR5 HR6 HR7 HR8 HR9 HR10 HS0 HS1 HS2 Hg]
        · isplitl [HR0 HR1 HR2 HR3 HR4 HR5 HR6 HR7 HR8 HR9 HR10 HS0 HS1 HS2]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            isplitl [HR10]; · iexact HR10
            isplitl [HS0]
            · unfold owns; iexists _; isplitr
              swap; · iexact HS0
              ipureintro; exact View.read_writes_of_cover _ _ _ _ _ (scover1_B_0 c _ _ _ _ _ _ _ _ _ _ _ _ _ _ _ _ _ _ _ _ _ _ _)
            isplitl [HS1]
            · unfold owns; iexists _; isplitr
              swap; · iexact HS1
              ipureintro; exact View.read_writes_of_cover _ _ _ _ _ (scover1_B_1 c _ _ _ _ _ _ _ _ _ _ _ _ _ _ _ _ _ _ _ _ _ _ _)
            unfold owns; iexists _; isplitr
            swap; · iexact HS2
            ipureintro; exact View.read_writes_of_cover _ _ _ _ _ (scover1_B_2 c _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the launch's back: the scratch buffers' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR0, HR1, HR2, HR3, HR4, HR5, HR6, HR7, HR8, HR9, HR10, HS0, HS1, HS2⟩, Hg⟩
  isplitl [HR0 HR1 HR2 HR3 HR4 HR5 HR6 HR7 HR8 HR9 HR10 HS0 HS1 HS2]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    isplitl [HR10]; · iexact HR10
    isplitl [HS0]; · iexists _; iexact HS0
    isplitl [HS1]; · iexists _; iexact HS1
    iexists _; iexact HS2
  iexact Hg

/-- The same after the last point. -/
theorem hout1 (c : Dev nD) : (dat1 V c).Φ (Fin.last cfg1.N) ⊢ Pipeline.ΦA spec1 c :=
  Phi_out1 V c _ (by rw [Fin.val_last]; have : cfg1.N = 64 := N_1; omega)

end Region1

end Cert.KernelIdeal.Hand

end
-- ==== Proof.IdealRun.lean ====
/-
  The program's run, region by region.

  @main is three segments: the host lines that scale the query weights and round the value weights, the
  projection region, the attention region.  Between two segments a core holds every unscoped buffer whole at a
  known valuation: the launch memory, then the host lines applied, then the projection's three result arrays at what
  its pipeline leaves (each block written back once), then the attention's result array likewise.  Given, for each
  region, proof data whose entry arrays are the valuation's, its body obligation, and that its invariant starts
  from and returns to the region's scoped rest, every weakly fair execution terminates and the final memory holds
  every unscoped buffer at the last valuation — in particular the arguments as launched and the result at the
  attention pipeline's final array.
-/
import proofs.«171242_j71287867179099_2_alg».proof.Proof.Gen.KernelIdeal.Regions
import proofs.«171242_j71287867179099_2_alg».proof.Proof.Gen.KernelIdeal.Points
import Idealize.ShloMosaic.Lib.Pipeline.Frame
import Idealize.ShloMosaic.Lib.Pipeline.FrameSuffix
import Idealize.ShloMosaic.Lib.Pipeline.Regions
import Idealize.ShloMosaic.Lib.Pipeline.RegionsLoop
import Idealize.ShloMosaic.Lib.Pipeline.Kit

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- A core-indexed reading of the TensorCore's references. -/
abbrev Contents (F : FTy → Type) [FloatOps F] : Type := (c : Dev nD) → (b : Ref sig .tc) → Buf (Elt F) ((c : Thread nD τ).loc b)

section Run

variable (m : (ℓ : Loc nD τ sig) → Buf (Elt F) ℓ) (ρ : Dev nD → PrngReg)
variable (dat0 : Contents F → (c : Dev nD) → Dat τ (Elt F) Unit ℕ (UR sig nD τ) ℕ cfg0 c)
variable (dat1 : Contents F → (c : Dev nD) → Dat τ (Elt F) Unit ℕ (UR sig nD τ) ℕ cfg1 c)

/-! ## The valuations between the segments -/

/-- At launch. -/
abbrev W0 : Dev nD → Valuation τ sig (Elt F) := fun c b => m ((c : Dev nD), b)
/-- After the host lines (the projection's entry). -/
abbrev W1 : Dev nD → Valuation τ sig (Elt F) := fun c => StableHlo.after hostOps0 (W0 m c)
abbrev E1 : Contents F := fun c b => W1 m c b
/-- After the projection: its arrays at what the pipeline leaves, every other buffer as entered. -/
def W2 (c : Dev nD) : Valuation τ sig (Elt F) :=
  Pipeline.withArrays spec0 c (W1 m c) fun w => (dat0 (E1 m) c).arrAt w cfg0.N
theorem W2_arr (c : Dev nD) (w : Fin cfg0.W) :
    W2 m dat0 c (Proc.devRef .tc (Pipeline.arrRef spec0 w)) = (dat0 (E1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m dat0 c (Proc.devRef .tc b) = W1 m c (Proc.devRef .tc b) := by
  unfold W2; exact Pipeline.withArrays_of_ne spec0 c _ _ b hb
abbrev E2 : Contents F := fun c b => W2 m dat0 c b
theorem hF0 (c : Dev nD) (w : Fin cfg0.W) : (dat0 (E1 m) c).arrAt w cfg0.N = E2 m dat0 c (Pipeline.arrRef spec0 w) :=
  (W2_arr m dat0 c w).symm
theorem hrest0 (c : Dev nD) : ∀ b, b ∉ Finset.univ.image (Pipeline.arrRef spec0) → E2 m dat0 c b = E1 m c b :=
  fun b hb => W2_of_ne m dat0 c b fun w e => hb (Finset.mem_image.mpr ⟨w, Finset.mem_univ _, e⟩)
/-- After the attention: its arrays at what the pipeline leaves, every other buffer as entered. -/
def W3 (c : Dev nD) : Valuation τ sig (Elt F) :=
  Pipeline.withArrays spec1 c (W2 m dat0 c) fun w => (dat1 (E2 m dat0) c).arrAt w cfg1.N
theorem W3_arr (c : Dev nD) (w : Fin cfg1.W) :
    W3 m dat0 dat1 c (Proc.devRef .tc (Pipeline.arrRef spec1 w)) = (dat1 (E2 m dat0) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m dat0 dat1 c (Proc.devRef .tc b) = W2 m dat0 c (Proc.devRef .tc b) := by
  unfold W3; exact Pipeline.withArrays_of_ne spec1 c _ _ b hb
abbrev E3 : Contents F := fun c b => W3 m dat0 dat1 c b
theorem hF1 (c : Dev nD) (w : Fin cfg1.W) : (dat1 (E2 m dat0) c).arrAt w cfg1.N = E3 m dat0 dat1 c (Pipeline.arrRef spec1 w) :=
  (W3_arr m dat0 dat1 c w).symm
theorem hrest1 (c : Dev nD) : ∀ b, b ∉ Finset.univ.image (Pipeline.arrRef spec1) → E3 m dat0 dat1 c b = E2 m dat0 c b :=
  fun b hb => W3_of_ne m dat0 dat1 c b fun w e => hb (Finset.mem_image.mpr ⟨w, Finset.mem_univ _, e⟩)

/-! ## The proof data family and the thread state -/

abbrev tables : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) tables p) c
  | ⟨0, _⟩ => fun c => dat0 (E1 m) c
  | ⟨1, _⟩ => fun c => dat1 (E2 m dat0) c
abbrev noVar : Variants := Variants.none
abbrev noLev : GSem nD τ sig → Finset Unit := fun _ => ∅
abbrev lev0 : GSem nD τ sig → Unit → ℕ := fun _ _ => 0
/-- What rides beside the buffers through every segment: the generator register at some state, and nothing owed. -/
abbrev Rest (c : Dev nD) : sProp 𝕄 := iprop((∃ r, prngReg c r) ∗ ∃ W, owes (c : Thread nD τ) (0 : CellTallies nD τ sig Unit) W)
abbrev hostSeg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ noVar noLev lev0 :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Last (c : Dev nD) : sProp 𝕄 := iprop(StableHlo.held (c : Thread nD τ) (Pipeline.ucRefs τ sig) (W3 m dat0 dat1 c) ∗ ∃ r, prngReg c r)

/-! ## What the regions' proof data must satisfy -/

variable (hA0 : ∀ (V : Contents F) c w, (dat0 V c).A w = V c (Pipeline.arrRef spec0 w))
variable (hq0 : ∀ (V : Contents F) c w, (dat0 V c).q w = fullShare)
variable (hw0 : ∀ (V : Contents F) c t, (dat0 V c).owed t = 0)
variable (hr0 : ∀ (V : Contents F) c t, (dat0 V c).recorded t = Set.univ)
variable (hin0 : ∀ (V : Contents F) c, Pipeline.ΦA spec0 c ⊢ (dat0 V c).Φ 0)
variable (hout0 : ∀ (V : Contents F) c, (dat0 V c).Φ (Fin.last cfg0.N) ⊢ Pipeline.ΦA spec0 c)
variable (hb0 : ∀ (V : Contents F) c, BodyObligation (dat0 V c) (defs₀ (F := F)) Variants.none () Set.univ)
variable (hA1 : ∀ (V : Contents F) c w, (dat1 V c).A w = V c (Pipeline.arrRef spec1 w))
variable (hq1 : ∀ (V : Contents F) c w, (dat1 V c).q w = fullShare)
variable (hw1 : ∀ (V : Contents F) c t, (dat1 V c).owed t = 0)
variable (hr1 : ∀ (V : Contents F) c t, (dat1 V c).recorded t = Set.univ)
variable (hin1 : ∀ (V : Contents F) c, Pipeline.ΦA spec1 c ⊢ (dat1 V c).Φ 0)
variable (hout1 : ∀ (V : Contents F) c, (dat1 V c).Φ (Fin.last cfg1.N) ⊢ Pipeline.ΦA spec1 c)
variable (hb1 : ∀ (V : Contents F) c, BodyObligation (dat1 V c) (defs₀ (F := F)) Variants.none () Set.univ)

/-! ## The regions as segments -/

set_option backward.isDefEq.respectTransparency.types false in
/-- The projection region over the thread state: entered from every unscoped buffer at `W1`, left at `W2`. -/
def reg0 : Pipeline.RegionSeg (pcfgs (F := F)) tables (pdats m dat0 dat1) () defs₀ noVar noLev lev0 0 where
  win := launch0.win.to₀
  block_pos := launch0.block_pos
  stage_whole := launch0.stage_whole
  K := PEmpty
  osem k := k.elim
  ho := Pipeline.OwnSemFacts.none _
  hbody c := (hb0 (E1 m) c).loose
  hwaits := Pipeline.hwaits_of_owed_zero _ _ _ _ noLev lev0 0 fun c t => hw0 (E1 m) c t
  pre c := iprop(StableHlo.held (c : Thread nD τ) (Pipeline.ucRefs τ sig) (W1 m c) ∗ Rest c)
  post c := iprop(StableHlo.held (c : Thread nD τ) (Pipeline.ucRefs τ sig) (W2 m dat0 c) ∗ Rest c)
  X c := iprop(∃ r, prngReg c r)
  Y c := iprop(∃ r, prngReg c r)
  Z c := Pipeline.unscopedRest (Ix := Unit) (Name := ℕ) (U := UR sig nD τ) (Lvl := ℕ) spec0 c (E1 m c)
  hentry c := by
    rw [Pipeline.ownSems0_none]
    have hsplit := Pipeline.arrays_of_unscopedBufs (p := 0) (pcfgs (F := F)) tables (pdats m dat0 dat1) launch0.win launch0.arr_whole c
      ((pdats m dat0 dat1 0 c).share_full fun w => hq0 (E1 m) c w) (E1 m c) fun w => hA0 (E1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m dat0 dat1 0 c).owed 0 = 0 from hw0 (E1 m) c 0]
      icases HO with ⟨%W, HO⟩; iexists W; isplitr
      · ipureintro; exact fun _ _ => Or.inl (by rw [show (pdats m dat0 dat1 0 c).recorded 0 = Set.univ from hr0 (E1 m) c 0]; trivial)
      iexact HO
    isplitl [Hp]; · iexact Hp
    iexact Hrest
  hin c := by
    refine (?_ : _ ⊢ (Pipeline.ΦA spec0 c : sProp 𝕄)).trans (hin0 (E1 m) c)
    unfold Pipeline.ΦA
    iintro ⟨Hp, -, Hr⟩
    isplitl [Hr]; · iexact Hr
    iexact Hp
  hout c := by
    rw [Pipeline.ownSems0_none]
    refine (hout0 (E1 m) c).trans (?_ : (Pipeline.ΦA spec0 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tables (Ix := Unit) (Name := ℕ) (U := UR sig nD τ) (Lvl := ℕ)
      launch0.win launch0.arr_whole c (pdats m dat0 dat1) ((pdats m dat0 dat1 0 c).share_full fun w => hq0 (E1 m) c w)
      (E1 m c) (E2 m dat0 c) ((pdats m dat0 dat1 0 c).arrAt · cfg0.N) (hF0 m dat0 c) (hrest0 m dat0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m dat0 dat1 0 c).owed (Fin.last _) = 0 from hw0 (E1 m) c _]
    icases HO with ⟨%W, -, HO⟩; iexists W; iexact HO

set_option backward.isDefEq.respectTransparency.types false in
/-- The attention region over the thread state: entered from every unscoped buffer at `W2`, left at `W3`. -/
def reg1 : Pipeline.RegionSeg (pcfgs (F := F)) tables (pdats m dat0 dat1) () defs₀ noVar noLev lev0 1 where
  win := launch1.win.to₀
  block_pos := launch1.block_pos
  stage_whole := launch1.stage_whole
  K := PEmpty
  osem k := k.elim
  ho := Pipeline.OwnSemFacts.none _
  hbody c := (hb1 (E2 m dat0) c).loose
  hwaits := Pipeline.hwaits_of_owed_zero _ _ _ _ noLev lev0 1 fun c t => hw1 (E2 m dat0) c t
  pre c := iprop(StableHlo.held (c : Thread nD τ) (Pipeline.ucRefs τ sig) (W2 m dat0 c) ∗ Rest c)
  post c := iprop(Last m dat0 dat1 c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E2 m dat0 c)
  hentry c := by
    rw [Pipeline.ownSems0_none]
    have hsplit := Pipeline.arrays_of_unscopedBufs (p := 1) (pcfgs (F := F)) tables (pdats m dat0 dat1) launch1.win launch1.arr_whole c
      ((pdats m dat0 dat1 1 c).share_full fun w => hq1 (E2 m dat0) c w) (E2 m dat0 c) fun w => hA1 (E2 m dat0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m dat0 dat1 1 c).owed 0 = 0 from hw1 (E2 m dat0) c 0]
      icases HO with ⟨%W, HO⟩; iexists W; isplitr
      · ipureintro; exact fun _ _ => Or.inl (by rw [show (pdats m dat0 dat1 1 c).recorded 0 = Set.univ from hr1 (E2 m dat0) c 0]; trivial)
      iexact HO
    isplitl [Hp]; · iexact Hp
    iexact Hrest
  hin c := by
    refine (?_ : _ ⊢ (Pipeline.ΦA spec1 c : sProp 𝕄)).trans (hin1 (E2 m dat0) c)
    unfold Pipeline.ΦA
    iintro ⟨Hp, -, Hr⟩
    isplitl [Hr]; · iexact Hr
    iexact Hp
  hout c := by
    rw [Pipeline.ownSems0_none]
    refine (hout1 (E2 m dat0) c).trans (?_ : (Pipeline.ΦA spec1 c : sProp 𝕄) ⊢ _)
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tables (Ix := Unit) (Name := ℕ) (U := UR sig nD τ) (Lvl := ℕ)
      launch1.win launch1.arr_whole c (pdats m dat0 dat1) ((pdats m dat0 dat1 1 c).share_full fun w => hq1 (E2 m dat0) c w)
      (E2 m dat0 c) (E3 m dat0 dat1 c) ((pdats m dat0 dat1 1 c).arrAt · cfg1.N) (hF1 m dat0 dat1 c) (hrest1 m dat0 dat1 c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    rw [show (pdats m dat0 dat1 1 c).owed (Fin.last _) = 0 from hw1 (E2 m dat0) c _]
    icases HO with ⟨%W, -, HO⟩; iexists W; iexact HO

/-! ## @main as segments, and the launch -/

abbrev segments : List (Pipeline.Seg (pcfgs (F := F)) tables (pdats m dat0 dat1) () defs₀ noVar noLev lev0) :=
  [ .host (hostSeg hostOps0 hostOps0_sub hostOps0_fresh (W0 m)),
    .region (reg0 m dat0 dat1 hA0 hq0 hw0 hr0 hin0 hout0 hb0),
    .region (reg1 m dat0 dat1 hA1 hq1 hw1 hr1 hin1 hout1 hb1) ]

theorem main_is_segments (c : Dev nD) :
    main (F := F) c = Pipeline.Seg.run (segments m dat0 dat1 hA0 hq0 hw0 hr0 hin0 hout0 hb0 hA1 hq1 hw1 hr1 hin1 hout1 hb1) :=
  (main_chain c).trans (by chain_rfl)

include hA0 hq0 hw0 hr0 hin0 hout0 hb0 hA1 hq1 hw1 hr1 hin1 hout1 hb1 in
set_option backward.isDefEq.respectTransparency.types false in
/-- THE RUN: every weakly fair execution of @main from memory `m` with zero counters terminates, nothing faulting,
    and the final memory holds every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W3 m dat0 dat1 c b) :=
  Pipeline.θ_run_regions_kit (pcfgs (F := F)) tables (pdats m dat0 dat1) () cellOf_inj emb₁ defs₀ noVar noLev lev0 m ρ main
    (segments m dat0 dat1 hA0 hq0 hw0 hr0 hin0 hout0 hb0 hA1 hq1 hw1 hr1 hin1 hout1 hb1)
    (fun c Q => by rw [main_is_segments m dat0 dat1 hA0 hq0 hw0 hr0 hin0 hout0 hb0 hA1 hq1 hw1 hr1 hin1 hout1 hb1 c])
    (by simp only [segments, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ Rest c)) (Tₙ := Last m dat0 dat1)
    (hch := ⟨fun _ => .rfl, fun _ => .rfl, fun _ => .rfl, fun _ => .rfl⟩)
    (hinit := by
      refine Pipeline.initEach noLev lev0 fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m dat0 dat1 c b)
    (hfin := fun c s' => by
      iintro ⟨⟨Hh, -⟩, HSI⟩
      unfold StableHlo.held
      imodintro
      iapply (pointsTo_read_all (Pipeline.ucRefs τ sig) (fun b => (((c : Thread nD τ)).1, b)) (W3 m dat0 dat1 c) s')
      isplitl [Hh] <;> iassumption)
    (hQ := fun s h c => h c)

end Run

end Cert.KernelIdeal.Hand

end
-- ==== Proof.IdealArgs.lean ====
/-
  The arguments end as launched, and what the host lines write.

  Between the segments a core holds every unscoped buffer at a known valuation.  No host line writes an argument,
  and no region changes one: the projection reads the activations and the key weights through two input windows,
  whose final arrays are their entry arrays, and touches no other argument; the attention touches none.  So the
  last valuation at each argument walks back to the launch memory.  The regions' result arrays sit at their windows'
  final arrays.  At the extended reals the host lines leave the query weights times the word of 1/32, and the value
  weights themselves (rounding to the narrower format is the identity there).
-/
import proofs.«171242_j71287867179099_2_alg».proof.Proof.IdealRun
import Idealize.ShloMosaic.PureOps.Ideal

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

section Args

variable (m : (ℓ : Loc nD τ sig) → Buf (Elt F) ℓ)
variable (dat0 : Contents F → (c : Dev nD) → Dat τ (Elt F) Unit ℕ (UR sig nD τ) ℕ cfg0 c)
variable (dat1 : Contents F → (c : Dev nD) → Dat τ (Elt F) Unit ℕ (UR sig nD τ) ℕ cfg1 c)
variable (hA0 : ∀ (V : Contents F) c w, (dat0 V c).A w = V c (Pipeline.arrRef spec0 w))

/-! ## No host line writes an argument -/

theorem W1_main_arg0 (c : Dev nD) : W1 m c (Proc.devRef .tc main_arg0) = m ((c : Thread nD τ).loc main_arg0) :=
  (V1_of m c main_arg0 (by decide)).trans rfl
theorem W1_main_arg1 (c : Dev nD) : W1 m c (Proc.devRef .tc main_arg1) = m ((c : Thread nD τ).loc main_arg1) :=
  (V1_of m c main_arg1 (by decide)).trans rfl
theorem W1_main_arg2 (c : Dev nD) : W1 m c (Proc.devRef .tc main_arg2) = m ((c : Thread nD τ).loc main_arg2) :=
  (V1_of m c main_arg2 (by decide)).trans rfl
theorem W1_main_arg3 (c : Dev nD) : W1 m c (Proc.devRef .tc main_arg3) = m ((c : Thread nD τ).loc main_arg3) :=
  (V1_of m c main_arg3 (by decide)).trans rfl

/-! ## The arguments end as launched -/

include hA0 in
/-- The activations: no window of the attention; input window 0 of the projection, whose final array is its entry
    array; written by no host line. -/
theorem W3_main_arg0 (c : Dev nD) : W3 m dat0 dat1 c (Proc.devRef .tc main_arg0) = m ((c : Thread nD τ).loc main_arg0) :=
  calc W3 m dat0 dat1 c (Proc.devRef .tc main_arg0)
    _ = W2 m dat0 c (Proc.devRef .tc main_arg0) := W3_of_ne m dat0 dat1 c main_arg0 (by decide)
    _ = W1 m c (Proc.devRef .tc main_arg0) :=
        (W2_arr m dat0 c 0).trans (((dat0 (E1 m) c).arrAt_in 0 rfl _).trans (hA0 (E1 m) c 0))
    _ = m ((c : Thread nD τ).loc main_arg0) := W1_main_arg0 m c

/-- The query weights: no window of either region; written by no host line. -/
theorem W3_main_arg1 (c : Dev nD) : W3 m dat0 dat1 c (Proc.devRef .tc main_arg1) = m ((c : Thread nD τ).loc main_arg1) :=
  calc W3 m dat0 dat1 c (Proc.devRef .tc main_arg1)
    _ = W2 m dat0 c (Proc.devRef .tc main_arg1) := W3_of_ne m dat0 dat1 c main_arg1 (by decide)
    _ = W1 m c (Proc.devRef .tc main_arg1) := W2_of_ne m dat0 c main_arg1 (by decide)
    _ = m ((c : Thread nD τ).loc main_arg1) := W1_main_arg1 m c

include hA0 in
/-- The key weights: no window of the attention; input window 2 of the projection, whose final array is its entry
    array; written by no host line. -/
theorem W3_main_arg2 (c : Dev nD) : W3 m dat0 dat1 c (Proc.devRef .tc main_arg2) = m ((c : Thread nD τ).loc main_arg2) :=
  calc W3 m dat0 dat1 c (Proc.devRef .tc main_arg2)
    _ = W2 m dat0 c (Proc.devRef .tc main_arg2) := W3_of_ne m dat0 dat1 c main_arg2 (by decide)
    _ = W1 m c (Proc.devRef .tc main_arg2) :=
        (W2_arr m dat0 c 2).trans (((dat0 (E1 m) c).arrAt_in 2 rfl _).trans (hA0 (E1 m) c 2))
    _ = m ((c : Thread nD τ).loc main_arg2) := W1_main_arg2 m c

/-- The value weights: no window of either region; written by no host line. -/
theorem W3_main_arg3 (c : Dev nD) : W3 m dat0 dat1 c (Proc.devRef .tc main_arg3) = m ((c : Thread nD τ).loc main_arg3) :=
  calc W3 m dat0 dat1 c (Proc.devRef .tc main_arg3)
    _ = W2 m dat0 c (Proc.devRef .tc main_arg3) := W3_of_ne m dat0 dat1 c main_arg3 (by decide)
    _ = W1 m c (Proc.devRef .tc main_arg3) := W2_of_ne m dat0 c main_arg3 (by decide)
    _ = m ((c : Thread nD τ).loc main_arg3) := W1_main_arg3 m c

/-! ## The regions' result arrays -/

/-- The result: window 3 of the attention, at that window's final array. -/
theorem W3_main_v4 (c : Dev nD) : W3 m dat0 dat1 c (Proc.devRef .tc main_v4) = (dat1 (E2 m dat0) c).arrAt 3 cfg1.N :=
  W3_arr m dat0 dat1 c 3

/-- The queries: window 4 of the projection, at that window's final array. -/
theorem W2_main_v3_0 (c : Dev nD) : W2 m dat0 c (Proc.devRef .tc main_v3_0) = (dat0 (E1 m) c).arrAt 4 cfg0.N :=
  W2_arr m dat0 c 4
/-- The keys: window 5 of the projection. -/
theorem W2_main_v3_1 (c : Dev nD) : W2 m dat0 c (Proc.devRef .tc main_v3_1) = (dat0 (E1 m) c).arrAt 5 cfg0.N :=
  W2_arr m dat0 c 5
/-- The values: window 6 of the projection. -/
theorem W2_main_v3_2 (c : Dev nD) : W2 m dat0 c (Proc.devRef .tc main_v3_2) = (dat0 (E1 m) c).arrAt 6 cfg0.N :=
  W2_arr m dat0 c 6

end Args

/-! ## What the host lines leave, at the extended reals -/

section IdealHost

/-- The scaled query weights: each entry times the word of 1/32. -/
theorem W1_main_v1 (m : (ℓ : Loc nD τ sig) → Buf (Elt Ideal) ℓ) (c : Dev nD) :
    (W1 (F := Ideal) m c (Proc.devRef .tc main_v1) : S1024x1024.Idx → EReal)
      = fun i => HMul.hMul (α := EReal) (β := EReal) (γ := EReal) (m ((c : Thread nD τ).loc main_arg1) i)
          (Ideal.ofBits .f32 0x3D000000#32) := by
  show StableHlo.after hostOps0 _ (Proc.devRef .tc main_v1) = _
  after_results
  rfl

/-- The value weights rounded to the narrower format: at the extended reals, themselves. -/
theorem W1_main_v2 (m : (ℓ : Loc nD τ sig) → Buf (Elt Ideal) ℓ) (c : Dev nD) :
    (W1 (F := Ideal) m c (Proc.devRef .tc main_v2) : S1024x1024.Idx → EReal) = m ((c : Thread nD τ).loc main_arg3) := by
  show StableHlo.after hostOps0 _ (Proc.devRef .tc main_v2) = _
  after_results
  rfl

end IdealHost

end Cert.KernelIdeal.Hand

end
-- ==== Proof.IdealWhole.lean ====
/-
  The whole run of the program with both regions' proof data in place: every weakly fair execution terminates, no
  fault, and the final memory holds every unscoped buffer at the valuation the two pipelines leave.  The frame
  claim reads the four arguments off it: no host line and no region writes an argument.
-/
import proofs.«171242_j71287867179099_2_alg».proof.Proof.IdealProj
import proofs.«171242_j71287867179099_2_alg».proof.Proof.IdealAttn
import proofs.«171242_j71287867179099_2_alg».proof.Proof.IdealRun
import proofs.«171242_j71287867179099_2_alg».proof.Proof.IdealArgs

noncomputable section

namespace Cert.KernelIdeal.Hand

open Idealize.ShloMosaic Idealize.ShloMosaic.TcCoe
open Idealize.SL Idealize.SL.BI Idealize.SL.Sem
open Idealize.ShloMosaic.Pipeline (Dat)
open Cert.KernelIdeal Cert.KernelIdeal.Gen

variable {F : FTy → Type} [FloatOps F]

/-- The two regions' proof data as functions of their entry contents. -/
abbrev projData : Contents F → (c : Dev nD) → Dat τ (Elt F) Unit ℕ (UR sig nD τ) ℕ cfg0 c := fun V c => dat0 V c
abbrev attnData : Contents F → (c : Dev nD) → Dat τ (Elt F) Unit ℕ (UR sig nD τ) ℕ cfg1 c := fun V c => dat1 V c

variable (m : (ℓ : Loc nD τ sig) → Buf (Elt F) ℓ) (ρ : Dev nD → PrngReg)

/-- The valuation the program ends at. -/
abbrev Final : Dev nD → Valuation τ sig (Elt F) := W3 m projData attnData

theorem whole_run : θ_run defs (onTc (τ := τ) (main (F := F))) ⟨m, fun _ => 0, ρ⟩ (fun r => ∀ c : Dev nD,
      ∀ b ∈ Pipeline.ucRefs τ sig, r.2.mem (((c : Thread nD τ)).1, b) = Final m c b) :=
  run_all m ρ projData attnData
    (fun V c w => A_eq0 V c w) (fun _ _ _ => rfl) (fun _ _ _ => rfl) (fun _ _ _ => rfl)
    (fun _ _ => Idealize.SL.BI.Entails.refl _) (fun _ _ => Idealize.SL.BI.Entails.refl _) (fun V c => body_obligation0 V c)
    (fun V c w => A_eq1 V c w) (fun _ _ _ => rfl) (fun _ _ _ => rfl) (fun _ _ _ => rfl)
    (fun V c => hin1 V c) (fun V c => hout1 V c) (fun V c => body_obligation1 V c)

/-- The frame: the four argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W3_main_arg0 m projData attnData (fun V c w => A_eq0 V c w) c),
     (h c _ (mem_uc main_arg1 (by decide))).trans (W3_main_arg1 m projData attnData c),
     (h c _ (mem_uc main_arg2 (by decide))).trans (W3_main_arg2 m projData attnData (fun V c w => A_eq0 V c w) c),
     (h c _ (mem_uc main_arg3 (by decide))).trans (W3_main_arg3 m projData attnData c)⟩)
    (whole_run m ρ)

end Cert.KernelIdeal.Hand

end
-- ==== Proof.Spec.lean ====
/-
  What the two programs compute, as functions of the four argument arrays over the extended reals.

  Both programs form Q = x·Wq, K = x·Wk, V = x·Wv, the scores S = Q·Kᵀ scaled by 1/√1024 = 1/32, a softmax of each
  score row, and that row's weighted sum of the rows of V.  The reference does it whole (`RefSpec`): scale the
  scores, subtract the row maximum, exponentiate, divide by the row sum, multiply by V.  The kernel scales Wq
  first, and takes the softmax of a row STREAMING over eight tiles of 512 keys (`Row.step`): it carries a running
  maximum m, a running denominator l and running numerators acc, rescales the carried l and acc by exp(m − m')
  whenever the maximum moves to m', and divides once at the end (`G`).
-/
import Idealize.ShloMosaic.PureOps.Ideal
import Idealize.ShloMosaic.PureOps.Ideal.Laws
import Idealize.ShloMosaic.Lib.ValueIdx

noncomputable section

namespace Cert.Attn

open Idealize.ShloMosaic Idealize.ShloMosaic.ValueIdx

/-- An a × b array of extended reals, indexed as the printed programs index it. -/
abbrev Mat (a b : ℕ) : Type := (⟨2, ![a, b]⟩ : Shape).Idx → EReal

/-- The factor the kernel multiplies the query weights by: the word of 1/32. -/
def scale : EReal := Ideal.ofBits .f32 0x3D000000#32

/-- Row i of x times column d of w. -/
def proj (x : Mat 4096 1024) (w : Mat 1024 1024) (i : Fin 4096) (d : Fin 1024) : EReal :=
  ∑ k : Fin 1024, x (ix2 i k) * w (ix2 k d)

/-- The kernel's queries: row i of x times column d of the scaled query weights. -/
def projQ (x : Mat 4096 1024) (wq : Mat 1024 1024) (i : Fin 4096) (d : Fin 1024) : EReal :=
  ∑ k : Fin 1024, x (ix2 i k) * (wq (ix2 k d) * scale)

/-- The kernel's score of query row i against key row j. -/
def score (x : Mat 4096 1024) (wq wk : Mat 1024 1024) (i j : Fin 4096) : EReal :=
  ∑ d : Fin 1024, projQ x wq i d * proj x wk j d

/-! ## The kernel: a row's softmax taken tile by tile -/

/-- What one query row carries from one key tile to the next: the running maximum, the running denominator, the
    running numerators (one per output column). -/
structure Row where
  m : EReal
  l : EReal
  acc : Fin 1024 → EReal

/-- Before the first tile: maximum −∞, sums zero. -/
def Row.init : Row := ⟨⊥, 0, fun _ => 0⟩

/-- One key tile: `s` the row's 512 scores against the tile's keys, `v` the tile's 512 value rows. -/
def Row.step (st : Row) (s : Fin 512 → EReal) (v : Fin 512 → Fin 1024 → EReal) : Row :=
  let mn := max st.m ((Finset.univ : Finset (Fin 512)).fold max ⊥ s)
  { m := mn
    l := Ideal.exp (st.m - mn) * st.l + ∑ j : Fin 512, Ideal.exp (s j - mn)
    acc := fun d => Ideal.exp (st.m - mn) * st.acc d + ∑ j : Fin 512, Ideal.exp (s j - mn) * v j d }

/-- Key j of tile n (tiles of 512 consecutive keys; n is read modulo 8). -/
def tile (n : ℕ) (j : Fin 512) : Fin 4096 := ⟨(n % 8) * 512 + j.val, by have := j.isLt; omega⟩

/-- The row after its first n tiles, for scores `s` against all keys and all value rows `v`. -/
def Row.after (s : Fin 4096 → EReal) (v : Fin 4096 → Fin 1024 → EReal) : ℕ → Row
  | 0 => Row.init
  | n + 1 => (Row.after s v n).step (fun j => s (tile n j)) (fun j => v (tile n j))

/-- THE KERNEL'S RESULT: after all eight tiles, numerators over the denominator. -/
def G (x : Mat 4096 1024) (wq wk wv : Mat 1024 1024) : Mat 4096 1024 := fun i =>
  Ideal.div ((Row.after (score x wq wk (i 0)) (proj x wv) 8).acc (i 1)) ((Row.after (score x wq wk (i 0)) (proj x wv) 8).l)

/-! ## The reference: the softmax of a whole row -/

/-- The reference's scale: one over the square root of 1024, as it computes it. -/
def refScale : EReal := Ideal.div (Ideal.ofBits .f32 0x3F800000#32) (Ideal.sqrt (Ideal.ofBits .f32 0x44800000#32))

/-- The reference's score of query row i against key row j. -/
def refScore (x : Mat 4096 1024) (wq wk : Mat 1024 1024) (i j : Fin 4096) : EReal :=
  (∑ d : Fin 1024, proj x wq i d * proj x wk j d) * refScale

/-- A row's maximum as the reference takes it: the fold of max from −∞, then once more against −∞. -/
def refMax (s : Fin 4096 → EReal) : EReal :=
  max (Ideal.ofBits .f32 0xFF800000#32) ((Finset.univ : Finset (Fin 4096)).fold max (Ideal.ofBits .f32 0xFF800000#32) s)

/-- The row's shifted exponentials and their sum (from the zero word). -/
def refExp (s : Fin 4096 → EReal) (j : Fin 4096) : EReal := Ideal.exp (s j - refMax s)
def refDen (s : Fin 4096 → EReal) : EReal := Ideal.ofBits .f32 0x00000000#32 + ∑ j : Fin 4096, refExp s j

/-- THE REFERENCE'S RESULT: each row's softmax weights times the value rows. -/
def RefSpec (x : Mat 4096 1024) (wq wk wv : Mat 1024 1024) : Mat 4096 1024 := fun i =>
  ∑ j : Fin 4096, Ideal.div (refExp (refScore x wq wk (i 0)) j) (refDen (refScore x wq wk (i 0))) * proj x wv j (i 1)

end Cert.Attn

end
-- ==== Proof.LibMatmulRowsByCols.lean ====
/-
  A matrix product that contracts the LAST axis of the left operand with the FIRST axis of the right one
  ("nk,km→nm": rows against columns), over the extended reals, for any extents.

  For A of shape [N, K] and B of shape [K, M] and the dimension numbers contracting [1] × [0], free axes [0] and [1],
  no batch axis, the product's entry (n, c) is  Σₖ A(n, k) · B(k, c).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  The contraction is indexed by the one-axis contraction shape, and each operand's index at (output entry,
  contraction index) is computed from the lists by position; here the positions are read once, symbolically in
  N, K, M, and the sum is re-indexed by the shared coordinate k : Fin K.
-/
import Idealize.ShloMosaic.PureOps.Ideal
import Idealize.ShloMosaic.PureOps.Ideal.Laws
import Idealize.ShloMosaic.Lib.ValueIdx

noncomputable section

namespace Cert.RowsByCols

open Idealize.ShloMosaic Idealize.ShloMosaic.ValueIdx

variable {N K M : Nat}

/-- The dimension numbers of "nk,km→nm": the left operand contracted on axis 1 and free on axis 0, the right one
    contracted on axis 0 and free on axis 1, no batch axis. -/
structure Is (d : DotDims ⟨2, ![N, K]⟩ ⟨2, ![K, M]⟩ ⟨2, ![N, M]⟩) : Prop where
  lc : d.lhsContracting = [1]
  rc : d.rhsContracting = [0]
  ln : d.lhsNonContracting = [0]
  rn : d.rhsNonContracting = [1]
  lb : d.lhsBatch = []
  rb : d.rhsBatch = []

/-- The side condition a record with these lists carries. -/
abbrev WFt (N K M : Nat) : Prop := DotDims.WF (⟨2, ![N, K]⟩ : Shape) ⟨2, ![K, M]⟩ ⟨2, ![N, M]⟩ [1] [0] [0] [1] [] []

/-- The record with these lists, over a given proof of its side condition. -/
abbrev dims (wf : WFt N K M) : DotDims ⟨2, ![N, K]⟩ ⟨2, ![K, M]⟩ ⟨2, ![N, M]⟩ := ⟨[1], [0], [0], [1], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row is the contraction index. -/
theorem rhs_row (wf : WFt N K M) (i : (⟨2, ![N, M]⟩ : Shape).Idx) (k : (dims wf).contr.Idx) :
    ((dims wf).rhsIdx i k 0).val = (k ⟨0, Nat.one_pos⟩).val :=
  (dims wf).rhsIdx_val_of_single rfl i k

/-- The right operand's column at output entry i is i's column. -/
theorem rhs_col (wf : WFt N K M) (i : (⟨2, ![N, M]⟩ : Shape).Idx) (k : (dims wf).contr.Idx) :
    ((dims wf).rhsIdx i k 1).val = (i 1).val := by
  unfold DotDims.rhsIdx
  rw [dif_neg (show ¬(1 : Fin (⟨2, ![K, M]⟩ : Shape).rank) ∈ (dims wf).rhsBatch from List.not_mem_nil),
    dif_pos (show (1 : Fin (⟨2, ![K, M]⟩ : Shape).rank) ∈ (dims wf).rhsNonContracting from List.mem_singleton.2 rfl)]
  rfl

/-- The contraction at entry (n, c), re-indexed by the shared coordinate, for the record spelt with the lists. -/
theorem sum_dims (wf : WFt N K M) {φ₁ φ₂ : FTy}
    (A : FVec Ideal ⟨2, ![N, K]⟩ φ₁) (B : FVec Ideal ⟨2, ![K, M]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 k c) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 k c :=
    funext fun a => Fin.ext (by
      match a with
      | ⟨0, _⟩ => exact (rhs_row wf _ _).trans hk
      | ⟨1, _⟩ => exact rhs_col wf _ _)
  rw [el, er]

/-- The same for ANY record that has the lists: it is the record spelt with them. -/
theorem sum_apply (d : DotDims ⟨2, ![N, K]⟩ ⟨2, ![K, M]⟩ ⟨2, ![N, M]⟩) (h : Is d) {φ₁ φ₂ : FTy}
    (A : FVec Ideal ⟨2, ![N, K]⟩ φ₁) (B : FVec Ideal ⟨2, ![K, M]⟩ φ₂) (n : Fin N) (c : Fin M) :
    ∑ k : d.contr.Idx, A (d.lhsIdx (ix2 n c) k) * B (d.rhsIdx (ix2 n c) k) = ∑ k : Fin K, A (ix2 n k) * B (ix2 k c) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(k, c). -/
theorem matmul_zero_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    matmul d prec A B (constant (F := Ideal) ⟨2, ![N, M]⟩ .f32 0x00000000#32) (ix2 n c)
      = ∑ k : Fin K, A (ix2 n k) * B (ix2 k c) := by
  simp only [matmul]
  rw [Ideal.matmul_constant_zero_apply]
  exact sum_apply d h A B n c

/-- The HOST's general dot product, at entry (n, c): the same sum. -/
theorem dotGeneral_apply (d : DotDims ⟨2, ![N, K]⟩ ⟨2, ![K, M]⟩ ⟨2, ![N, M]⟩) (h : Is d) (prec : Option ContractPrecision)
    {φ₁ φ₂ : FTy} (A : FVec Ideal ⟨2, ![N, K]⟩ φ₁) (B : FVec Ideal ⟨2, ![K, M]⟩ φ₂) (n : Fin N) (c : Fin M) :
    Host.dotGeneral d prec A B (ix2 n c) = ∑ k : Fin K, A (ix2 n k) * B (ix2 k c) := by
  simp only [Host.dotGeneral]
  rw [Ideal.dotGeneral_apply]
  exact sum_apply d h A B n c

end Cert.RowsByCols

end
-- ==== Proof.LibMatmulRowsByRows.lean ====
/-
  A matrix product that contracts the LAST axis of both operands ("nk,mk→nm": rows against rows), over the
  extended reals, for any extents.

  For A of shape [N, K] and B of shape [M, K] and the dimension numbers contracting [1] × [1], free axes [0] and [0],
  no batch axis, the product's entry (n, m) is  Σₖ A(n, k) · B(m, k).  This holds of a kernel's matrix product into
  the zero accumulator and of the host's general dot product alike, whatever the precision attribute: over the
  extended reals both are the plain contraction. The lemmas ask only that the dimension-number record HAS these six
  lists (`Is d`: six equations, each `rfl` for a printed record), not that it is spelt in any particular way.

  Why a proof is needed at all: the contraction is indexed by the one-axis contraction shape, and each operand's
  index at (output entry, contraction index) is computed from the lists by position; here the positions are read
  once, symbolically in N, K, M, and the sum is re-indexed by the column k : Fin K.
-/
import Idealize.ShloMosaic.PureOps.Ideal
import Idealize.ShloMosaic.PureOps.Ideal.Laws
import Idealize.ShloMosaic.Lib.ValueIdx

noncomputable section

namespace Cert.RowsByRows

open Idealize.ShloMosaic Idealize.ShloMosaic.ValueIdx

variable {N K M : Nat}

/-- The dimension numbers of "nk,mk→nm": both operands contracted on axis 1, free on axis 0, no batch axis. -/
structure Is (d : DotDims ⟨2, ![N, K]⟩ ⟨2, ![M, K]⟩ ⟨2, ![N, M]⟩) : Prop where
  lc : d.lhsContracting = [1]
  rc : d.rhsContracting = [1]
  ln : d.lhsNonContracting = [0]
  rn : d.rhsNonContracting = [0]
  lb : d.lhsBatch = []
  rb : d.rhsBatch = []

/-- The side condition a record with these lists carries. -/
abbrev WFt (N K M : Nat) : Prop := DotDims.WF (⟨2, ![N, K]⟩ : Shape) ⟨2, ![M, K]⟩ ⟨2, ![N, M]⟩ [1] [1] [0] [0] [] []

/-- The record with these lists, over a given proof of its side condition. -/
abbrev dims (wf : WFt N K M) : DotDims ⟨2, ![N, K]⟩ ⟨2, ![M, K]⟩ ⟨2, ![N, M]⟩ := ⟨[1], [1], [0], [0], [], [], wf⟩

/-- The left operand's row at output entry i is i's row. -/
theorem lhs_row (wf : WFt N K M) (i : (⟨2, ![N, M]⟩ : Shape).Idx) (k : (dims wf).contr.Idx) :
    ((dims wf).lhsIdx i k 0).val = (i 0).val := by
  unfold DotDims.lhsIdx
  rw [dif_neg (show ¬(0 : Fin (⟨2, ![N, K]⟩ : Shape).rank) ∈ (dims wf).lhsBatch from List.not_mem_nil),
    dif_pos (show (0 : Fin (⟨2, ![N, K]⟩ : Shape).rank) ∈ (dims wf).lhsNonContracting from List.mem_singleton.2 rfl)]
  rfl

/-- The left operand's column is the contraction index. -/
theorem lhs_col (wf : WFt N K M) (i : (⟨2, ![N, M]⟩ : Shape).Idx) (k : (dims wf).contr.Idx) :
    ((dims wf).lhsIdx i k 1).val = (k ⟨0, Nat.one_pos⟩).val :=
  (dims wf).lhsIdx_val_of_single rfl i k

/-- The right operand's row at output entry i is i's COLUMN. -/
theorem rhs_row (wf : WFt N K M) (i : (⟨2, ![N, M]⟩ : Shape).Idx) (k : (dims wf).contr.Idx) :
    ((dims wf).rhsIdx i k 0).val = (i 1).val := by
  unfold DotDims.rhsIdx
  rw [dif_neg (show ¬(0 : Fin (⟨2, ![M, K]⟩ : Shape).rank) ∈ (dims wf).rhsBatch from List.not_mem_nil),
    dif_pos (show (0 : Fin (⟨2, ![M, K]⟩ : Shape).rank) ∈ (dims wf).rhsNonContracting from List.mem_singleton.2 rfl)]
  rfl

/-- The right operand's column is the contraction index. -/
theorem rhs_col (wf : WFt N K M) (i : (⟨2, ![N, M]⟩ : Shape).Idx) (k : (dims wf).contr.Idx) :
    ((dims wf).rhsIdx i k 1).val = (k ⟨0, Nat.one_pos⟩).val :=
  (dims wf).rhsIdx_val_of_single rfl i k

/-- The contraction at entry (n, c), re-indexed by the shared column, for the record spelt with the lists. -/
theorem sum_dims (wf : WFt N K M) {φ₁ φ₂ : FTy}
    (A : FVec Ideal ⟨2, ![N, K]⟩ φ₁) (B : FVec Ideal ⟨2, ![M, K]⟩ φ₂) (n : Fin N) (c : Fin M) :
    ∑ k : (dims wf).contr.Idx, A ((dims wf).lhsIdx (ix2 n c) k) * B ((dims wf).rhsIdx (ix2 n c) k)
      = ∑ k : Fin K, A (ix2 n k) * B (ix2 c k) := by
  rw [← Equiv.sum_comp (contrEquiv1 (dims wf) K rfl rfl).symm]
  refine Finset.sum_congr rfl fun k _ => ?_
  have hk := contrEquiv1_symm_val (dims wf) K rfl rfl k
  have el : (dims wf).lhsIdx (ix2 n c) ((contrEquiv1 (dims wf) K rfl rfl).symm k) = ix2 n k :=
    funext fun a => Fin.ext (by
      match a with
      | ⟨0, _⟩ => exact lhs_row wf _ _
      | ⟨1, _⟩ => exact (lhs_col wf _ _).trans hk)
  have er : (dims wf).rhsIdx (ix2 n c) ((contrEquiv1 (dims wf) K rfl rfl).symm k) = ix2 c k :=
    funext fun a => Fin.ext (by
      match a with
      | ⟨0, _⟩ => exact rhs_row wf _ _
      | ⟨1, _⟩ => exact (rhs_col wf _ _).trans hk)
  rw [el, er]

/-- The same for ANY record that has the lists: it is the record spelt with them. -/
theorem sum_apply (d : DotDims ⟨2, ![N, K]⟩ ⟨2, ![M, K]⟩ ⟨2, ![N, M]⟩) (h : Is d) {φ₁ φ₂ : FTy}
    (A : FVec Ideal ⟨2, ![N, K]⟩ φ₁) (B : FVec Ideal ⟨2, ![M, K]⟩ φ₂) (n : Fin N) (c : Fin M) :
    ∑ k : d.contr.Idx, A (d.lhsIdx (ix2 n c) k) * B (d.rhsIdx (ix2 n c) k) = ∑ k : Fin K, A (ix2 n k) * B (ix2 c k) := by
  obtain ⟨lc, rc, ln, rn, lb, rb, wf⟩ := d
  obtain ⟨h1, h2, h3, h4, h5, h6⟩ := h
  dsimp only at h1 h2 h3 h4 h5 h6
  subst h1 h2 h3 h4 h5 h6
  exact sum_dims wf A B n c

/-- A KERNEL's matrix product into the zero accumulator, at entry (n, c): Σₖ A(n, k) · B(c, k). -/
theorem matmul_zero_apply (d : DotDims ⟨2, ![N, K]⟩ ⟨2, ![M, K]⟩ ⟨2, ![N, M]⟩) (h : Is d) (prec : Option ContractPrecision)
    {φ₁ φ₂ : FTy} (A : FVec Ideal ⟨2, ![N, K]⟩ φ₁) (B : FVec Ideal ⟨2, ![M, K]⟩ φ₂) (n : Fin N) (c : Fin M) :
    matmul d prec A B (constant (F := Ideal) ⟨2, ![N, M]⟩ .f32 0x00000000#32) (ix2 n c)
      = ∑ k : Fin K, A (ix2 n k) * B (ix2 c k) := by
  simp only [matmul]
  rw [Ideal.matmul_constant_zero_apply]
  exact sum_apply d h A B n c

/-- The HOST's general dot product, at entry (n, c): the same sum. -/
theorem dotGeneral_apply (d : DotDims ⟨2, ![N, K]⟩ ⟨2, ![M, K]⟩ ⟨2, ![N, M]⟩) (h : Is d) (prec : Option ContractPrecision)
    {φ₁ φ₂ : FTy} (A : FVec Ideal ⟨2, ![N, K]⟩ φ₁) (B : FVec Ideal ⟨2, ![M, K]⟩ φ₂) (n : Fin N) (c : Fin M) :
    Host.dotGeneral d prec A B (ix2 n c) = ∑ k : Fin K, A (ix2 n k) * B (ix2 c k) := by
  simp only [Host.dotGeneral]
  rw [Ideal.dotGeneral_apply]
  exact sum_apply d h A B n c

end Cert.RowsByRows

end
-- ==== Proof.LibColumnLayout.lean ====
import Idealize.ShloMosaic.Lib.ValueIdx
import Idealize.ShloMosaic.Lib.Pipeline.Value

/-!
# Columns and rows read at an index

Layout operations between a flat array `[a]`, a column `[a, 1]`, a row `[1, b]` and a matrix `[a, b]`, each read at an
index given by its coordinates as its operand at one index. No proof enumerates an extent; where an extent may be 1 the
operation reads coordinate 0 on that axis, which is then the only coordinate there is.
* `broadcastTo_a1_ab_apply`: a column `[a, 1]` broadcast to `[a, b]` reads, at `(p, c)`, the column at `(p, 0)`.
* `broadcastInDim_a_a1_apply`: a flat `[a]` array placed on axis 0 of `[a, 1]` reads, at `(p, u)`, the array at `p`.
* `broadcastInDim_a1_ab_apply`: a column `[a, 1]` placed on axes 0 and 1 of `[a, b]` reads, at `(p, c)`, the column
  at `(p, 0)`.
* `broadcastInDim_b_1b_apply`: a flat `[b]` array placed on axis 1 of `[1, b]` reads, at `(u, c)`, the array at `c`.
* `broadcastInDim_1b_ab_apply`: a row `[1, b]` placed on axes 0 and 1 of `[a, b]` reads, at `(p, c)`, the row at
  `(0, c)`.
* `shapeCast_a_a1_apply`: a flat `[a]` array cast to a column `[a, 1]` reads, at `(p, u)`, the array at `p`: both have
  row-major position `p`.
-/

namespace Cert.LibColumnLayout

open Idealize.ShloMosaic Idealize.ShloMosaic.ValueIdx

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array placed on axis 0 of `[a, 1]` reads, at `(p, u)`, the array at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` placed on both axes of `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[b]` array placed on axis 1 of `[1, b]` reads, at `(u, c)`, the array at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` placed on both axes of `[a, b]` reads, at `(p, c)`, the row's entry of column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A flat `[a]` array cast to a column `[a, 1]` reads, at `(p, u)`, the array at `p`: both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

end Cert.LibColumnLayout
-- ==== Proof.Payload.lean ====
/-
  The kernel bodies' arithmetic, read entry by entry over the extended reals.

  Projection: each of the three stored blocks is a plain matrix product of the row block of x with a weight array.
  Attention, one key tile: the scores tile is the product of the query block with the key block's transpose; the new
  running maximum of a row is the old one against the tile's row maximum; the carried denominator and numerators are
  rescaled by exp(old maximum − new maximum) and the tile's exponentials (times the value rows) added; the final
  output divides numerators by the denominator.  Row by row this is `Cert.Attn.Row.step`.
-/
import proofs.«171242_j71287867179099_2_alg».proof.Proof.Gen.KernelIdeal.Skeleton
import proofs.«171242_j71287867179099_2_alg».proof.Proof.Spec
import proofs.«171242_j71287867179099_2_alg».proof.Proof.LibMatmulRowsByCols
import proofs.«171242_j71287867179099_2_alg».proof.Proof.LibMatmulRowsByRows
import proofs.«171242_j71287867179099_2_alg».proof.Proof.LibColumnLayout
import Idealize.ShloMosaic.Lib.Pipeline.Value
import Idealize.ShloMosaic.Lib.ValueLayout

noncomputable section

namespace Cert.KernelIdeal.PayValue

open Idealize.ShloMosaic Idealize.ShloMosaic.ValueIdx
open Cert.KernelIdeal Cert.KernelIdeal.Gen Cert.Attn

/-! ## The projection's three products -/

theorem rowsByCols0 : Cert.RowsByCols.Is dot_S256x1024_S1024x1024_S256x1024_1_0_0_1_n_n := ⟨rfl, rfl, rfl, rfl, rfl, rfl⟩

theorem pay1_at (v0 : Vec Ideal S256x1024 .f32) (v1 : Vec Ideal S1024x1024 .f32) (r : Fin 256) (d : Fin 1024) :
    k0_pay1 (F := Ideal) v0 v1 (ix2 r d) = ∑ k : Fin 1024, v0 (ix2 r k) * v1 (ix2 k d) := by
  unfold k0_pay1
  rw [shapeCast_self]
  exact Cert.RowsByCols.matmul_zero_apply _ rowsByCols0 _ v0 v1 r d

theorem pay2_at (v0 : Vec Ideal S256x1024 .f32) (v5 : Vec Ideal S1024x1024 .f32) (r : Fin 256) (d : Fin 1024) :
    k0_pay2 (F := Ideal) v0 v5 (ix2 r d) = ∑ k : Fin 1024, v0 (ix2 r k) * v5 (ix2 k d) := by
  unfold k0_pay2
  exact Cert.RowsByCols.matmul_zero_apply _ rowsByCols0 _ v0 v5 r d

theorem pay3_at (v0 : Vec Ideal S256x1024 .f32) (v9 : Vec Ideal S1024x1024 .bf16) (r : Fin 256) (d : Fin 1024) :
    k0_pay3 (F := Ideal) v0 v9 (ix2 r d) = ∑ k : Fin 1024, v0 (ix2 r k) * v9 (ix2 k d) := by
  unfold k0_pay3
  rw [shapeCast_self]
  show FloatOps.truncf (F := Ideal) .bf16 _ (matmul _ none (truncf .bf16 v0 _) v9 _ (ix2 r d)) = _
  rw [Ideal.truncf_def]
  refine (Cert.RowsByCols.matmul_zero_apply _ rowsByCols0 _ (truncf .bf16 v0 _) v9 r d).trans ?_
  rfl

/-! ## One key tile of the attention -/

theorem rowsByRows1 : Cert.RowsByRows.Is dot_S512x1024_S512x1024_S512x512_1_1_0_0_n_n := ⟨rfl, rfl, rfl, rfl, rfl, rfl⟩
theorem rowsByCols1 : Cert.RowsByCols.Is dot_S512x512_S512x1024_S512x1024_1_0_0_1_n_n := ⟨rfl, rfl, rfl, rfl, rfl, rfl⟩

/-- The scores tile: query row r against key row j. -/
theorem pay7_at (q k : Vec Ideal S512x1024 .f32) (r j : Fin 512) :
    k1_pay7 (F := Ideal) q k (ix2 r j) = ∑ d : Fin 1024, q (ix2 r d) * k (ix2 j d) := by
  unfold k1_pay7
  rw [shapeCast_self, shapeCast_self]
  exact Cert.RowsByRows.matmul_zero_apply _ rowsByRows1 _ q k r j

theorem lift_row (r : Fin 512) (j : Fin 512) : reduces_S512x512_S512.lift (ix1 r) j = ix2 r j :=
  funext fun a => Fin.ext (by match a with | ⟨0, _⟩ => rfl | ⟨1, _⟩ => rfl)

/-- The new running maximum of row r. -/
theorem pay8_at (q k : Vec Ideal S512x1024 .f32) (m : Vec Ideal S512x1 .f32) (r : Fin 512) (u : Fin 1) :
    k1_pay8 (F := Ideal) q k m (ix2 r u)
      = max (m (ix2 r u)) ((Finset.univ : Finset (Fin 512)).fold max ⊥ fun j => k1_pay7 (F := Ideal) q k (ix2 r j)) := by
  unfold k1_pay8
  show max (m (ix2 r u)) (shapeCast S512x1 _ shapeCasts_S512_S512x1 (ix2 r u)) = _
  rw [Cert.LibColumnLayout.shapeCast_a_a1_apply]
  refine congrArg (max (m (ix2 r u))) ?_
  refine (Ideal.multiReduction_maximumf_single (k1_pay7 (F := Ideal) q k) 0xFF800000#32 reduces_S512x512_S512 _ _ (ix1 r)).trans ?_
  have hb : FloatOps.ofBits (F := Ideal) .f32 0xFF800000#32 = (⊥ : EReal) := by
    simp [Ideal.ofBits, Ideal.ieee]
  rw [hb]
  refine congrArg (Finset.fold max ⊥ · Finset.univ) ?_
  funext j
  exact congrArg (k1_pay7 (F := Ideal) q k) (lift_row r j)

/-- The factor the carried sums of row r are rescaled by. -/
theorem pay9_at (q k : Vec Ideal S512x1024 .f32) (m m' : Vec Ideal S512x1 .f32) (r : Fin 512) (u : Fin 1) :
    k1_pay9 (F := Ideal) q k m m' (ix2 r u) = Ideal.exp (m' (ix2 r u) - k1_pay8 (F := Ideal) q k m (ix2 r u)) := rfl

/-- The tile's shifted exponentials. -/
theorem pay10_at (q k : Vec Ideal S512x1024 .f32) (m : Vec Ideal S512x1 .f32) (r j : Fin 512) :
    k1_pay10 (F := Ideal) q k m (ix2 r j)
      = Ideal.exp (k1_pay7 (F := Ideal) q k (ix2 r j) - k1_pay8 (F := Ideal) q k m (ix2 r (0 : Fin 1))) := by
  unfold k1_pay10
  show Ideal.exp (k1_pay7 (F := Ideal) q k (ix2 r j) - broadcastTo S512x512 (k1_pay8 (F := Ideal) q k m) broadcasts_S512x1_S512x512 (ix2 r j)) = _
  rw [Cert.LibColumnLayout.broadcastTo_a1_ab_apply]

/-- The new denominator of row r. -/
theorem pay11_at (q k : Vec Ideal S512x1024 .f32) (m m' l : Vec Ideal S512x1 .f32) (r : Fin 512) (u : Fin 1) :
    k1_pay11 (F := Ideal) q k m m' l (ix2 r u)
      = k1_pay9 (F := Ideal) q k m m' (ix2 r u) * l (ix2 r u) + ∑ j : Fin 512, k1_pay10 (F := Ideal) q k m (ix2 r j) := by
  unfold k1_pay11
  rw [shapeCast_self]
  show k1_pay9 (F := Ideal) q k m m' (ix2 r u) * l (ix2 r u) + shapeCast S512x1 _ shapeCasts_S512_S512x1 (ix2 r u) = _
  rw [Cert.LibColumnLayout.shapeCast_a_a1_apply]
  refine congrArg (k1_pay9 (F := Ideal) q k m m' (ix2 r u) * l (ix2 r u) + ·) ?_
  refine (Ideal.multiReduction_add_single (k1_pay10 (F := Ideal) q k m) 0x00000000#32 reduces_S512x512_S512 _ _ (ix1 r)).trans ?_
  refine Finset.sum_congr rfl fun j _ => ?_
  exact congrArg (k1_pay10 (F := Ideal) q k m) (lift_row r j)

/-- The new numerators of row r. -/
theorem pay12_at (q k : Vec Ideal S512x1024 .f32) (m m' : Vec Ideal S512x1 .f32) (acc : Vec Ideal S512x1024 .f32)
    (v : Vec Ideal S512x1024 .bf16) (r : Fin 512) (d : Fin 1024) :
    k1_pay12 (F := Ideal) q k m m' acc v (ix2 r d)
      = k1_pay9 (F := Ideal) q k m m' (ix2 r (0 : Fin 1)) * acc (ix2 r d)
        + ∑ j : Fin 512, k1_pay10 (F := Ideal) q k m (ix2 r j) * v (ix2 j d) := by
  unfold k1_pay12
  rw [shapeCast_self]
  show broadcastTo S512x1024 (k1_pay9 (F := Ideal) q k m m') broadcasts_S512x1_S512x1024 (ix2 r d) * acc (ix2 r d)
      + matmul dot_S512x512_S512x1024_S512x1024_1_0_0_1_n_n none (truncf .bf16 (k1_pay10 (F := Ideal) q k m) _) v
          (constant (F := Ideal) S512x1024 .f32 0x00000000#32) (ix2 r d) = _
  rw [Cert.LibColumnLayout.broadcastTo_a1_ab_apply]
  refine congrArg (k1_pay9 (F := Ideal) q k m m' (ix2 r (0 : Fin 1)) * acc (ix2 r d) + ·) ?_
  refine (Cert.RowsByCols.matmul_zero_apply _ rowsByCols1 _ (truncf .bf16 (k1_pay10 (F := Ideal) q k m) _) v r d).trans ?_
  rfl

/-- The output: numerators over the denominator. -/
theorem pay3_out_at (acc : Vec Ideal S512x1024 .f32) (l : Vec Ideal S512x1 .f32) (r : Fin 512) (d : Fin 1024) :
    k1_pay3 (F := Ideal) acc l (ix2 r d) = Ideal.div (acc (ix2 r d)) (l (ix2 r (0 : Fin 1))) := by
  unfold k1_pay3
  show Ideal.div (acc (ix2 r d)) (broadcastTo S512x1024 l broadcasts_S512x1_S512x1024 (ix2 r d)) = _
  rw [Cert.LibColumnLayout.broadcastTo_a1_ab_apply]

/-- What the first tile stores first: maximum −∞, sums zero. -/
theorem pay4_at (i : S512x1.Idx) : k1_pay4 (F := Ideal) i = (⊥ : EReal) := by
  unfold k1_pay4
  rw [shapeCast_self]
  show Ideal.ofBits .f32 0xFF800000#32 = ⊥
  simp [Ideal.ofBits, Ideal.ieee]
theorem pay5_at (i : S512x1.Idx) : k1_pay5 (F := Ideal) i = (0 : EReal) := by
  unfold k1_pay5
  rw [shapeCast_self]
  exact Ideal.ofBits_zero_f32
theorem pay6_at (i : S512x1024.Idx) : k1_pay6 (F := Ideal) i = (0 : EReal) := by
  unfold k1_pay6
  rw [shapeCast_self]
  exact Ideal.ofBits_zero_f32
theorem pay1_id (v : FVec Ideal S512x1024 .f32) : k1_pay1 (F := Ideal) v = v := by
  unfold k1_pay1; rw [shapeCast_self]
theorem pay2_id (v : FVec Ideal S512x1 .f32) : k1_pay2 (F := Ideal) v = v := by
  unfold k1_pay2; rw [shapeCast_self]

/-! ## Row by row: one tile is one step of the streaming softmax -/

/-- Row r of a block state (maximum column, denominator column, numerator block). -/
def rowOf (m l : S512x1.Idx → EReal) (acc : S512x1024.Idx → EReal) (r : Fin 512) : Row :=
  ⟨m (ix2 r (0 : Fin 1)), l (ix2 r (0 : Fin 1)), fun d => acc (ix2 r d)⟩

/-- The tile's payloads, read at row r, are `Row.step` of the row's state on the row's scores against the tile's keys
    and the tile's value rows. -/
theorem step_row (q k : Vec Ideal S512x1024 .f32) (m l : Vec Ideal S512x1 .f32) (acc : Vec Ideal S512x1024 .f32)
    (v : Vec Ideal S512x1024 .bf16) (r : Fin 512) :
    rowOf (k1_pay8 (F := Ideal) q k m) (k1_pay11 (F := Ideal) q k m m l) (k1_pay12 (F := Ideal) q k m m acc v) r
      = (rowOf m l acc r).step (fun j => ∑ d : Fin 1024, q (ix2 r d) * k (ix2 j d)) (fun j d => v (ix2 j d)) := by
  have h7 : ∀ j : Fin 512, k1_pay7 (F := Ideal) q k (ix2 r j) = ∑ d : Fin 1024, q (ix2 r d) * k (ix2 j d) :=
    fun j => pay7_at q k r j
  unfold rowOf Row.step
  simp only [pay8_at, pay9_at, pay10_at, pay11_at, pay12_at, h7]

end Cert.KernelIdeal.PayValue

end
-- ==== Proof.ProjValue.lean ====
/- The projection region's three output arrays as functions of the arrays the region finds: each ends holding the
   matrix product of the activations (4096 × 1024) with one weight array (1024 × 1024), entry (i, d) the sum over k of
   x(i, k) · w(k, d). Point t of the 16-point grid writes rows 256·t … 256·t + 255 (all columns) of each product, so
   the sixteen write-backs cover each array; a point's block of the product reads the activations' rows of that block
   and the weight array whole. Over the extended reals. -/
import proofs.«171242_j71287867179099_2_alg».proof.Proof.IdealProj
import proofs.«171242_j71287867179099_2_alg».proof.Proof.Payload
import Idealize.ShloMosaic.Lib.Pipeline.Value

set_option pp.maxSteps 5000
set_option pp.deepTerms false

noncomputable section

namespace Cert.KernelIdeal.ProjValue

open Cert.KernelIdeal Cert.KernelIdeal.Gen Cert.KernelIdeal.Hand Cert.KernelIdeal.PayValue
open Idealize.ShloMosaic Idealize.ShloMosaic.TcCoe Idealize.ShloMosaic.ValueIdx Idealize.SL.Sem
open Idealize.ShloMosaic.Pipeline (Dat)

-- the core's buffer contents when the region is entered
variable (V : (c : Dev nD) → (b : Ref sig .tc) → Buf (Elt Ideal) ((c : Thread nD τ).loc b))

theorem hz : (![0, 0] : Fin 2 → Nat) = fun _ => 0 := funext fun a => by fin_cases a <;> rfl

/-- The product of a 4096 × 1024 array with a 1024 × 1024 array, entry by entry. -/
def rowsByCols (a0 : S4096x1024.Idx → EReal) (a1 : S1024x1024.Idx → EReal) : S4096x1024.Idx → EReal :=
  fun i => ∑ k : Fin 1024, a0 (ix2 (i 0) k) * a1 (ix2 k (i 1))

theorem rowsByCols_apply (a0 : S4096x1024.Idx → EReal) (a1 : S1024x1024.Idx → EReal) (i : S4096x1024.Idx) :
    rowsByCols a0 a1 i = ∑ k : Fin 1024, a0 (ix2 (i 0) k) * a1 (ix2 k (i 1)) := rfl

/-! ## Where each window's block sits at a point -/

/-- The activations' window and the three outputs' windows are at block row `t`, block column 0; the weight windows
    are the whole array at every point (decided over the 16 points). -/
theorem idx_rows : ∀ t : Fin cfg0.N,
    win0_0.index t (0 : Fin 2) = t.val ∧ win0_0.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)
theorem idx_whole : ∀ t : Fin cfg0.N,
    win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0 :=
  (by decide +kernel : ∀ t : Fin grid0.N, _)

/-! ## The input blocks as entries of the arrays -/

/-- The activations' block at point `t` is rows 256·t … 256·t + 255 of the array. -/
theorem xblk_apply (c : Dev nD) (t : Fin cfg0.N) (y : S256x1024.Idx) (i : S4096x1024.Idx)
    (h0 : (i 0).val = t.val * 256 + (y 0).val) (h1 : (i 1).val = (y 1).val) :
    (iblk0 V c 0 t : Vec Ideal S256x1024 .f32) y = (V c main_arg0 : S4096x1024.Idx → EReal) i := by
  obtain ⟨e0, e1, -⟩ := idx_rows t
  unfold iblk0
  rw [View.read_apply]
  show V c main_arg0 _ = V c main_arg0 _
  congr 1
  funext a
  apply Fin.ext
  match a with
  | ⟨0, _⟩ => show win0_0.index t (0 : Fin 2) * 256 + 1 * (y 0).val = (i 0).val; rw [e0, h0]; omega
  | ⟨1, _⟩ => show win0_0.index t (1 : Fin 2) * 1024 + 1 * (y 1).val = (i 1).val; rw [e1, h1]; omega

/-- Weight window 1's block at any point is the whole array. -/
theorem wblk1_apply (c : Dev nD) (t : Fin cfg0.N) (y : S1024x1024.Idx) :
    (iblk0 V c 1 t : Vec Ideal S1024x1024 .f32) y = (V c main_v1 : S1024x1024.Idx → EReal) y := by
  obtain ⟨e0, e1, -⟩ := idx_whole t
  unfold iblk0
  rw [View.read_apply]
  show V c main_v1 _ = V c main_v1 _
  congr 1
  funext a
  apply Fin.ext
  match a with
  | ⟨0, _⟩ => show win0_1.index t (0 : Fin 2) * 1024 + 1 * (y 0).val = (y 0).val; rw [e0]; omega
  | ⟨1, _⟩ => show win0_1.index t (1 : Fin 2) * 1024 + 1 * (y 1).val = (y 1).val; rw [e1]; omega

/-- Weight window 2's block at any point is the whole array. -/
theorem wblk2_apply (c : Dev nD) (t : Fin cfg0.N) (y : S1024x1024.Idx) :
    (iblk0 V c 2 t : Vec Ideal S1024x1024 .f32) y = (V c main_arg2 : S1024x1024.Idx → EReal) y := by
  obtain ⟨-, -, e0, e1, -⟩ := idx_whole t
  unfold iblk0
  rw [View.read_apply]
  show V c main_arg2 _ = V c main_arg2 _
  congr 1
  funext a
  apply Fin.ext
  match a with
  | ⟨0, _⟩ => show win0_2.index t (0 : Fin 2) * 1024 + 1 * (y 0).val = (y 0).val; rw [e0]; omega
  | ⟨1, _⟩ => show win0_2.index t (1 : Fin 2) * 1024 + 1 * (y 1).val = (y 1).val; rw [e1]; omega

/-- Weight window 3's block at any point is the whole array. -/
theorem wblk3_apply (c : Dev nD) (t : Fin cfg0.N) (y : S1024x1024.Idx) :
    (iblk0 V c 3 t : Vec Ideal S1024x1024 .bf16) y = (V c main_v2 : S1024x1024.Idx → EReal) y := by
  obtain ⟨-, -, -, -, e0, e1⟩ := idx_whole t
  unfold iblk0
  rw [View.read_apply]
  show V c main_v2 _ = V c main_v2 _
  congr 1
  funext a
  apply Fin.ext
  match a with
  | ⟨0, _⟩ => show win0_3.index t (0 : Fin 2) * 1024 + 1 * (y 0).val = (y 0).val; rw [e0]; omega
  | ⟨1, _⟩ => show win0_3.index t (1 : Fin 2) * 1024 + 1 * (y 1).val = (y 1).val; rw [e1]; omega

/-! ## One point's block of a product, over any blocks that read the arrays as above -/

/-- Entry `j` of the block the body stores for output 4, when its row block reads rows `T·256 …` of `a0` and its
    weight block reads `a1` whole, is the product's entry at the array index `i` under `j`. -/
theorem point4 (x0 : Vec Ideal S256x1024 .f32) (x1 : Vec Ideal S1024x1024 .f32)
    (a0 : S4096x1024.Idx → EReal) (a1 : S1024x1024.Idx → EReal) (T : ℕ)
    (h0 : ∀ (y : S256x1024.Idx) (i : S4096x1024.Idx), (i 0).val = T * 256 + (y 0).val → (i 1).val = (y 1).val → x0 y = a0 i)
    (h1 : ∀ y : S1024x1024.Idx, x1 y = a1 y)
    (j : S256x1024.Idx) (i : S4096x1024.Idx) (hi0 : (i 0).val = T * 256 + (j 0).val) (hi1 : (i 1).val = (j 1).val) :
    k0_pay1 (F := Ideal) x0 x1 j = rowsByCols a0 a1 i := by
  obtain ⟨r, d, rfl⟩ : ∃ (r : Fin 256) (d : Fin 1024), j = ix2 r d := ⟨j 0, j 1, eq_ix2 j⟩
  rw [pay1_at]
  unfold rowsByCols
  refine Finset.sum_congr rfl fun k _ => ?_
  have ed : (i 1 : Fin 1024) = d := Fin.ext hi1
  rw [h0 (ix2 r k) (ix2 (i 0) k) hi0 rfl, h1, ed]

/-- Entry `j` of the block the body stores for output 5, when its row block reads rows `T·256 …` of `a0` and its
    weight block reads `a1` whole, is the product's entry at the array index `i` under `j`. -/
theorem point5 (x0 : Vec Ideal S256x1024 .f32) (x1 : Vec Ideal S1024x1024 .f32)
    (a0 : S4096x1024.Idx → EReal) (a1 : S1024x1024.Idx → EReal) (T : ℕ)
    (h0 : ∀ (y : S256x1024.Idx) (i : S4096x1024.Idx), (i 0).val = T * 256 + (y 0).val → (i 1).val = (y 1).val → x0 y = a0 i)
    (h1 : ∀ y : S1024x1024.Idx, x1 y = a1 y)
    (j : S256x1024.Idx) (i : S4096x1024.Idx) (hi0 : (i 0).val = T * 256 + (j 0).val) (hi1 : (i 1).val = (j 1).val) :
    k0_pay2 (F := Ideal) x0 x1 j = rowsByCols a0 a1 i := by
  obtain ⟨r, d, rfl⟩ : ∃ (r : Fin 256) (d : Fin 1024), j = ix2 r d := ⟨j 0, j 1, eq_ix2 j⟩
  rw [pay2_at]
  unfold rowsByCols
  refine Finset.sum_congr rfl fun k _ => ?_
  have ed : (i 1 : Fin 1024) = d := Fin.ext hi1
  rw [h0 (ix2 r k) (ix2 (i 0) k) hi0 rfl, h1, ed]

/-- Entry `j` of the block the body stores for output 6, when its row block reads rows `T·256 …` of `a0` and its
    weight block reads `a1` whole, is the product's entry at the array index `i` under `j`. -/
theorem point6 (x0 : Vec Ideal S256x1024 .f32) (x1 : Vec Ideal S1024x1024 .bf16)
    (a0 : S4096x1024.Idx → EReal) (a1 : S1024x1024.Idx → EReal) (T : ℕ)
    (h0 : ∀ (y : S256x1024.Idx) (i : S4096x1024.Idx), (i 0).val = T * 256 + (y 0).val → (i 1).val = (y 1).val → x0 y = a0 i)
    (h1 : ∀ y : S1024x1024.Idx, x1 y = a1 y)
    (j : S256x1024.Idx) (i : S4096x1024.Idx) (hi0 : (i 0).val = T * 256 + (j 0).val) (hi1 : (i 1).val = (j 1).val) :
    k0_pay3 (F := Ideal) x0 x1 j = rowsByCols a0 a1 i := by
  obtain ⟨r, d, rfl⟩ : ∃ (r : Fin 256) (d : Fin 1024), j = ix2 r d := ⟨j 0, j 1, eq_ix2 j⟩
  rw [pay3_at]
  unfold rowsByCols
  refine Finset.sum_congr rfl fun k _ => ?_
  have ed : (i 1 : Fin 1024) = d := Fin.ext hi1
  rw [h0 (ix2 r k) (ix2 (i 0) k) hi0 rfl, h1, ed]

/-! ## What each point writes back, the cover, the arrays after the region -/

/-- What point `t` writes back to output 4's array is block `t` of the activations' product with the first weight array (the scaled query weights). -/
theorem flushed_eq4 (c : Dev nD) (t : Fin cfg0.N) :
    (dat0 V c).flushed 4 t = ((cfg0.win 4).blk t).view.read (Elt Ideal) (rowsByCols (V c main_arg0) (V c main_v1)) := by
  show (cfg0.win 4).cut (grid0.coords t) ((dat0 V c).after 4 t) = _
  rw [after0_4]
  unfold out0_4
  rw [View.canon_unit_zero hz]
  simp only [View.ld_unit_zero (S := S256x1024) hz, View.ld_unit_zero (S := S1024x1024) hz]
  obtain ⟨-, -, e0, e1, -⟩ := idx_rows t
  funext j
  show k0_pay1 (F := Ideal) (iblk0 V c 0 t) (iblk0 V c 1 t) j = rowsByCols (V c main_arg0) (V c main_v1) (((cfg0.win 4).blk t).view.emb j)
  refine point4 _ _ _ _ t.val (xblk_apply V c t) (wblk1_apply V c t) j _ ?_ ?_
  · show win0_4.index t (0 : Fin 2) * 256 + 1 * (j 0).val = t.val * 256 + (j 0).val; rw [e0]; omega
  · show win0_4.index t (1 : Fin 2) * 1024 + 1 * (j 1).val = (j 1).val; rw [e1]; omega

/-- An index of output 4's array is in point `t`'s block iff each coordinate is in the block's range on its axis. -/
theorem mem_blk4 (t : Fin cfg0.N) (i : S4096x1024.Idx) :
    i ∈ ((cfg0.win 4).blk t).view.set ↔ ∀ a : Fin 2, win0_4.index t a * S256x1024.size a ≤ (i a).val ∧ (i a).val < win0_4.index t a * S256x1024.size a + S256x1024.size a := by
  show i ∈ ((View.whole main_v3_0).slice (win0_4.rect t)).set ↔ _
  rw [View.set_slice_whole, Rect.mem_set_unit]
  exact Iff.rfl

/-- Row `r` of output 4's array is written back by point `r / 256`: the sixteen blocks cover the array. -/
theorem cover4 (i : S4096x1024.Idx) : ∃ t : Fin cfg0.N, (cfg0.win 4).flush t = true ∧ i ∈ ((cfg0.win 4).blk t).view.set := by
  have hi0 : (i 0).val < 4096 := (i 0).isLt
  have hi1 : (i 1).val < 1024 := (i 1).isLt
  have hN : cfg0.N = 16 := N_0
  obtain ⟨t, ht⟩ : ∃ t : Fin cfg0.N, t.val = (i 0).val / 256 := ⟨⟨(i 0).val / 256, by rw [hN]; omega⟩, rfl⟩
  refine ⟨t, flush0_4 t, ?_⟩
  rw [mem_blk4]
  obtain ⟨-, -, e0, e1, -⟩ := idx_rows t
  intro a
  match a with
  | ⟨0, _⟩ => show win0_4.index t (0 : Fin 2) * 256 ≤ (i 0).val ∧ (i 0).val < win0_4.index t (0 : Fin 2) * 256 + 256; rw [e0, ht]; omega
  | ⟨1, _⟩ => show win0_4.index t (1 : Fin 2) * 1024 ≤ (i 1).val ∧ (i 1).val < win0_4.index t (1 : Fin 2) * 1024 + 1024; rw [e1]; omega

/-- Output 4's array after the region: the activations' product with the first weight array (the scaled query weights). -/
theorem final0_4 (c : Dev nD) : (dat0 (F := Ideal) V c).arrAt 4 cfg0.N = rowsByCols (V c main_arg0) (V c main_v1) :=
  (dat0 V c).arrAt_eq_of_cover 4 (rowsByCols (V c main_arg0) (V c main_v1)) (fun t _ => flushed_eq4 V c t) cover4

/-- What point `t` writes back to output 5's array is block `t` of the activations' product with the key weights. -/
theorem flushed_eq5 (c : Dev nD) (t : Fin cfg0.N) :
    (dat0 V c).flushed 5 t = ((cfg0.win 5).blk t).view.read (Elt Ideal) (rowsByCols (V c main_arg0) (V c main_arg2)) := by
  show (cfg0.win 5).cut (grid0.coords t) ((dat0 V c).after 5 t) = _
  rw [after0_5]
  unfold out0_5
  rw [View.canon_unit_zero hz]
  simp only [View.ld_unit_zero (S := S256x1024) hz, View.ld_unit_zero (S := S1024x1024) hz]
  obtain ⟨-, -, -, -, e0, e1, -⟩ := idx_rows t
  funext j
  show k0_pay2 (F := Ideal) (iblk0 V c 0 t) (iblk0 V c 2 t) j = rowsByCols (V c main_arg0) (V c main_arg2) (((cfg0.win 5).blk t).view.emb j)
  refine point5 _ _ _ _ t.val (xblk_apply V c t) (wblk2_apply V c t) j _ ?_ ?_
  · show win0_5.index t (0 : Fin 2) * 256 + 1 * (j 0).val = t.val * 256 + (j 0).val; rw [e0]; omega
  · show win0_5.index t (1 : Fin 2) * 1024 + 1 * (j 1).val = (j 1).val; rw [e1]; omega

/-- An index of output 5's array is in point `t`'s block iff each coordinate is in the block's range on its axis. -/
theorem mem_blk5 (t : Fin cfg0.N) (i : S4096x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v3_1).slice (win0_5.rect t)).set ↔ _
  rw [View.set_slice_whole, Rect.mem_set_unit]
  exact Iff.rfl

/-- Row `r` of output 5's array is written back by point `r / 256`: the sixteen blocks cover the array. -/
theorem cover5 (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  have hN : cfg0.N = 16 := N_0
  obtain ⟨t, ht⟩ : ∃ t : Fin cfg0.N, t.val = (i 0).val / 256 := ⟨⟨(i 0).val / 256, by rw [hN]; omega⟩, rfl⟩
  refine ⟨t, flush0_5 t, ?_⟩
  rw [mem_blk5]
  obtain ⟨-, -, -, -, e0, e1, -⟩ := idx_rows t
  intro a
  match a with
  | ⟨0, _⟩ => show win0_5.index t (0 : Fin 2) * 256 ≤ (i 0).val ∧ (i 0).val < win0_5.index t (0 : Fin 2) * 256 + 256; rw [e0, ht]; omega
  | ⟨1, _⟩ => show win0_5.index t (1 : Fin 2) * 1024 ≤ (i 1).val ∧ (i 1).val < win0_5.index t (1 : Fin 2) * 1024 + 1024; rw [e1]; omega

/-- Output 5's array after the region: the activations' product with the key weights. -/
theorem final0_5 (c : Dev nD) : (dat0 (F := Ideal) V c).arrAt 5 cfg0.N = rowsByCols (V c main_arg0) (V c main_arg2) :=
  (dat0 V c).arrAt_eq_of_cover 5 (rowsByCols (V c main_arg0) (V c main_arg2)) (fun t _ => flushed_eq5 V c t) cover5

/-- What point `t` writes back to output 6's array is block `t` of the activations' product with the value weights (held in bf16). -/
theorem flushed_eq6 (c : Dev nD) (t : Fin cfg0.N) :
    (dat0 V c).flushed 6 t = ((cfg0.win 6).blk t).view.read (Elt Ideal) (rowsByCols (V c main_arg0) (V c main_v2)) := by
  show (cfg0.win 6).cut (grid0.coords t) ((dat0 V c).after 6 t) = _
  rw [after0_6]
  unfold out0_6
  rw [View.canon_unit_zero hz]
  simp only [View.ld_unit_zero (S := S256x1024) hz, View.ld_unit_zero (S := S1024x1024) hz]
  obtain ⟨-, -, -, -, -, -, e0, e1⟩ := idx_rows t
  funext j
  show k0_pay3 (F := Ideal) (iblk0 V c 0 t) (iblk0 V c 3 t) j = rowsByCols (V c main_arg0) (V c main_v2) (((cfg0.win 6).blk t).view.emb j)
  refine point6 _ _ _ _ t.val (xblk_apply V c t) (wblk3_apply V c t) j _ ?_ ?_
  · show win0_6.index t (0 : Fin 2) * 256 + 1 * (j 0).val = t.val * 256 + (j 0).val; rw [e0]; omega
  · show win0_6.index t (1 : Fin 2) * 1024 + 1 * (j 1).val = (j 1).val; rw [e1]; omega

/-- An index of output 6's array is in point `t`'s block iff each coordinate is in the block's range on its axis. -/
theorem mem_blk6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v3_2).slice (win0_6.rect t)).set ↔ _
  rw [View.set_slice_whole, Rect.mem_set_unit]
  exact Iff.rfl

/-- Row `r` of output 6's array is written back by point `r / 256`: the sixteen blocks cover the array. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hN : cfg0.N = 16 := N_0
  obtain ⟨t, ht⟩ : ∃ t : Fin cfg0.N, t.val = (i 0).val / 256 := ⟨⟨(i 0).val / 256, by rw [hN]; omega⟩, rfl⟩
  refine ⟨t, flush0_6 t, ?_⟩
  rw [mem_blk6]
  obtain ⟨-, -, -, -, -, -, e0, e1⟩ := idx_rows t
  intro a
  match a with
  | ⟨0, _⟩ => show win0_6.index t (0 : Fin 2) * 256 ≤ (i 0).val ∧ (i 0).val < win0_6.index t (0 : Fin 2) * 256 + 256; rw [e0, ht]; omega
  | ⟨1, _⟩ => show win0_6.index t (1 : Fin 2) * 1024 ≤ (i 1).val ∧ (i 1).val < win0_6.index t (1 : Fin 2) * 1024 + 1024; rw [e1]; omega

/-- Output 6's array after the region: the activations' product with the value weights (held in bf16). -/
theorem final0_6 (c : Dev nD) : (dat0 (F := Ideal) V c).arrAt 6 cfg0.N = rowsByCols (V c main_arg0) (V c main_v2) :=
  (dat0 V c).arrAt_eq_of_cover 6 (rowsByCols (V c main_arg0) (V c main_v2)) (fun t _ => flushed_eq6 V c t) cover6

end Cert.KernelIdeal.ProjValue

end
-- ==== Proof.StreamOf.lean ====
/-
  The kernel's result as a function of the three projected arrays: each row's softmax·V taken over eight key tiles,
  from the query array Q, the key array K and the value array V.  `G` is this at the arrays the projection computes.
-/
import proofs.«171242_j71287867179099_2_alg».proof.Proof.Spec

noncomputable section

namespace Cert.Attn

open Idealize.ShloMosaic Idealize.ShloMosaic.ValueIdx

/-- Row i₀ of Q scored against every key row, streamed against the value rows tile by tile; entry i₁ of the
    numerators over the denominator. -/
def streamOf (Q K V : Mat 4096 1024) : Mat 4096 1024 := fun i =>
  Ideal.div ((Row.after (fun j => ∑ d : Fin 1024, Q (ix2 (i 0) d) * K (ix2 j d)) (fun j d => V (ix2 j d)) 8).acc (i 1))
    ((Row.after (fun j => ∑ d : Fin 1024, Q (ix2 (i 0) d) * K (ix2 j d)) (fun j d => V (ix2 j d)) 8).l)

/-- The projected arrays, as the projection region leaves them. -/
def queries (x : Mat 4096 1024) (wq : Mat 1024 1024) : Mat 4096 1024 := fun i => projQ x wq (i 0) (i 1)
def rowsTimes (x : Mat 4096 1024) (w : Mat 1024 1024) : Mat 4096 1024 := fun i => proj x w (i 0) (i 1)

theorem G_eq_streamOf (x : Mat 4096 1024) (wq wk wv : Mat 1024 1024) :
    G x wq wk wv = streamOf (queries x wq) (rowsTimes x wk) (rowsTimes x wv) := rfl

end Cert.Attn

end
-- ==== Proof.KernelValue.lean ====
/-
  The kernel's result is G.

  The program ends with its result array at the attention pipeline's final array.  That array is the streamed
  softmax·V of the three arrays the attention finds: the projection's three final arrays.  Each of those is the
  product of the activations with one weight array as the projection finds it: the query weights times the word of
  1/32, the key weights, the value weights (the host lines leave exactly these, over the extended reals).  So the
  three arrays are the specification's queries, keys and values of the launch arguments, and the streamed
  softmax·V of them is G.
-/
import proofs.«171242_j71287867179099_2_alg».proof.Proof.IdealWhole
import proofs.«171242_j71287867179099_2_alg».proof.Proof.IdealArgs
import proofs.«171242_j71287867179099_2_alg».proof.Proof.ProjValue
import proofs.«171242_j71287867179099_2_alg».proof.Proof.StreamOf

noncomputable section

namespace Cert.KernelIdeal.KernelValue

open Cert.KernelIdeal Cert.KernelIdeal.Gen Cert.KernelIdeal.Hand Cert.KernelIdeal.ProjValue
open Idealize.ShloMosaic Idealize.ShloMosaic.TcCoe Idealize.ShloMosaic.ValueIdx Idealize.SL.Sem
open Idealize.ShloMosaic.Pipeline (Dat)

/-! ## A product of the activations with a weight array is the specification's -/

/-- With the weights times the word of 1/32: the specification's queries. -/
theorem rowsByCols_scaled (x : Cert.Attn.Mat 4096 1024) (wq : Cert.Attn.Mat 1024 1024) :
    rowsByCols x (fun i => wq i * Ideal.ofBits .f32 0x3D000000#32) = Cert.Attn.queries x wq := rfl

/-- With the weights themselves: the specification's rows-times-weights. -/
theorem rowsByCols_plain (x : Cert.Attn.Mat 4096 1024) (w : Cert.Attn.Mat 1024 1024) :
    rowsByCols x w = Cert.Attn.rowsTimes x w := rfl

/-! ## The three arrays the attention finds -/

section Arrays

variable (m : (ℓ : Loc nD τ sig) → Buf (Elt Ideal) ℓ) (c : Dev nD)

/-- The query array after the projection: the activations times the scaled query weights. -/
theorem queries_at :
    (W2 (F := Ideal) m projData c (Proc.devRef .tc main_v3_0) : S4096x1024.Idx → EReal) = (Cert.Attn.queries (m ((c : Thread nD τ).loc main_arg0)) (m ((c : Thread nD τ).loc main_arg1))) :=
  calc (W2 (F := Ideal) m projData c (Proc.devRef .tc main_v3_0) : S4096x1024.Idx → EReal)
    _ = (dat0 (F := Ideal) (E1 m) c).arrAt 4 cfg0.N := W2_main_v3_0 m projData c
    _ = rowsByCols (E1 m c main_arg0) (E1 m c main_v1) := final0_4 (E1 m) c
    _ = rowsByCols (m ((c : Thread nD τ).loc main_arg0)) (fun i => HMul.hMul (α := EReal) (β := EReal) (γ := EReal) (m ((c : Thread nD τ).loc main_arg1) i) (Ideal.ofBits .f32 0x3D000000#32)) := congrArg₂ rowsByCols (W1_main_arg0 m c) (W1_main_v1 m c)
    _ = (Cert.Attn.queries (m ((c : Thread nD τ).loc main_arg0)) (m ((c : Thread nD τ).loc main_arg1))) := rowsByCols_scaled _ _

/-- The key array after the projection: the activations times the key weights. -/
theorem keys_at :
    (W2 (F := Ideal) m projData c (Proc.devRef .tc main_v3_1) : S4096x1024.Idx → EReal) = (Cert.Attn.rowsTimes (m ((c : Thread nD τ).loc main_arg0)) (m ((c : Thread nD τ).loc main_arg2))) :=
  calc (W2 (F := Ideal) m projData c (Proc.devRef .tc main_v3_1) : S4096x1024.Idx → EReal)
    _ = (dat0 (F := Ideal) (E1 m) c).arrAt 5 cfg0.N := W2_main_v3_1 m projData c
    _ = rowsByCols (E1 m c main_arg0) (E1 m c main_arg2) := final0_5 (E1 m) c
    _ = rowsByCols (m ((c : Thread nD τ).loc main_arg0)) (m ((c : Thread nD τ).loc main_arg2)) := congrArg₂ rowsByCols (W1_main_arg0 m c) (W1_main_arg2 m c)
    _ = (Cert.Attn.rowsTimes (m ((c : Thread nD τ).loc main_arg0)) (m ((c : Thread nD τ).loc main_arg2))) := rowsByCols_plain _ _

/-- The value array after the projection: the activations times the value weights. -/
theorem values_at :
    (W2 (F := Ideal) m projData c (Proc.devRef .tc main_v3_2) : S4096x1024.Idx → EReal) = (Cert.Attn.rowsTimes (m ((c : Thread nD τ).loc main_arg0)) (m ((c : Thread nD τ).loc main_arg3))) :=
  calc (W2 (F := Ideal) m projData c (Proc.devRef .tc main_v3_2) : S4096x1024.Idx → EReal)
    _ = (dat0 (F := Ideal) (E1 m) c).arrAt 6 cfg0.N := W2_main_v3_2 m projData c
    _ = rowsByCols (E1 m c main_arg0) (E1 m c main_v2) := final0_6 (E1 m) c
    _ = rowsByCols (m ((c : Thread nD τ).loc main_arg0)) (m ((c : Thread nD τ).loc main_arg3)) := congrArg₂ rowsByCols (W1_main_arg0 m c) (W1_main_v2 m c)
    _ = (Cert.Attn.rowsTimes (m ((c : Thread nD τ).loc main_arg0)) (m ((c : Thread nD τ).loc main_arg3))) := rowsByCols_plain _ _

end Arrays

/-! ## The result -/

/-- THE KERNEL'S RESULT IS G: given that the attention's final result array is the streamed softmax·V of the three
    arrays it finds, the program's result array ends at G of the four launch arguments. -/
theorem result_is_G (m : (ℓ : Loc nD τ sig) → Buf (Elt Ideal) ℓ) (c : Dev nD)
    (hattn : ∀ (V : Contents Ideal) (c : Dev nD), (dat1 (F := Ideal) V c).arrAt 3 cfg1.N
      = Cert.Attn.streamOf (V c main_v3_0) (V c main_v3_1) (V c main_v3_2)) :
    Final (F := Ideal) m c (Proc.devRef .tc main_v4)
      = Cert.Attn.G (m ((c : Thread nD τ).loc main_arg0)) (m ((c : Thread nD τ).loc main_arg1)) (m ((c : Thread nD τ).loc main_arg2)) (m ((c : Thread nD τ).loc main_arg3)) :=
  calc Final (F := Ideal) m c (Proc.devRef .tc main_v4)
    _ = (dat1 (F := Ideal) (E2 m projData) c).arrAt 3 cfg1.N := W3_main_v4 m projData attnData c
    _ = Cert.Attn.streamOf (E2 m projData c main_v3_0) (E2 m projData c main_v3_1) (E2 m projData c main_v3_2) :=
        hattn (E2 m projData) c
    _ = Cert.Attn.streamOf (Cert.Attn.queries (m ((c : Thread nD τ).loc main_arg0)) (m ((c : Thread nD τ).loc main_arg1))) (Cert.Attn.rowsTimes (m ((c : Thread nD τ).loc main_arg0)) (m ((c : Thread nD τ).loc main_arg2))) (Cert.Attn.rowsTimes (m ((c : Thread nD τ).loc main_arg0)) (m ((c : Thread nD τ).loc main_arg3))) :=
        (congrArg (fun q => Cert.Attn.streamOf q (E2 m projData c main_v3_1) (E2 m projData c main_v3_2)) (queries_at m c)).trans
          ((congrArg (fun k => Cert.Attn.streamOf (Cert.Attn.queries (m ((c : Thread nD τ).loc main_arg0)) (m ((c : Thread nD τ).loc main_arg1))) k (E2 m projData c main_v3_2)) (keys_at m c)).trans
            (congrArg (fun v => Cert.Attn.streamOf (Cert.Attn.queries (m ((c : Thread nD τ).loc main_arg0)) (m ((c : Thread nD τ).loc main_arg1))) (Cert.Attn.rowsTimes (m ((c : Thread nD τ).loc main_arg0)) (m ((c : Thread nD τ).loc main_arg2))) v) (values_at m c)))
    _ = Cert.Attn.G (m ((c : Thread nD τ).loc main_arg0)) (m ((c : Thread nD τ).loc main_arg1)) (m ((c : Thread nD τ).loc main_arg2)) (m ((c : Thread nD τ).loc main_arg3)) := (Cert.Attn.G_eq_streamOf _ _ _ _).symm

end Cert.KernelIdeal.KernelValue

end
-- ==== Proof.AttnBlockReads.lean ====
/-
  The attention pipeline's windows, read at coordinates.

  The grid is 8 × 8: point t has query coordinate t / 8 and key coordinate t % 8. The query window's block at t is
  the 512 rows of the query array from row 512 · (t / 8); the key and value windows' blocks are the 512 rows of their
  arrays from row 512 · (t % 8); the output window's block is the 512 rows of the result from row 512 · (t / 8). A
  block's entry (r, d) is therefore its array's entry (512 · index + r, d).
-/
import proofs.«171242_j71287867179099_2_alg».proof.Proof.IdealAttnRuns
import Idealize.ShloMosaic.Lib.ValueIdx

noncomputable section

namespace Cert.KernelIdeal.AttnValue

open Cert.KernelIdeal Cert.KernelIdeal.Gen Cert.KernelIdeal.Hand
open Idealize.ShloMosaic Idealize.ShloMosaic.TcCoe Idealize.ShloMosaic.ValueIdx
open Idealize.SL Idealize.SL.Sem

variable {F : FTy → Type} [FloatOps F]
variable (V : (c : Dev nD) → (b : Ref sig .tc) → Buf (Elt F) ((c : Thread nD τ).loc b))

/-- The four windows' block indices at point t: the query and output windows move with t / 8, the key and value
    windows with t % 8; none moves along the columns. -/
theorem index1 : ∀ t : Fin grid1.N,
    (win1_0.index t 0 = t.val / 8 ∧ win1_0.index t 1 = 0) ∧ (win1_1.index t 0 = t.val % 8 ∧ win1_1.index t 1 = 0)
    ∧ (win1_2.index t 0 = t.val % 8 ∧ win1_2.index t 1 = 0) ∧ (win1_3.index t 0 = t.val / 8 ∧ win1_3.index t 1 = 0) := by
  decide +kernel

/-- The query block at point t, entry (r, d): row 512 · (t / 8) + r of the query array. -/
theorem iblk1_0_at (c : Dev nD) (t : Fin cfg1.N) (r : Fin 512) (d : Fin 1024) (i : Fin 4096)
    (hi : i.val = 512 * (t.val / 8) + r.val) :
    (iblk1 V c 0 t : Vec F S512x1024 .f32) (ix2 r d) = (V c main_v3_0 : Vec F S4096x1024 .f32) (ix2 i d) := by
  have hx := (index1 t).1
  unfold iblk1
  rw [View.read_apply]
  show V c main_v3_0 _ = V c main_v3_0 _
  congr 1
  funext a
  apply Fin.ext
  match a with
  | ⟨0, _⟩ => show win1_0.index t 0 * 512 + 1 * r.val = i.val; rw [hx.1, hi]; omega
  | ⟨1, _⟩ => show win1_0.index t 1 * 1024 + 1 * d.val = d.val; rw [hx.2]; omega

/-- The key block at point t, entry (j, d): row 512 · (t % 8) + j of the key array. -/
theorem iblk1_1_at (c : Dev nD) (t : Fin cfg1.N) (j : Fin 512) (d : Fin 1024) (i : Fin 4096)
    (hi : i.val = 512 * (t.val % 8) + j.val) :
    (iblk1 V c 1 t : Vec F S512x1024 .f32) (ix2 j d) = (V c main_v3_1 : Vec F S4096x1024 .f32) (ix2 i d) := by
  have hx := (index1 t).2.1
  unfold iblk1
  rw [View.read_apply]
  show V c main_v3_1 _ = V c main_v3_1 _
  congr 1
  funext a
  apply Fin.ext
  match a with
  | ⟨0, _⟩ => show win1_1.index t 0 * 512 + 1 * j.val = i.val; rw [hx.1, hi]; omega
  | ⟨1, _⟩ => show win1_1.index t 1 * 1024 + 1 * d.val = d.val; rw [hx.2]; omega

/-- The value block at point t, entry (j, d): row 512 · (t % 8) + j of the value array. -/
theorem iblk1_2_at (c : Dev nD) (t : Fin cfg1.N) (j : Fin 512) (d : Fin 1024) (i : Fin 4096)
    (hi : i.val = 512 * (t.val % 8) + j.val) :
    (iblk1 V c 2 t : Vec F S512x1024 .bf16) (ix2 j d) = (V c main_v3_2 : Vec F S4096x1024 .bf16) (ix2 i d) := by
  have hx := (index1 t).2.2.1
  unfold iblk1
  rw [View.read_apply]
  show V c main_v3_2 _ = V c main_v3_2 _
  congr 1
  funext a
  apply Fin.ext
  match a with
  | ⟨0, _⟩ => show win1_2.index t 0 * 512 + 1 * j.val = i.val; rw [hx.1, hi]; omega
  | ⟨1, _⟩ => show win1_2.index t 1 * 1024 + 1 * d.val = d.val; rw [hx.2]; omega

end Cert.KernelIdeal.AttnValue

end
-- ==== Proof.AttnRows.lean ====
/-
  The grid's walk over one query block is the streaming softmax of each of its rows.

  Point n of the 8 × 8 grid has query coordinate n / 8 and key coordinate n % 8; row r of its query block is the
  global row 512 · (n / 8) + r. If the state a row carries is reset and stepped once at the points with key
  coordinate 0, and stepped from the point before at every other point, each step taken on the row's scores against
  the point's key tile and on that tile's value rows, then after point n the row's state is the streaming state after
  its first n % 8 + 1 tiles: within a query block the points n − n % 8, …, n are the tiles 0, …, n % 8 in order, and
  the row does not change along them.
-/
import proofs.«171242_j71287867179099_2_alg».proof.Proof.Spec

noncomputable section

namespace Cert.Attn

/-- Row r of the query block of point n, as a row of the whole array. -/
def qrow (n : ℕ) (r : Fin 512) : Fin 4096 := ⟨512 * ((n / 8) % 8) + r.val, by have := r.isLt; omega⟩

theorem qrow_val (n : ℕ) (hn : n < 64) (r : Fin 512) : (qrow n r).val = 512 * (n / 8) + r.val := by
  simp only [qrow]; omega

theorem tile_val (n : ℕ) (j : Fin 512) : (tile n j).val = 512 * (n % 8) + j.val := by
  simp only [tile]; omega

/-- A family of row states that starts over at the key coordinate 0 and steps elsewhere is the streaming state. -/
theorem rows_after (sc : Fin 4096 → Fin 4096 → EReal) (vv : Fin 4096 → Fin 1024 → EReal) (R : ℕ → Fin 512 → Row) (N : ℕ)
    (hA : ∀ n, n < N → n % 8 = 0 → ∀ r, R n r
      = Row.init.step (fun j => sc (qrow n r) (tile (n % 8) j)) (fun j => vv (tile (n % 8) j)))
    (hB : ∀ n, n + 1 < N → (n + 1) % 8 ≠ 0 → ∀ r, R (n + 1) r
      = (R n r).step (fun j => sc (qrow (n + 1) r) (tile ((n + 1) % 8) j)) (fun j => vv (tile ((n + 1) % 8) j))) :
    ∀ n, n < N → ∀ r, R n r = Row.after (sc (qrow n r)) vv (n % 8 + 1) := by
  intro n
  induction n with
  | zero =>
    intro h r
    rw [hA 0 h rfl r]
    rfl
  | succ n ih =>
    intro h r
    by_cases h0 : (n + 1) % 8 = 0
    · rw [hA (n + 1) h h0 r, h0]
      rfl
    · have hm : (n + 1) % 8 = n % 8 + 1 := by omega
      have hq : qrow (n + 1) r = qrow n r := by
        apply Fin.ext
        simp only [qrow]
        omega
      rw [hB n h h0 r, ih (by omega) r, hq, hm]
      rfl

end Cert.Attn

end
-- ==== Proof.AttnCases.lean ====
/-
  What one grid point of the attention kernel leaves in its scratch buffers and in the output block, case by case,
  as the body's payloads of what it loaded.

  At a point with key coordinate 0 the body first stores −∞, 0, 0 into the running maximum, the running denominator
  and the running numerators, and then takes the step from those; at every other point it takes the step from what
  the point before left. The step stores the new denominator, then the new numerators, then the new maximum, each
  over its whole buffer, so each buffer ends holding that one payload (a later whole-buffer store hides an earlier
  one, and a load of a buffer after a whole-buffer store reads the stored payload). At a point with key coordinate 7
  the body then reads the numerators and the denominator back and stores their quotient into the output block.
-/
import proofs.«171242_j71287867179099_2_alg».proof.Proof.IdealAttnRunA
import proofs.«171242_j71287867179099_2_alg».proof.Proof.IdealAttnRunB
import proofs.«171242_j71287867179099_2_alg».proof.Proof.IdealAttnRunC
import Idealize.ShloMosaic.Lib.Pipeline.Value

set_option maxRecDepth 16384

noncomputable section

namespace Cert.KernelIdeal.AttnValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The zero offsets of a whole-buffer access, as a constant function. -/
theorem hz2 : (![0, 0] : Fin 2 → Nat) = fun _ => 0 := funext fun a => by fin_cases a <;> rfl

/-! ## Key coordinate 0: the step from −∞, 0, 0 -/

/-- The running maximum after a point with key coordinate 0. -/
theorem valA_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) :
    VS1_0.read (Elt F) (VS1_0.writes (Elt F) VS1_0.junk (kernelRun1_A c i arg2 harg2 arg3 harg3 arg4 harg4 arg5 harg5 arg6 harg6 arg7 harg7 arg8 harg8 hc0 hc1 x0 x1 x2).2.1)
      = k1_pay2 (k1_pay8 x0 x1 (k1_pay4 (F := F))) := by
  rw [View.read_writes_eq_canon _ _ _ (View.cover_of_tiledL (kernelRun1_A c i arg2 harg2 arg3 harg3 arg4 harg4 arg5 harg5 arg6 harg6 arg7 harg7 arg8 harg8 hc0 hc1 x0 x1 x2).2.1 S512x1.size (by sl_kernel_rfl))]
  unfold kernelRun1_A
  dsimp only
  sl_unfold_words
  rw [View.canon_cons_unit_zero (S := S512x1) hz2]
  simp only [View.readCov_unit_zero (S := S512x1) _ hz2, View.readCov_unit_zero (S := S512x1024) _ hz2, View.readAt_eq_ld, harg2.read_unread, harg3.read_unread, harg4.read_unread, harg5.read_unread, harg6.read_unread, harg7.read_unread, harg8.read_unread, View.ld_unit_zero (S := S512x1024) hz2, View.ld_unit_zero (S := S512x1) hz2]

/-- The running denominator after a point with key coordinate 0. -/
theorem valA_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) :
    VS1_1.read (Elt F) (VS1_1.writes (Elt F) VS1_1.junk (kernelRun1_A c i arg2 harg2 arg3 harg3 arg4 harg4 arg5 harg5 arg6 harg6 arg7 harg7 arg8 harg8 hc0 hc1 x0 x1 x2).2.2.1)
      = k1_pay11 x0 x1 (k1_pay4 (F := F)) (k1_pay4 (F := F)) (k1_pay5 (F := F)) := by
  rw [View.read_writes_eq_canon _ _ _ (View.cover_of_tiledL (kernelRun1_A c i arg2 harg2 arg3 harg3 arg4 harg4 arg5 harg5 arg6 harg6 arg7 harg7 arg8 harg8 hc0 hc1 x0 x1 x2).2.2.1 S512x1.size (by sl_kernel_rfl))]
  unfold kernelRun1_A
  dsimp only
  sl_unfold_words
  rw [View.canon_cons_unit_zero (S := S512x1) hz2]
  simp only [View.readCov_unit_zero (S := S512x1) _ hz2, View.readCov_unit_zero (S := S512x1024) _ hz2, View.readAt_eq_ld, harg2.read_unread, harg3.read_unread, harg4.read_unread, harg5.read_unread, harg6.read_unread, harg7.read_unread, harg8.read_unread, View.ld_unit_zero (S := S512x1024) hz2, View.ld_unit_zero (S := S512x1) hz2]

/-- The running numerators after a point with key coordinate 0. -/
theorem valA_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : cond1_0 i) (hc1 : ¬cond1_1 i)
    (x0 : Vec F S512x1024 .f32) (x1 : Vec F S512x1024 .f32) (x2 : Vec F S512x1024 .bf16) :
    VS1_2.read (Elt F) (VS1_2.writes (Elt F) VS1_2.junk (kernelRun1_A c i arg2 harg2 arg3 harg3 arg4 harg4 arg5 harg5 arg6 harg6 arg7 harg7 arg8 harg8 hc0 hc1 x0 x1 x2).2.2.2.1)
      = k1_pay1 (k1_pay12 x0 x1 (k1_pay4 (F := F)) (k1_pay4 (F := F)) (k1_pay6 (F := F)) x2) := by
  rw [View.read_writes_eq_canon _ _ _ (View.cover_of_tiledL (kernelRun1_A c i arg2 harg2 arg3 harg3 arg4 harg4 arg5 harg5 arg6 harg6 arg7 harg7 arg8 harg8 hc0 hc1 x0 x1 x2).2.2.2.1 S512x1024.size (by sl_kernel_rfl))]
  unfold kernelRun1_A
  dsimp only
  sl_unfold_words
  rw [View.canon_cons_unit_zero (S := S512x1024) hz2]
  simp only [View.readCov_unit_zero (S := S512x1) _ hz2, View.readCov_unit_zero (S := S512x1024) _ hz2, View.readAt_eq_ld, harg2.read_unread, harg3.read_unread, harg4.read_unread, harg5.read_unread, harg6.read_unread, harg7.read_unread, harg8.read_unread, View.ld_unit_zero (S := S512x1024) hz2, View.ld_unit_zero (S := S512x1) hz2]

/-! ## Key coordinate strictly between 0 and 7: the step from what the point before left -/

/-- The running maximum after such a point. -/
theorem valB_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) :
    VS1_0.read (Elt F) (VS1_0.writes (Elt F) VS1_0.junk (kernelRun1_B c i arg2 harg2 arg3 harg3 arg4 harg4 arg5 harg5 arg6 harg6 arg7 harg7 arg8 harg8 hc0 hc1 x0 x1 x2 xs0 xs1 xs2).2.1)
      = k1_pay2 (k1_pay8 x0 x1 xs0) := by
  rw [View.read_writes_eq_canon _ _ _ (View.cover_of_tiledL (kernelRun1_B c i arg2 harg2 arg3 harg3 arg4 harg4 arg5 harg5 arg6 harg6 arg7 harg7 arg8 harg8 hc0 hc1 x0 x1 x2 xs0 xs1 xs2).2.1 S512x1.size (by sl_kernel_rfl))]
  unfold kernelRun1_B
  dsimp only
  sl_unfold_words
  rw [View.canon_unit_zero (S := S512x1) hz2]
  simp only [View.readAt_eq_ld, harg2.read_unread, harg3.read_unread, harg4.read_unread, harg5.read_unread, harg6.read_unread, harg7.read_unread, harg8.read_unread, View.ld_unit_zero (S := S512x1024) hz2, View.ld_unit_zero (S := S512x1) hz2]

/-- The running denominator after such a point. -/
theorem valB_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) :
    VS1_1.read (Elt F) (VS1_1.writes (Elt F) VS1_1.junk (kernelRun1_B c i arg2 harg2 arg3 harg3 arg4 harg4 arg5 harg5 arg6 harg6 arg7 harg7 arg8 harg8 hc0 hc1 x0 x1 x2 xs0 xs1 xs2).2.2.1)
      = k1_pay11 x0 x1 xs0 xs0 xs1 := by
  rw [View.read_writes_eq_canon _ _ _ (View.cover_of_tiledL (kernelRun1_B c i arg2 harg2 arg3 harg3 arg4 harg4 arg5 harg5 arg6 harg6 arg7 harg7 arg8 harg8 hc0 hc1 x0 x1 x2 xs0 xs1 xs2).2.2.1 S512x1.size (by sl_kernel_rfl))]
  unfold kernelRun1_B
  dsimp only
  sl_unfold_words
  rw [View.canon_unit_zero (S := S512x1) hz2]
  simp only [View.readAt_eq_ld, harg2.read_unread, harg3.read_unread, harg4.read_unread, harg5.read_unread, harg6.read_unread, harg7.read_unread, harg8.read_unread, View.ld_unit_zero (S := S512x1024) hz2, View.ld_unit_zero (S := S512x1) hz2]

/-- The running numerators after such a point. -/
theorem valB_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : ¬cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) :
    VS1_2.read (Elt F) (VS1_2.writes (Elt F) VS1_2.junk (kernelRun1_B c i arg2 harg2 arg3 harg3 arg4 harg4 arg5 harg5 arg6 harg6 arg7 harg7 arg8 harg8 hc0 hc1 x0 x1 x2 xs0 xs1 xs2).2.2.2.1)
      = k1_pay1 (k1_pay12 x0 x1 xs0 xs0 xs2 x2) := by
  rw [View.read_writes_eq_canon _ _ _ (View.cover_of_tiledL (kernelRun1_B c i arg2 harg2 arg3 harg3 arg4 harg4 arg5 harg5 arg6 harg6 arg7 harg7 arg8 harg8 hc0 hc1 x0 x1 x2 xs0 xs1 xs2).2.2.2.1 S512x1024.size (by sl_kernel_rfl))]
  unfold kernelRun1_B
  dsimp only
  sl_unfold_words
  rw [View.canon_unit_zero (S := S512x1024) hz2]
  simp only [View.readAt_eq_ld, harg2.read_unread, harg3.read_unread, harg4.read_unread, harg5.read_unread, harg6.read_unread, harg7.read_unread, harg8.read_unread, View.ld_unit_zero (S := S512x1024) hz2, View.ld_unit_zero (S := S512x1) hz2]

/-! ## Key coordinate 7: the same step, then the quotient into the output block -/

/-- The running maximum after a point with key coordinate 7. -/
theorem valC_0 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) :
    VS1_0.read (Elt F) (VS1_0.writes (Elt F) VS1_0.junk (kernelRun1_C c i arg2 harg2 arg3 harg3 arg4 harg4 arg5 harg5 arg6 harg6 arg7 harg7 arg8 harg8 hc0 hc1 x0 x1 x2 xs0 xs1 xs2).2.1)
      = k1_pay2 (k1_pay8 x0 x1 xs0) := by
  rw [View.read_writes_eq_canon _ _ _ (View.cover_of_tiledL (kernelRun1_C c i arg2 harg2 arg3 harg3 arg4 harg4 arg5 harg5 arg6 harg6 arg7 harg7 arg8 harg8 hc0 hc1 x0 x1 x2 xs0 xs1 xs2).2.1 S512x1.size (by sl_kernel_rfl))]
  unfold kernelRun1_C
  dsimp only
  sl_unfold_words
  rw [View.canon_unit_zero (S := S512x1) hz2]
  simp only [View.readAt_eq_ld, harg2.read_unread, harg3.read_unread, harg4.read_unread, harg5.read_unread, harg6.read_unread, harg7.read_unread, harg8.read_unread, View.ld_unit_zero (S := S512x1024) hz2, View.ld_unit_zero (S := S512x1) hz2]

/-- The running denominator after a point with key coordinate 7. -/
theorem valC_1 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) :
    VS1_1.read (Elt F) (VS1_1.writes (Elt F) VS1_1.junk (kernelRun1_C c i arg2 harg2 arg3 harg3 arg4 harg4 arg5 harg5 arg6 harg6 arg7 harg7 arg8 harg8 hc0 hc1 x0 x1 x2 xs0 xs1 xs2).2.2.1)
      = k1_pay11 x0 x1 xs0 xs0 xs1 := by
  rw [View.read_writes_eq_canon _ _ _ (View.cover_of_tiledL (kernelRun1_C c i arg2 harg2 arg3 harg3 arg4 harg4 arg5 harg5 arg6 harg6 arg7 harg7 arg8 harg8 hc0 hc1 x0 x1 x2 xs0 xs1 xs2).2.2.1 S512x1.size (by sl_kernel_rfl))]
  unfold kernelRun1_C
  dsimp only
  sl_unfold_words
  rw [View.canon_unit_zero (S := S512x1) hz2]
  simp only [View.readAt_eq_ld, harg2.read_unread, harg3.read_unread, harg4.read_unread, harg5.read_unread, harg6.read_unread, harg7.read_unread, harg8.read_unread, View.ld_unit_zero (S := S512x1024) hz2, View.ld_unit_zero (S := S512x1) hz2]

/-- The running numerators after a point with key coordinate 7. -/
theorem valC_2 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) :
    VS1_2.read (Elt F) (VS1_2.writes (Elt F) VS1_2.junk (kernelRun1_C c i arg2 harg2 arg3 harg3 arg4 harg4 arg5 harg5 arg6 harg6 arg7 harg7 arg8 harg8 hc0 hc1 x0 x1 x2 xs0 xs1 xs2).2.2.2.1)
      = k1_pay1 (k1_pay12 x0 x1 xs0 xs0 xs2 x2) := by
  rw [View.read_writes_eq_canon _ _ _ (View.cover_of_tiledL (kernelRun1_C c i arg2 harg2 arg3 harg3 arg4 harg4 arg5 harg5 arg6 harg6 arg7 harg7 arg8 harg8 hc0 hc1 x0 x1 x2 xs0 xs1 xs2).2.2.2.1 S512x1024.size (by sl_kernel_rfl))]
  unfold kernelRun1_C
  dsimp only
  sl_unfold_words
  rw [View.canon_unit_zero (S := S512x1024) hz2]
  simp only [View.readAt_eq_ld, harg2.read_unread, harg3.read_unread, harg4.read_unread, harg5.read_unread, harg6.read_unread, harg7.read_unread, harg8.read_unread, View.ld_unit_zero (S := S512x1024) hz2, View.ld_unit_zero (S := S512x1) hz2]

/-- The output block after a point with key coordinate 7: the new numerators over the new denominator. -/
theorem valC_3 (c : Dev nD) (i : grid1.Coords) (arg2 : Memref sig .tc .vmem S512x1024 .f32) (harg2 : arg2.IsWhole) (arg3 : Memref sig .tc .vmem S512x1024 .f32) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1024 .f32) (harg8 : arg8.IsWhole) (hc0 : ¬cond1_0 i) (hc1 : cond1_1 i)
    (x0 : Vec F S512x1024 .f32) (x1 : Vec F S512x1024 .f32) (x2 : Vec F S512x1024 .bf16) (xs0 : Vec F S512x1 .f32) (xs1 : Vec F S512x1 .f32) (xs2 : Vec F S512x1024 .f32) :
    VO1_3.read (Elt F) (VO1_3.writes (Elt F) VO1_3.junk (kernelRun1_C c i arg2 harg2 arg3 harg3 arg4 harg4 arg5 harg5 arg6 harg6 arg7 harg7 arg8 harg8 hc0 hc1 x0 x1 x2 xs0 xs1 xs2).1)
      = k1_pay3 (k1_pay1 (k1_pay12 x0 x1 xs0 xs0 xs2 x2)) (k1_pay11 x0 x1 xs0 xs0 xs1) := by
  rw [View.read_writes_eq_canon _ _ _ (View.cover_of_tiledL (kernelRun1_C c i arg2 harg2 arg3 harg3 arg4 harg4 arg5 harg5 arg6 harg6 arg7 harg7 arg8 harg8 hc0 hc1 x0 x1 x2 xs0 xs1 xs2).1 S512x1024.size (by sl_kernel_rfl))]
  unfold kernelRun1_C
  dsimp only
  sl_unfold_words
  rw [View.canon_unit_zero (S := S512x1024) hz2]
  simp only [View.readCov_unit_zero (S := S512x1) _ hz2, View.readCov_unit_zero (S := S512x1024) _ hz2, View.readAt_eq_ld, harg2.read_unread, harg3.read_unread, harg4.read_unread, harg5.read_unread, harg6.read_unread, harg7.read_unread, harg8.read_unread, View.ld_unit_zero (S := S512x1024) hz2, View.ld_unit_zero (S := S512x1) hz2]

end Cert.KernelIdeal.AttnValue

end
-- ==== Proof.AttnInv.lean ====
/-
  The attention pipeline, point by point: each row's scratch state is the streaming softmax's, and the output block
  stored at key coordinate 7 is its result.

  Read row by row, what a point leaves in the three scratch buffers is one step of the streaming softmax, taken on
  the row's scores against the point's key tile and on that tile's value rows: from −∞, 0, 0 at key coordinate 0,
  from what the point before left elsewhere. The point's blocks are rows of the region's arrays: the query block at
  point t holds the rows from 512 · (t / 8), the key and value blocks the rows from 512 · (t % 8), so the row's
  scores against the tile are its scores against the keys 512 · (t % 8) + j. By induction along the grid the state
  of row r after point t is therefore the streaming state of the global row 512 · (t / 8) + r after t % 8 + 1
  tiles; at key coordinate 7 that is all eight tiles, and the stored output entry is its numerator over its
  denominator.
-/
import proofs.«171242_j71287867179099_2_alg».proof.Proof.IdealAttn
import proofs.«171242_j71287867179099_2_alg».proof.Proof.Payload
import proofs.«171242_j71287867179099_2_alg».proof.Proof.AttnBlockReads
import proofs.«171242_j71287867179099_2_alg».proof.Proof.AttnRows
import proofs.«171242_j71287867179099_2_alg».proof.Proof.AttnCases

set_option maxRecDepth 16384

noncomputable section

namespace Cert.KernelIdeal.AttnValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.KernelIdeal.PayValue Cert.Attn

/-! ## One point's arithmetic, row by row, over any blocks -/

/-- Row r of the state −∞, 0, 0 is the streaming softmax's initial state. -/
theorem rowOf_init (r : Fin 512) : rowOf (k1_pay4 (F := Ideal)) (k1_pay5 (F := Ideal)) (k1_pay6 (F := Ideal)) r = Row.init := by
  unfold rowOf Row.init
  simp only [pay4_at, pay5_at, pay6_at]

/-- Row r of what a point leaves, from the state m, l, acc: one step. -/
theorem row_step (q k : Vec Ideal S512x1024 .f32) (m l : Vec Ideal S512x1 .f32) (acc : Vec Ideal S512x1024 .f32)
    (v : Vec Ideal S512x1024 .bf16) (r : Fin 512) :
    rowOf (k1_pay2 (F := Ideal) (k1_pay8 (F := Ideal) q k m)) (k1_pay11 (F := Ideal) q k m m l)
        (k1_pay1 (F := Ideal) (k1_pay12 (F := Ideal) q k m m acc v)) r
      = (rowOf m l acc r).step (fun j => ∑ d : Fin 1024, q (ix2 r d) * k (ix2 j d)) (fun j d => v (ix2 j d)) := by
  rw [pay2_id, pay1_id]
  exact step_row q k m l acc v r

/-- Row r of what a point with key coordinate 0 leaves: one step from the initial state. -/
theorem row_first (q k : Vec Ideal S512x1024 .f32) (v : Vec Ideal S512x1024 .bf16) (r : Fin 512) :
    rowOf (k1_pay2 (F := Ideal) (k1_pay8 (F := Ideal) q k (k1_pay4 (F := Ideal))))
        (k1_pay11 (F := Ideal) q k (k1_pay4 (F := Ideal)) (k1_pay4 (F := Ideal)) (k1_pay5 (F := Ideal)))
        (k1_pay1 (F := Ideal) (k1_pay12 (F := Ideal) q k (k1_pay4 (F := Ideal)) (k1_pay4 (F := Ideal)) (k1_pay6 (F := Ideal)) v)) r
      = Row.init.step (fun j => ∑ d : Fin 1024, q (ix2 r d) * k (ix2 j d)) (fun j d => v (ix2 j d)) := by
  rw [row_step, rowOf_init]

/-- The same two facts with the scores and the value rows named. -/
theorem row_step' (q k : Vec Ideal S512x1024 .f32) (m l : Vec Ideal S512x1 .f32) (acc : Vec Ideal S512x1024 .f32)
    (v : Vec Ideal S512x1024 .bf16) (r : Fin 512) (S : Fin 512 → EReal) (W : Fin 512 → Fin 1024 → EReal)
    (hS : (fun j => ∑ d : Fin 1024, q (ix2 r d) * k (ix2 j d)) = S) (hW : (fun j d => v (ix2 j d)) = W) :
    rowOf (k1_pay2 (F := Ideal) (k1_pay8 (F := Ideal) q k m)) (k1_pay11 (F := Ideal) q k m m l)
        (k1_pay1 (F := Ideal) (k1_pay12 (F := Ideal) q k m m acc v)) r = (rowOf m l acc r).step S W := by
  subst hS hW
  exact row_step q k m l acc v r

theorem row_first' (q k : Vec Ideal S512x1024 .f32) (v : Vec Ideal S512x1024 .bf16) (r : Fin 512)
    (S : Fin 512 → EReal) (W : Fin 512 → Fin 1024 → EReal)
    (hS : (fun j => ∑ d : Fin 1024, q (ix2 r d) * k (ix2 j d)) = S) (hW : (fun j d => v (ix2 j d)) = W) :
    rowOf (k1_pay2 (F := Ideal) (k1_pay8 (F := Ideal) q k (k1_pay4 (F := Ideal))))
        (k1_pay11 (F := Ideal) q k (k1_pay4 (F := Ideal)) (k1_pay4 (F := Ideal)) (k1_pay5 (F := Ideal)))
        (k1_pay1 (F := Ideal) (k1_pay12 (F := Ideal) q k (k1_pay4 (F := Ideal)) (k1_pay4 (F := Ideal)) (k1_pay6 (F := Ideal)) v)) r
      = Row.init.step S W := by
  subst hS hW
  exact row_first q k v r

/-! ## Arrays as scores and value rows -/

/-- The score of query row i against key row j, off a query array and a key array. -/
def scOf (Q K : Mat 4096 1024) (i j : Fin 4096) : EReal := ∑ d : Fin 1024, Q (ix2 i d) * K (ix2 j d)

/-- Value row j, off a value array. -/
def vvOf (W : Mat 4096 1024) (j : Fin 4096) (d : Fin 1024) : EReal := W (ix2 j d)

/-- A query block whose row r is row qr of Q, against a key block that is tile m of K: row r's scores against the
    block are row qr's scores against the tile's keys. -/
theorem scores_of (Q K : Mat 4096 1024) (q k : Vec Ideal S512x1024 .f32) (r : Fin 512) (qr : Fin 4096) (m : ℕ)
    (hq : ∀ d : Fin 1024, q (ix2 r d) = Q (ix2 qr d)) (hk : ∀ (j : Fin 512) (d : Fin 1024), k (ix2 j d) = K (ix2 (tile m j) d)) :
    (fun j : Fin 512 => ∑ d : Fin 1024, q (ix2 r d) * k (ix2 j d)) = fun j => scOf Q K qr (tile m j) := by
  funext j
  unfold scOf
  exact Finset.sum_congr rfl fun d _ => by rw [hq d, hk j d]

/-- A value block that is tile m of W: its rows are the tile's value rows. -/
theorem vals_of (W : Mat 4096 1024) (v : Vec Ideal S512x1024 .bf16) (m : ℕ)
    (hv : ∀ (j : Fin 512) (d : Fin 1024), v (ix2 j d) = W (ix2 (tile m j) d)) :
    (fun (j : Fin 512) (d : Fin 1024) => v (ix2 j d)) = fun j => vvOf W (tile m j) := by
  funext j d
  exact hv j d

section Region1
-- the TensorCore's buffer contents when the region is entered
variable (V : (c : Dev nD) → (b : Ref sig .tc) → Buf (Elt Ideal) ((c : Thread nD τ).loc b))

/-- The scores and the value rows off the region's arrays. -/
def sc (c : Dev nD) : Fin 4096 → Fin 4096 → EReal := scOf (V c main_v3_0) (V c main_v3_1)
def vv (c : Dev nD) : Fin 4096 → Fin 1024 → EReal := vvOf (V c main_v3_2)

theorem lt64 (n : ℕ) (hn : n < cfg1.N) : n < 64 := lt_of_lt_of_eq hn N_1

theorem tile_mod_val (n : ℕ) (j : Fin 512) : (tile (n % 8) j).val = 512 * (n % 8) + j.val := by
  rw [tile_val]; omega

/-! ## What each point leaves, as payloads of its blocks -/

/-- The scratch buffers after a point with key coordinate 0. -/
theorem scratch_A (c : Dev nD) (t : Fin cfg1.N) (h0 : t.val % 8 = 0) (h1 : ¬t.val % 8 = 7) :
    (outsAt1 V c t.val t.isLt).2
      = (k1_pay2 (F := Ideal) (k1_pay8 (F := Ideal) (iblk1 V c 0 t) (iblk1 V c 1 t) (k1_pay4 (F := Ideal))),
         k1_pay11 (F := Ideal) (iblk1 V c 0 t) (iblk1 V c 1 t) (k1_pay4 (F := Ideal)) (k1_pay4 (F := Ideal)) (k1_pay5 (F := Ideal)),
         k1_pay1 (F := Ideal) (k1_pay12 (F := Ideal) (iblk1 V c 0 t) (iblk1 V c 1 t) (k1_pay4 (F := Ideal)) (k1_pay4 (F := Ideal)) (k1_pay6 (F := Ideal)) (iblk1 V c 2 t))) := by
  rw [outsAt1_A V c t h0 h1]
  unfold caseA1 sout1_A_0 sout1_A_1 sout1_A_2
  dsimp only
  rw [valA_0, valA_1, valA_2]

/-- The scratch buffers after a point with key coordinate strictly between 0 and 7, over what the point before left. -/
theorem scratch_B (c : Dev nD) (t : Fin cfg1.N) (h0 : ¬t.val % 8 = 0) (h1 : ¬t.val % 8 = 7)
    (p : Vec Ideal S512x1 .f32 × Vec Ideal S512x1 .f32 × Vec Ideal S512x1024 .f32) :
    (caseB1 V c t h0 h1 p).2
      = (k1_pay2 (F := Ideal) (k1_pay8 (F := Ideal) (iblk1 V c 0 t) (iblk1 V c 1 t) p.1),
         k1_pay11 (F := Ideal) (iblk1 V c 0 t) (iblk1 V c 1 t) p.1 p.1 p.2.1,
         k1_pay1 (F := Ideal) (k1_pay12 (F := Ideal) (iblk1 V c 0 t) (iblk1 V c 1 t) p.1 p.1 p.2.2 (iblk1 V c 2 t))) := by
  unfold caseB1 sout1_B_0 sout1_B_1 sout1_B_2
  dsimp only
  rw [valB_0, valB_1, valB_2]

/-- The scratch buffers after a point with key coordinate 7, over what the point before left: the same step. -/
theorem scratch_C (c : Dev nD) (t : Fin cfg1.N) (h0 : ¬t.val % 8 = 0) (h1 : t.val % 8 = 7)
    (p : Vec Ideal S512x1 .f32 × Vec Ideal S512x1 .f32 × Vec Ideal S512x1024 .f32) :
    (caseC1 V c t h0 h1 p).2
      = (k1_pay2 (F := Ideal) (k1_pay8 (F := Ideal) (iblk1 V c 0 t) (iblk1 V c 1 t) p.1),
         k1_pay11 (F := Ideal) (iblk1 V c 0 t) (iblk1 V c 1 t) p.1 p.1 p.2.1,
         k1_pay1 (F := Ideal) (k1_pay12 (F := Ideal) (iblk1 V c 0 t) (iblk1 V c 1 t) p.1 p.1 p.2.2 (iblk1 V c 2 t))) := by
  unfold caseC1 sout1_C_0 sout1_C_1 sout1_C_2
  dsimp only
  rw [valC_0, valC_1, valC_2]

/-- The output block after a point with key coordinate 7: the quotient of the scratch buffers it leaves. -/
theorem out_C (c : Dev nD) (t : Fin cfg1.N) (h0 : ¬t.val % 8 = 0) (h1 : t.val % 8 = 7)
    (p : Vec Ideal S512x1 .f32 × Vec Ideal S512x1 .f32 × Vec Ideal S512x1024 .f32) :
    (caseC1 V c t h0 h1 p).1 = k1_pay3 (F := Ideal) (caseC1 V c t h0 h1 p).2.2.2 (caseC1 V c t h0 h1 p).2.2.1 := by
  unfold caseC1 out1_C_3 sout1_C_0 sout1_C_1 sout1_C_2
  dsimp only
  rw [valC_3, valC_1, valC_2]

/-! ## Along the grid -/

/-- Row r of the scratch state after point n. -/
def Rst (c : Dev nD) (n : ℕ) (r : Fin 512) : Row :=
  if h : n < cfg1.N then rowOf (outsAt1 V c n h).2.1 (outsAt1 V c n h).2.2.1 (outsAt1 V c n h).2.2.2 r else Row.init

theorem Rst_eq (c : Dev nD) (n : ℕ) (h : n < cfg1.N) (r : Fin 512) :
    Rst V c n r = rowOf (outsAt1 V c n h).2.1 (outsAt1 V c n h).2.2.1 (outsAt1 V c n h).2.2.2 r := dif_pos h

/-- At key coordinate 0 the row starts over: one step from the initial state on the point's tile. -/
theorem Rst_first (c : Dev nD) (n : ℕ) (hn : n < cfg1.N) (h0 : n % 8 = 0) (r : Fin 512) :
    Rst V c n r = Row.init.step (fun j => sc V c (qrow n r) (tile (n % 8) j)) (fun j => vv V c (tile (n % 8) j)) := by
  have h1 : ¬n % 8 = 7 := by omega
  have e : (outsAt1 V c n hn).2 = _ := scratch_A V c ⟨n, hn⟩ h0 h1
  rw [Rst_eq V c n hn r, e]
  exact row_first' (iblk1 V c 0 ⟨n, hn⟩) (iblk1 V c 1 ⟨n, hn⟩) (iblk1 V c 2 ⟨n, hn⟩) r _ _
    (scores_of (V c main_v3_0) (V c main_v3_1) (iblk1 V c 0 ⟨n, hn⟩) (iblk1 V c 1 ⟨n, hn⟩) r (qrow n r) (n % 8)
      (fun d => iblk1_0_at V c ⟨n, hn⟩ r d (qrow n r) (qrow_val n (lt64 n hn) r))
      (fun j d => iblk1_1_at V c ⟨n, hn⟩ j d (tile (n % 8) j) (tile_mod_val n j)))
    (vals_of (V c main_v3_2) (iblk1 V c 2 ⟨n, hn⟩) (n % 8)
      (fun j d => iblk1_2_at V c ⟨n, hn⟩ j d (tile (n % 8) j) (tile_mod_val n j)))

/-- Elsewhere the row steps from what the point before left, on the point's tile. -/
theorem Rst_step (c : Dev nD) (n : ℕ) (hn : n + 1 < cfg1.N) (h0 : (n + 1) % 8 ≠ 0) (r : Fin 512) :
    Rst V c (n + 1) r = (Rst V c n r).step (fun j => sc V c (qrow (n + 1) r) (tile ((n + 1) % 8) j))
      (fun j => vv V c (tile ((n + 1) % 8) j)) := by
  have hn' : n < cfg1.N := Nat.lt_of_succ_lt hn
  have e : (outsAt1 V c (n + 1) hn).2
      = (k1_pay2 (F := Ideal) (k1_pay8 (F := Ideal) (iblk1 V c 0 ⟨n + 1, hn⟩) (iblk1 V c 1 ⟨n + 1, hn⟩) (outsAt1 V c n hn').2.1),
         k1_pay11 (F := Ideal) (iblk1 V c 0 ⟨n + 1, hn⟩) (iblk1 V c 1 ⟨n + 1, hn⟩) (outsAt1 V c n hn').2.1 (outsAt1 V c n hn').2.1 (outsAt1 V c n hn').2.2.1,
         k1_pay1 (F := Ideal) (k1_pay12 (F := Ideal) (iblk1 V c 0 ⟨n + 1, hn⟩) (iblk1 V c 1 ⟨n + 1, hn⟩) (outsAt1 V c n hn').2.1 (outsAt1 V c n hn').2.1 (outsAt1 V c n hn').2.2.2 (iblk1 V c 2 ⟨n + 1, hn⟩))) := by
    by_cases h1 : (n + 1) % 8 = 7
    · exact (congrArg (fun p => p.2) (outsAt1_C V c ⟨n + 1, hn⟩ h0 h1)).trans (scratch_C V c ⟨n + 1, hn⟩ h0 h1 (outsAt1 V c n hn').2)
    · exact (congrArg (fun p => p.2) (outsAt1_B V c ⟨n + 1, hn⟩ h0 h1)).trans (scratch_B V c ⟨n + 1, hn⟩ h0 h1 (outsAt1 V c n hn').2)
  rw [Rst_eq V c (n + 1) hn r, Rst_eq V c n hn' r, e]
  exact row_step' (iblk1 V c 0 ⟨n + 1, hn⟩) (iblk1 V c 1 ⟨n + 1, hn⟩) (outsAt1 V c n hn').2.1 (outsAt1 V c n hn').2.2.1
    (outsAt1 V c n hn').2.2.2 (iblk1 V c 2 ⟨n + 1, hn⟩) r _ _
    (scores_of (V c main_v3_0) (V c main_v3_1) (iblk1 V c 0 ⟨n + 1, hn⟩) (iblk1 V c 1 ⟨n + 1, hn⟩) r (qrow (n + 1) r) ((n + 1) % 8)
      (fun d => iblk1_0_at V c ⟨n + 1, hn⟩ r d (qrow (n + 1) r) (qrow_val (n + 1) (lt64 (n + 1) hn) r))
      (fun j d => iblk1_1_at V c ⟨n + 1, hn⟩ j d (tile ((n + 1) % 8) j) (tile_mod_val (n + 1) j)))
    (vals_of (V c main_v3_2) (iblk1 V c 2 ⟨n + 1, hn⟩) ((n + 1) % 8)
      (fun j d => iblk1_2_at V c ⟨n + 1, hn⟩ j d (tile ((n + 1) % 8) j) (tile_mod_val (n + 1) j)))

/-- So row r after point n carries the streaming state of the global row 512 · (n / 8) + r after n % 8 + 1 tiles. -/
theorem Rst_after (c : Dev nD) (n : ℕ) (hn : n < cfg1.N) (r : Fin 512) :
    Rst V c n r = Row.after (sc V c (qrow n r)) (vv V c) (n % 8 + 1) :=
  rows_after (sc V c) (vv V c) (Rst V c) cfg1.N (fun n hn h0 r => Rst_first V c n hn h0 r)
    (fun n hn h0 r => Rst_step V c n hn h0 r) n hn r

/-! ## The output block at key coordinate 7 -/

/-- The output block's entry (r, d) after a point with key coordinate 7: numerator d of the streaming softmax of the
    global row 512 · (t / 8) + r over all eight tiles, over its denominator. -/
theorem out_at (c : Dev nD) (t : Fin cfg1.N) (h7 : t.val % 8 = 7) (r : Fin 512) (d : Fin 1024) :
    (outsAt1 V c t.val t.isLt).1 (ix2 r d)
      = Ideal.div ((Row.after (sc V c (qrow t.val r)) (vv V c) 8).acc d) ((Row.after (sc V c (qrow t.val r)) (vv V c) 8).l) := by
  have h0 : ¬t.val % 8 = 0 := by omega
  have hR : rowOf (outsAt1 V c t.val t.isLt).2.1 (outsAt1 V c t.val t.isLt).2.2.1 (outsAt1 V c t.val t.isLt).2.2.2 r
      = Row.after (sc V c (qrow t.val r)) (vv V c) 8 := by
    have h := Rst_after V c t.val t.isLt r
    rw [h7, Rst_eq V c t.val t.isLt r] at h
    exact h
  rw [← hR]
  have e := outsAt1_C V c t h0 h7
  have eo : (outsAt1 V c t.val t.isLt).1
      = k1_pay3 (F := Ideal) (outsAt1 V c t.val t.isLt).2.2.2 (outsAt1 V c t.val t.isLt).2.2.1 := by
    rw [e]
    exact out_C V c t h0 h7 _
  rw [eo]
  exact pay3_out_at _ _ r d

end Region1

end Cert.KernelIdeal.AttnValue

end
-- ==== Proof.AttnFinal.lean ====
/- The attention region's output array from its blocks. The 8 × 8 grid's point t has query block t / 8 and key tile
   t % 8; the output window's block at t is rows 512·(t / 8) … 512·(t / 8) + 511 (all columns) of the result array, and
   it is written back only at the last key tile (t % 8 = 7). So the eight write-backs, at the points 8·q + 7, tile the
   array: row ρ is written by point 8·(ρ / 512) + 7. Hence, if at every writing point the block the body leaves is the
   restriction of one function G of the array index, the array ends holding G. -/
import proofs.«171242_j71287867179099_2_alg».proof.Proof.IdealAttn
import Idealize.ShloMosaic.Lib.Pipeline.Value
import Idealize.ShloMosaic.Lib.ValueIdx

set_option pp.maxSteps 5000
set_option pp.deepTerms false

noncomputable section

namespace Cert.KernelIdeal.AttnBlocks

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)

/-- The output window is at block row `t / 8`, block column 0 (decided over the 64 points). -/
theorem idx_out : ∀ t : Fin cfg1.N, win1_3.index t (0 : Fin 2) = t.val / 8 ∧ win1_3.index t (1 : Fin 2) = 0 :=
  (by decide +kernel : ∀ t : Fin grid1.N, _)

/-- A block that agrees with `G` entry by entry over explicit coordinates agrees with it at every block index. -/
theorem point_out (o : Vec Ideal S512x1024 .f32) (G : S4096x1024.Idx → EReal) (T : ℕ)
    (h : ∀ (r : Fin 512) (d : Fin 1024) (i : S4096x1024.Idx), (i 0).val = 512 * T + r.val → (i 1).val = d.val → o (ix2 r d) = G i)
    (j : S512x1024.Idx) (i : S4096x1024.Idx) (hi0 : (i 0).val = 512 * T + (j 0).val) (hi1 : (i 1).val = (j 1).val) : o j = G i := by
  obtain ⟨r, d, rfl⟩ : ∃ (r : Fin 512) (d : Fin 1024), j = ix2 r d := ⟨j 0, j 1, eq_ix2 j⟩
  exact h r d i hi0 hi1

/-- An index of the result array is in point `t`'s block iff each coordinate is in the block's range on its axis. -/
theorem mem_blk3 (t : Fin cfg1.N) (i : S4096x1024.Idx) :
    i ∈ ((cfg1.win 3).blk t).view.set ↔ ∀ a : Fin 2, win1_3.index t a * S512x1024.size a ≤ (i a).val ∧ (i a).val < win1_3.index t a * S512x1024.size a + S512x1024.size a := by
  show i ∈ ((View.whole main_v4).slice (win1_3.rect t)).set ↔ _
  rw [View.set_slice_whole, Rect.mem_set_unit]
  exact Iff.rfl

/-- Row ρ of the result array is written back at point 8·(ρ / 512) + 7: the eight written blocks cover the array. -/
theorem cover3 (i : S4096x1024.Idx) : ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 64 := N_1
  obtain ⟨t, ht⟩ : ∃ t : Fin cfg1.N, t.val = 8 * ((i 0).val / 512) + 7 := ⟨⟨8 * ((i 0).val / 512) + 7, by rw [hN]; omega⟩, rfl⟩
  refine ⟨t, (flush1_3 t).mpr (by rw [ht]; omega), ?_⟩
  rw [mem_blk3]
  obtain ⟨e0, e1⟩ := idx_out t
  intro a
  match a with
  | ⟨0, _⟩ => show win1_3.index t (0 : Fin 2) * 512 ≤ (i 0).val ∧ (i 0).val < win1_3.index t (0 : Fin 2) * 512 + 512; rw [e0, ht]; omega
  | ⟨1, _⟩ => show win1_3.index t (1 : Fin 2) * 1024 ≤ (i 1).val ∧ (i 1).val < win1_3.index t (1 : Fin 2) * 1024 + 1024; rw [e1]; omega

/-- For ANY proof data of the attention pipeline whose output window is left at `O t` after point `t`: if at every
    writing point the block `O t` is `G` read at the block's rows, the result array ends holding `G`. -/
theorem arrAt3_of {c : Dev nD} (dat : Dat τ (Elt Ideal) Unit ℕ (UR sig nD τ) ℕ cfg1 c) (O : Fin cfg1.N → Vec Ideal S512x1024 .f32)
    (hafter : ∀ t, dat.after 3 t = O t) (G : S4096x1024.Idx → EReal)
    (hG : ∀ (t : Fin cfg1.N), t.val % 8 = 7 → ∀ (r : Fin 512) (d : Fin 1024) (i : S4096x1024.Idx),
      (i 0).val = 512 * (t.val / 8) + r.val → (i 1).val = d.val → O t (ix2 r d) = G i) :
    dat.arrAt 3 cfg1.N = G := by
  refine dat.arrAt_eq_of_cover 3 G (fun t hf => ?_) cover3
  have h7 : t.val % 8 = 7 := (flush1_3 t).mp hf
  show (cfg1.win 3).cut (grid1.coords t) (dat.after 3 t) = _
  rw [hafter]
  obtain ⟨e0, e1⟩ := idx_out t
  funext j
  show O t j = G (((cfg1.win 3).blk t).view.emb j)
  refine point_out (O t) G (t.val / 8) (hG t h7) j _ ?_ ?_
  · show win1_3.index t (0 : Fin 2) * 512 + 1 * (j 0).val = 512 * (t.val / 8) + (j 0).val; rw [e0]; omega
  · show win1_3.index t (1 : Fin 2) * 1024 + 1 * (j 1).val = (j 1).val; rw [e1]; omega

/-- The attention region's result array after the region, for the kernel's proof data at any entry contents `V`:
    `G`, given that the output block the body leaves at each writing point is `G` at that block's rows. -/
theorem final1_3_of (V : (c : Dev nD) → (b : Ref sig .tc) → Buf (Elt Ideal) ((c : Thread nD τ).loc b)) (c : Dev nD)
    (G : S4096x1024.Idx → EReal)
    (hG : ∀ (t : Fin cfg1.N), t.val % 8 = 7 → ∀ (r : Fin 512) (d : Fin 1024) (i : S4096x1024.Idx),
      (i 0).val = 512 * (t.val / 8) + r.val → (i 1).val = d.val → (outsAt1 V c t.val t.isLt).1 (ix2 r d) = G i) :
    (dat1 (F := Ideal) V c).arrAt 3 cfg1.N = G :=
  arrAt3_of (dat1 V c) (fun t => (outsAt1 V c t.val t.isLt).1) (after1_3 V c) G hG

end Cert.KernelIdeal.AttnBlocks

end
-- ==== Proof.AttnValue.lean ====
/-
  The attention region's result: every row is the streaming softmax of the specification, taken over the region's arrays.

  The output window's block is written back only at the points with key coordinate 7, and those eight write-backs
  tile the result array: row ρ is written by the point with query coordinate ρ / 512. What is written there, at
  block row r and column d, is numerator d over the denominator of the streaming state of the global row
  512 · (t / 8) + r after all eight tiles. So the array ends holding, at (ρ, d), that quotient for row ρ.
-/
import proofs.«171242_j71287867179099_2_alg».proof.Proof.AttnInv
import proofs.«171242_j71287867179099_2_alg».proof.Proof.AttnFinal
import proofs.«171242_j71287867179099_2_alg».proof.Proof.StreamOf

set_option maxRecDepth 16384

noncomputable section

namespace Cert.KernelIdeal.AttnValue

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx
open Cert.KernelIdeal.PayValue Cert.Attn

-- the TensorCore's buffer contents when the region is entered
variable (V : (c : Dev nD) → (b : Ref sig .tc) → Buf (Elt Ideal) ((c : Thread nD τ).loc b))

/-- THE REGION'S VALUE: the result array after the attention pipeline is the streaming softmax of the query, key and
    value arrays the region finds. -/
theorem final1_3 (c : Dev nD) :
    (dat1 (F := Ideal) V c).arrAt 3 cfg1.N = Cert.Attn.streamOf (V c main_v3_0) (V c main_v3_1) (V c main_v3_2) := by
  refine Cert.KernelIdeal.AttnBlocks.final1_3_of V c _ (fun t h7 r d i hi0 hi1 => ?_)
  rw [out_at V c t h7 r d]
  have e0 : qrow t.val r = i 0 := Fin.ext ((qrow_val t.val (lt64 t.val t.isLt) r).trans hi0.symm)
  have e1 : d = i 1 := Fin.ext hi1.symm
  rw [e0, e1]
  rfl

end Cert.KernelIdeal.AttnValue

end
-- ==== Proof.RefValue.lean ====
/-
  The reference's composed term, read index by index, is RefSpec.

  The reference forms the three projections Q = x·Wq, K = x·Wk, V = x·Wv, the scores Q·Kᵀ times 1/√1024, each score
  row's maximum (a fold of max from −∞, once more against −∞), the shifted exponentials, their row sums from the
  zero word, the quotients, and the weighted sums of the rows of V.  Each stage is read at a coordinate pair
  (ix2 p j) or a single coordinate (ix1 p): the composed index functions of the stages are coordinate constructors,
  and every stage read this way is the matching definition of the specification, so that the last stage at (p, q)
  is RefSpec at (p, q).
-/
import proofs.«171242_j71287867179099_2_alg».proof.Proof.Gen.ReferenceIdeal.Read
import proofs.«171242_j71287867179099_2_alg».proof.Proof.Spec

noncomputable section

namespace Cert.ReferenceIdeal.RefValue

open Cert.ReferenceIdeal Cert.ReferenceIdeal.Gen Cert.ReferenceIdeal.Read Idealize.ShloMosaic Idealize.ShloMosaic.ValueIdx
  Cert.Attn

/-! ## The three projections -/

/-- Q at (p, d): row p of x times column d of wq. -/
theorem v0_at (x : FVec Ideal S4096x1024 .f32) (w : FVec Ideal S1024x1024 .f32) (p : Fin 4096) (d : Fin 1024) :
    val_main_v0 (F := Ideal) x w (ix2 p d) = proj x w p d := by
  rw [val_main_v0_apply]
  show _ = ∑ k : Fin 1024, x (ix2 p k) * w (ix2 k d)
  refine Finset.sum_congr rfl fun k _ => ?_
  have el : lidx_main_v0 (ix2 p d) k = ix2 p k :=
    funext fun a => Fin.ext (by match a with | ⟨0, _⟩ => rfl | ⟨1, _⟩ => rfl)
  have er : ridx_main_v0 (ix2 p d) k = ix2 k d :=
    funext fun a => Fin.ext (by match a with | ⟨0, _⟩ => rfl | ⟨1, _⟩ => rfl)
  rw [el, er]

/-- K at (j, d): row j of x times column d of wk. -/
theorem v1_at (x : FVec Ideal S4096x1024 .f32) (w : FVec Ideal S1024x1024 .f32) (p : Fin 4096) (d : Fin 1024) :
    val_main_v1 (F := Ideal) x w (ix2 p d) = proj x w p d := by
  rw [val_main_v1_apply]
  show _ = ∑ k : Fin 1024, x (ix2 p k) * w (ix2 k d)
  refine Finset.sum_congr rfl fun k _ => ?_
  have el : lidx_main_v1 (ix2 p d) k = ix2 p k :=
    funext fun a => Fin.ext (by match a with | ⟨0, _⟩ => rfl | ⟨1, _⟩ => rfl)
  have er : ridx_main_v1 (ix2 p d) k = ix2 k d :=
    funext fun a => Fin.ext (by match a with | ⟨0, _⟩ => rfl | ⟨1, _⟩ => rfl)
  rw [el, er]

/-- V at (j, d): row j of x times column d of wv. -/
theorem v2_at (x : FVec Ideal S4096x1024 .f32) (w : FVec Ideal S1024x1024 .f32) (p : Fin 4096) (d : Fin 1024) :
    val_main_v2 (F := Ideal) x w (ix2 p d) = proj x w p d := by
  rw [val_main_v2_apply]
  show _ = ∑ k : Fin 1024, x (ix2 p k) * w (ix2 k d)
  refine Finset.sum_congr rfl fun k _ => ?_
  have el : lidx_main_v2 (ix2 p d) k = ix2 p k :=
    funext fun a => Fin.ext (by match a with | ⟨0, _⟩ => rfl | ⟨1, _⟩ => rfl)
  have er : ridx_main_v2 (ix2 p d) k = ix2 k d :=
    funext fun a => Fin.ext (by match a with | ⟨0, _⟩ => rfl | ⟨1, _⟩ => rfl)
  rw [el, er]

/-! ## The scaled scores -/

/-- The scaled score at (p, j): the inner product of query row p and key row j, times one over the root of 1024. -/
theorem v7_at (x : FVec Ideal S4096x1024 .f32) (wq wk : FVec Ideal S1024x1024 .f32) (p j : Fin 4096) :
    val_main_v7 (F := Ideal) x wq wk (ix2 p j) = refScore x wq wk p j := by
  rw [val_main_v7_apply, val_main_v5_apply, val_main_v6_apply, val_main_v4_apply, val_main_cst_0_apply,
    val_main_v3_apply, val_main_cst_apply]
  show _ = (∑ d : Fin 1024, proj x wq p d * proj x wk j d) * refScale
  have hs : ∑ d : Fin 1024, val_main_v0 (F := Ideal) x wq (lidx_main_v5 (ix2 p j) d) * val_main_v1 (F := Ideal) x wk (ridx_main_v5 (ix2 p j) d)
      = ∑ d : Fin 1024, proj x wq p d * proj x wk j d := by
    refine Finset.sum_congr rfl fun d _ => ?_
    have el : lidx_main_v5 (ix2 p j) d = ix2 p d :=
      funext fun a => Fin.ext (by match a with | ⟨0, _⟩ => rfl | ⟨1, _⟩ => rfl)
    have er : ridx_main_v5 (ix2 p j) d = ix2 j d :=
      funext fun a => Fin.ext (by match a with | ⟨0, _⟩ => rfl | ⟨1, _⟩ => rfl)
    rw [el, er, v0_at, v1_at]
  rw [hs]
  rfl

/-! ## The row maximum -/

/-- The reduced index p with key coordinate k put back is (p, k). -/
theorem lift_ix1 (h : S4096x4096.Reduces [1] S4096) (p : Fin 4096) (k : Fin (S4096x4096.size 1)) :
    h.lift (ix1 p) k = ix2 p (⟨k.val, k.isLt⟩ : Fin 4096) := by
  funext c; apply Fin.ext
  fin_cases c <;> rfl

/-- The reduce with a maximum body over the key axis, at row p: the fold of max from −∞ over the row's scores. -/
theorem v8_at (x : FVec Ideal S4096x1024 .f32) (wq wk : FVec Ideal S1024x1024 .f32) (p : Fin 4096) :
    val_main_v8 (F := Ideal) x wq wk (ix1 p)
      = (Finset.univ : Finset (Fin 4096)).fold max (Ideal.ofBits .f32 0xFF800000#32) (refScore x wq wk p) := by
  unfold val_main_v8
  have h : S4096x4096.Reduces [1] S4096 := by decide
  rw [Host.reduce_eq_fold_single (α := Ideal .f32) (s := S4096x4096) (t := S4096) (a := 1) (u := S_)
    (FloatOps.maximumf (F := Ideal) (φ := .f32)) (val_main_v7 (F := Ideal) x wq wk) (val_main_cst_1 (F := Ideal))
    reducesTo_S4096x4096_S4096_d1 h h_S_ (ix1 p)]
  have hf : (val_main_v7 (F := Ideal) x wq wk ∘ h.lift (ix1 p)) = (refScore x wq wk p : Fin 4096 → EReal) :=
    funext fun k => (congrArg (val_main_v7 (F := Ideal) x wq wk) (lift_ix1 h p k)).trans (v7_at x wq wk p _)
  exact congrArg (fun f => Finset.fold max (Ideal.ofBits .f32 0xFF800000#32) f (Finset.univ : Finset (Fin 4096))) hf

/-- The row maximum as the reference takes it: −∞ against the fold. -/
theorem v10_at (x : FVec Ideal S4096x1024 .f32) (wq wk : FVec Ideal S1024x1024 .f32) (p : Fin 4096) :
    val_main_v10 (F := Ideal) x wq wk (ix1 p) = refMax (refScore x wq wk p) := by
  rw [val_main_v10_apply, val_main_v9_apply, val_main_cst_2_apply, v8_at]
  rfl

/-! ## The shifted exponentials, their sums, the weights -/

/-- The exponential at (p, j): the score less the row's maximum, exponentiated. -/
theorem v14_at (x : FVec Ideal S4096x1024 .f32) (wq wk : FVec Ideal S1024x1024 .f32) (p j : Fin 4096) :
    val_main_v14 (F := Ideal) x wq wk (ix2 p j) = refExp (refScore x wq wk p) j := by
  rw [val_main_v14_apply, val_main_v13_apply, val_main_v12_apply, val_main_v11_apply, v7_at]
  have e : idx_main_v11 (idx_main_v12 (ix2 p j)) = ix1 p :=
    funext fun a => Fin.ext (by match a with | ⟨0, _⟩ => rfl)
  rw [e, v10_at]
  rfl

/-- The denominator of row p: the zero word plus the row's exponentials. -/
theorem v15_at (x : FVec Ideal S4096x1024 .f32) (wq wk : FVec Ideal S1024x1024 .f32) (p : Fin 4096) :
    val_main_v15 (F := Ideal) x wq wk (ix1 p) = refDen (refScore x wq wk p) := by
  rw [val_main_v15_apply, val_main_cst_3_apply]
  have hs : ∑ k : Fin 4096, val_main_v14 (F := Ideal) x wq wk (idx_main_v15 (ix1 p) k)
      = ∑ k : Fin 4096, refExp (refScore x wq wk p) k := by
    refine Finset.sum_congr rfl fun k _ => ?_
    have e : idx_main_v15 (ix1 p) k = ix2 p k :=
      funext fun a => Fin.ext (by match a with | ⟨0, _⟩ => rfl | ⟨1, _⟩ => rfl)
    rw [e, v14_at]
  rw [hs]
  rfl

/-- The softmax weight at (p, j): the exponential over the row's denominator. -/
theorem v18_at (x : FVec Ideal S4096x1024 .f32) (wq wk : FVec Ideal S1024x1024 .f32) (p j : Fin 4096) :
    val_main_v18 (F := Ideal) x wq wk (ix2 p j)
      = Ideal.div (refExp (refScore x wq wk p) j) (refDen (refScore x wq wk p)) := by
  rw [val_main_v18_apply, val_main_v17_apply, val_main_v16_apply, v14_at]
  have e : idx_main_v16 (idx_main_v17 (ix2 p j)) = ix1 p :=
    funext fun a => Fin.ext (by match a with | ⟨0, _⟩ => rfl)
  rw [e, v15_at]
  rfl

/-! ## The result -/

/-- THE REFERENCE IS RefSpec: the last stage of the reference, as a function of its four arguments, is the
    specification's whole-row softmax times the value rows. -/
theorem reference_eq (x : FVec Ideal S4096x1024 .f32) (wq wk wv : FVec Ideal S1024x1024 .f32) :
    val_main_v19 (F := Ideal) x wq wk wv = RefSpec x wq wk wv := by
  funext i
  obtain ⟨p, q, rfl⟩ : ∃ (p : Fin 4096) (q : Fin 1024), i = ix2 p q := ⟨i 0, i 1, eq_ix2 i⟩
  rw [val_main_v19_apply]
  show _ = ∑ j : Fin 4096,
    Ideal.div (refExp (refScore x wq wk p) j) (refDen (refScore x wq wk p)) * proj x wv j q
  refine Finset.sum_congr rfl fun j _ => ?_
  have el : lidx_main_v19 (ix2 p q) j = ix2 p j :=
    funext fun a => Fin.ext (by match a with | ⟨0, _⟩ => rfl | ⟨1, _⟩ => rfl)
  have er : ridx_main_v19 (ix2 p q) j = ix2 j q :=
    funext fun a => Fin.ext (by match a with | ⟨0, _⟩ => rfl | ⟨1, _⟩ => rfl)
  rw [el, er, v18_at, v2_at]

end Cert.ReferenceIdeal.RefValue

end
-- ==== Proof.Finite.lean ====
/-
  From the precondition to "every entry of every argument is a real".

  The precondition is the conjunction, over the four argument arrays, of "the absolute value of every entry is
  below the word of +∞".  A conjunction of one-bit words that is 1 has every conjunct 1; a reduce by "and" over a
  whole array that is 1 met a 1 at every entry; and an extended real a whose absolute value max a (−a) is below +∞
  is neither infinity, so it is a real.
-/
import proofs.«171242_j71287867179099_2_alg».proof.Defs
import Idealize.ShloMosaic.Lib.ReduceAll
import Idealize.ShloMosaic.Lib.ValueIdx
import Idealize.ShloMosaic.PureOps.Ideal
import Idealize.ShloMosaic.PureOps.Ideal.Laws

noncomputable section

namespace Cert.Finite

open Idealize.ShloMosaic Idealize.SL.Sem

/-- The rank-0 shape has one index. -/
instance : Subsingleton Cert.Pre_finite_inputs.S_.Idx := ⟨fun _ _ => funext fun d => d.elim0⟩

/-- The word 0x7F800000 denotes +∞. -/
theorem ofBits_inf : Ideal.ofBits .f32 0x7F800000#32 = (⊤ : EReal) := by
  simp [Ideal.ofBits, Ideal.ieee]

/-- An extended real whose absolute value is below +∞ is a real. -/
theorem real_of_abs_lt (a : EReal) (h : Ideal.cmp .olt (max a (-a)) (Ideal.ofBits .f32 0x7F800000#32) = 1#1) :
    ∃ r : ℝ, a = (r : EReal) := by
  rw [ofBits_inf] at h
  induction a using EReal.rec
  · simp [Ideal.cmp] at h
  · exact ⟨_, rfl⟩
  · simp [Ideal.cmp] at h

/-- One conjunct of the precondition: if the reduce by "and", over the whole array, of "|x| is below +∞" is 1, every
    entry of x is a real. -/
theorem all_real {s : Shape} {axes : List (Fin s.rank)}
    (bc : Cert.Pre_finite_inputs.S_.BroadcastsInDim s (![] : Fin 0 → Fin s.rank))
    (rd : s.ReducesTo axes Cert.Pre_finite_inputs.S_) (hu : 0 < Cert.Pre_finite_inputs.S_.numel) (x : FVec Ideal s .f32)
    (e : Host.reduce IntOp.andi
          (cmpf .olt (Host.absf x) (broadcastInDim s ![] bc (constant Cert.Pre_finite_inputs.S_ .f32 0x7F800000#32)))
          (constantI Cert.Pre_finite_inputs.S_ 1 1#1) rd hu ValueIdx.ix0 = 1#1) (i : s.Idx) :
    ∃ r : ℝ, x i = (r : EReal) :=
  real_of_abs_lt (x i) (Host.reduce_andi_all _ _ rd hu ValueIdx.ix0 e i)

/-- THE PRECONDITION GIVES REALS: if the precondition's function of the four argument arrays is all ones, every
    entry of each of them is a real. -/
theorem real_of_pre [hP : Cert.Pre_finite_inputs.Facts] (x : FVec Ideal Cert.Pre_finite_inputs.S4096x1024 .f32)
    (wq wk wv : FVec Ideal Cert.Pre_finite_inputs.S1024x1024 .f32)
    (h : Cert.Pre_finite_inputs.fn (F := Ideal) x wq wk wv = (fun _ => 1#1)) :
    (∀ i, ∃ r : ℝ, x i = (r : EReal)) ∧ (∀ i, ∃ r : ℝ, wq i = (r : EReal)) ∧ (∀ i, ∃ r : ℝ, wk i = (r : EReal))
      ∧ (∀ i, ∃ r : ℝ, wv i = (r : EReal)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨hx, h1⟩ := IntOp.andi_eq_one.1 h01
  exact ⟨all_real _ _ _ x hx, all_real _ _ _ wq h1, all_real _ _ _ wk h2, all_real _ _ _ wv h3⟩

/-- The same of the idealized kernel's argument arrays on a device, from its precondition. -/
theorem real_of_Pre_KernelIdeal [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, (m ((c.tc : Thread Cert.KernelIdeal.nD Cert.KernelIdeal.τ).loc Cert.KernelIdeal.main_arg0) :
        FVec Ideal Cert.KernelIdeal.S4096x1024 .f32) i = (r : EReal))
    ∧ (∀ i, ∃ r : ℝ, (m ((c.tc : Thread Cert.KernelIdeal.nD Cert.KernelIdeal.τ).loc Cert.KernelIdeal.main_arg1) :
        FVec Ideal Cert.KernelIdeal.S1024x1024 .f32) i = (r : EReal))
    ∧ (∀ i, ∃ r : ℝ, (m ((c.tc : Thread Cert.KernelIdeal.nD Cert.KernelIdeal.τ).loc Cert.KernelIdeal.main_arg2) :
        FVec Ideal Cert.KernelIdeal.S1024x1024 .f32) i = (r : EReal))
    ∧ (∀ i, ∃ r : ℝ, (m ((c.tc : Thread Cert.KernelIdeal.nD Cert.KernelIdeal.τ).loc Cert.KernelIdeal.main_arg3) :
        FVec Ideal Cert.KernelIdeal.S1024x1024 .f32) i = (r : EReal)) :=
  real_of_pre _ _ _ _ (hpre c)

end Cert.Finite

end
-- ==== Proof.Scale.lean ====
/-
  The constant words of the two programs as extended reals.

  The kernel scales the query weights by the word 0x3D000000: sign +, exponent field 122, fraction 0, that is
  2^23 · 2^(122 − 127 − 23) = 2^(−5) = 1/32. The reference divides the word of 1 by the square root of the word of
  1024 (exponent field 137: 2^23 · 2^(137 − 127 − 23) = 2^10), and √1024 = 32 because 32² = 1024, so its scale is
  1/32 too. The word 0xFF800000 (sign −, exponent field all ones, fraction 0) is −∞.
-/
import proofs.«171242_j71287867179099_2_alg».proof.Proof.Spec

noncomputable section

namespace Cert.Attn

open Idealize.ShloMosaic

/-- The word 0xFF800000 is −∞. -/
theorem negInf_eq : Ideal.ofBits .f32 0xFF800000#32 = (⊥ : EReal) := by
  simp [Ideal.ofBits, Ideal.ieee]

/-- The word 0x3F800000 is 1. -/
theorem one_eq : Ideal.ofBits .f32 0x3F800000#32 = ((1 : ℝ) : EReal) := by
  simp [Ideal.ofBits, Ideal.ieee]
  norm_cast
  norm_num

/-- The kernel's factor on the query weights is 1/32. -/
theorem scale_eq : scale = ((1 / 32 : ℝ) : EReal) := by
  unfold scale
  simp [Ideal.ofBits, Ideal.ieee]
  norm_cast
  norm_num

/-- The word 0x44800000 is 1024. -/
theorem w1024_eq : Ideal.ofBits .f32 0x44800000#32 = ((1024 : ℝ) : EReal) := by
  simp [Ideal.ofBits, Ideal.ieee]
  norm_cast
  norm_num

/-- The reference's scale 1/√1024 is 1/32. -/
theorem refScale_eq : refScale = ((1 / 32 : ℝ) : EReal) := by
  unfold refScale
  rw [one_eq, w1024_eq, Ideal.sqrt_coe, if_neg (by norm_num)]
  have h32 : Real.sqrt 1024 = 32 := by
    rw [show (1024 : ℝ) = 32 ^ 2 by norm_num]
    exact Real.sqrt_sq (by norm_num)
  rw [h32, Ideal.div_coe (by norm_num), ← EReal.coe_mul, one_mul]

end Cert.Attn

end
-- ==== Proof.LibSoftmaxReal.lean ====
import Idealize.ShloMosaic.PureOps.Ideal

/-!
# Softmax over the extended reals, on a row of real scores

A softmax of a row of scores s, computed the stable way, takes the row's maximum M (a fold of max from the bottom),
the exponentials e j = exp (s j - M), and their sum D. Two programs may then differ in how they normalise: one
multiplies e j by the reciprocal 1 / D, the other divides e j by D. On the extended reals the quotient by D is the
product with D's inverse only where D is not zero, so the two agree exactly when D ≠ 0. This file shows that a row of
real scores over a finite index type with at least one index gives that, with nothing asked about which index attains
the maximum:

* coe_sum: a finite sum of reals read in the extended reals is the real sum.
* exp_nonneg: the exponential of an extended real is nowhere negative (0 at the bottom, the top at the top).
* foldMax_real: the fold of max from the bottom over a row of real scores is a real number: it is above any one
  score, which is not the bottom, and every score is below the top.
* sumExpShift_ne_zero: so the sum of the shifted exponentials is not zero: every term is nonnegative and any one
  term is the exponential of a real, which is positive.
* mul_div_one_eq_div: off zero, the product with the reciprocal is the quotient.
-/

noncomputable section

namespace Cert.LibSoftmaxReal

open Idealize.ShloMosaic

/-- A finite sum of reals, read in the extended reals, is the real sum. -/
theorem coe_sum {ι : Type*} (t : Finset ι) (f : ι → ℝ) : (∑ x ∈ t, ((f x : ℝ) : EReal)) = ((∑ x ∈ t, f x : ℝ) : EReal) := by
  classical
  induction t using Finset.induction_on with
  | empty => simp
  | insert a t ha ih => rw [Finset.sum_insert ha, Finset.sum_insert ha, ih, EReal.coe_add]

/-- The exponential is nowhere negative. -/
theorem exp_nonneg (x : EReal) : 0 ≤ Ideal.exp x := by
  induction x using EReal.rec with
  | bot => exact le_refl _
  | top => exact le_top
  | coe r => exact EReal.coe_nonneg.mpr (Real.exp_pos r).le

section Row

variable {ι : Type*} [Fintype ι]

/-- The maximum, folded from the bottom, of a row of real scores with at least one index is a real number. -/
theorem foldMax_real (s : ι → EReal) (hs : ∀ j, ∃ r : ℝ, s j = r) (j0 : ι) :
    ∃ μ : ℝ, (Finset.univ : Finset ι).fold max ⊥ s = μ := by
  have hlt : (Finset.univ : Finset ι).fold max ⊥ s < ⊤ := by
    rw [Finset.fold_max_lt]
    refine ⟨bot_lt_top, fun j _ => ?_⟩
    obtain ⟨r, hr⟩ := hs j
    rw [hr]; exact EReal.coe_lt_top r
  have hge : s j0 ≤ (Finset.univ : Finset ι).fold max ⊥ s := by
    rw [Finset.le_fold_max]
    exact Or.inr ⟨j0, Finset.mem_univ _, le_refl _⟩
  obtain ⟨r0, hr0⟩ := hs j0
  have hbot : (Finset.univ : Finset ι).fold max ⊥ s ≠ ⊥ := by
    intro h
    rw [h, hr0] at hge
    exact absurd (le_bot_iff.mp hge) (EReal.coe_ne_bot r0)
  exact ⟨((Finset.univ : Finset ι).fold max ⊥ s).toReal, (EReal.coe_toReal hlt.ne hbot).symm⟩

/-- The sum of the exponentials of a row of real scores shifted by the row's maximum is not zero. -/
theorem sumExpShift_ne_zero (s : ι → EReal) (hs : ∀ j, ∃ r : ℝ, s j = r) (j0 : ι) :
    (∑ j : ι, Ideal.exp (s j - (Finset.univ : Finset ι).fold max ⊥ s)) ≠ 0 := by
  obtain ⟨μ, hμ⟩ := foldMax_real s hs j0
  obtain ⟨r0, hr0⟩ := hs j0
  have hpos : 0 < Ideal.exp (s j0 - (Finset.univ : Finset ι).fold max ⊥ s) := by
    rw [hμ, hr0, ← EReal.coe_sub, Ideal.exp_coe]
    exact EReal.coe_pos.mpr (Real.exp_pos _)
  have hle : Ideal.exp (s j0 - (Finset.univ : Finset ι).fold max ⊥ s)
      ≤ ∑ j : ι, Ideal.exp (s j - (Finset.univ : Finset ι).fold max ⊥ s) :=
    Finset.single_le_sum (f := fun j => Ideal.exp (s j - (Finset.univ : Finset ι).fold max ⊥ s))
      (fun j _ => exp_nonneg _) (Finset.mem_univ j0)
  exact (lt_of_lt_of_le hpos hle).ne'

end Row

/-- Off zero, the product with the reciprocal is the quotient. -/
theorem mul_div_one_eq_div (e D : EReal) (hD : D ≠ 0) : e * Ideal.div 1 D = Ideal.div e D := by
  unfold Ideal.div
  rw [if_neg hD, if_neg hD, one_mul]

end Cert.LibSoftmaxReal

end
-- ==== Proof.LibGridSum.lean ====
import Idealize.ShloMosaic.Lib.ValueIdx

/-!
# Tiling a double sum over a square grid

A double sum over an `8192 × 8192` square of indices equals the sum, over the `64` tiles of an
`8 × 8` grid taken in row-major order, of the double sums over each `1024 × 1024` tile.

The argument is pure reindexing, so it holds in any commutative additive monoid: an index
`i < A * K` is written uniquely as `K * a + r` with `a < A` and `r < K`, which splits a sum over
`Fin (A * K)` into a sum over `a` of sums over `r`.  Doing this for the rows, the columns and the
tile number, and then exchanging the two middle sums, gives the statement.
-/

namespace Cert.GridSum

/-- A sum over `Fin (A * K)` splits into `A` consecutive blocks of length `K`:
the index `(a, r)` stands for `K * a + r`. -/
theorem sum_fin_mul {M : Type*} [AddCommMonoid M] (A K : ℕ) (g : Fin (A * K) → M) :
    ∑ i : Fin (A * K), g i = ∑ a : Fin A, ∑ r : Fin K, g (finProdFinEquiv (a, r)) := by
  exact (Equiv.sum_comp finProdFinEquiv g).symm.trans (Fintype.sum_prod_type _)

/-- Row `r` of tile `s` (tiles numbered row-major in an `8 × 8` grid):
global row `1024 * (s / 8) + r`. -/
def rowOf (s : Fin 64) (r : Fin 1024) : Fin 8192 := ⟨1024 * (s.val / 8) + r.val, by omega⟩

/-- Column `c` of tile `s`: global column `1024 * (s % 8) + c`. -/
def colOf (s : Fin 64) (c : Fin 1024) : Fin 8192 := ⟨1024 * (s.val % 8) + c.val, by omega⟩

/-- The row of tile `8 * a + b` at offset `r` is the global row `1024 * a + r`. -/
theorem rowOf_pair (a b : Fin 8) (r : Fin 1024) :
    rowOf (finProdFinEquiv (a, b) : Fin (8 * 8)) r = (finProdFinEquiv (a, r) : Fin (8 * 1024)) := by
  apply Fin.ext
  have ha := a.isLt
  have hb := b.isLt
  simp only [rowOf, finProdFinEquiv, Equiv.coe_fn_mk]
  omega

/-- The column of tile `8 * a + b` at offset `c` is the global column `1024 * b + c`. -/
theorem colOf_pair (a b : Fin 8) (c : Fin 1024) :
    colOf (finProdFinEquiv (a, b) : Fin (8 * 8)) c = (finProdFinEquiv (b, c) : Fin (8 * 1024)) := by
  apply Fin.ext
  have ha := a.isLt
  have hb := b.isLt
  simp only [colOf, finProdFinEquiv, Equiv.coe_fn_mk]
  omega

/-- The double sum over the `8192 × 8192` square is the sum over the `64` tiles, in row-major
order, of the double sums over the `1024 × 1024` tiles. -/
theorem sum_tiles {M : Type*} [AddCommMonoid M] (f : Fin 8192 → Fin 8192 → M) :
    ∑ s : Fin 64, ∑ r : Fin 1024, ∑ c : Fin 1024, f (rowOf s r) (colOf s c)
      = ∑ i : Fin 8192, ∑ j : Fin 8192, f i j := by
  -- left side: split the tile number `s = 8 * a + b`
  have hL : ∑ s : Fin 64, ∑ r : Fin 1024, ∑ c : Fin 1024, f (rowOf s r) (colOf s c)
      = ∑ a : Fin 8, ∑ b : Fin 8, ∑ r : Fin 1024, ∑ c : Fin 1024,
          f (finProdFinEquiv (a, r) : Fin (8 * 1024)) (finProdFinEquiv (b, c) : Fin (8 * 1024)) := by
    have h := sum_fin_mul (M := M) 8 8
      (fun s : Fin (8 * 8) => ∑ r : Fin 1024, ∑ c : Fin 1024, f (rowOf s r) (colOf s c))
    refine h.trans ?_
    refine Finset.sum_congr rfl fun a _ => Finset.sum_congr rfl fun b _ => ?_
    refine Finset.sum_congr rfl fun r _ => Finset.sum_congr rfl fun c _ => ?_
    rw [rowOf_pair, colOf_pair]
  -- right side: split the row `i = 1024 * a + r` and the column `j = 1024 * b + c`
  have hR : ∑ i : Fin 8192, ∑ j : Fin 8192, f i j
      = ∑ a : Fin 8, ∑ r : Fin 1024, ∑ b : Fin 8, ∑ c : Fin 1024,
          f (finProdFinEquiv (a, r) : Fin (8 * 1024)) (finProdFinEquiv (b, c) : Fin (8 * 1024)) := by
    have h := sum_fin_mul (M := M) 8 1024 (fun i : Fin (8 * 1024) => ∑ j : Fin 8192, f i j)
    refine h.trans ?_
    refine Finset.sum_congr rfl fun a _ => Finset.sum_congr rfl fun r _ => ?_
    exact sum_fin_mul (M := M) 8 1024
      (fun j : Fin (8 * 1024) => f (finProdFinEquiv (a, r) : Fin (8 * 1024)) j)
  rw [hL, hR]
  -- exchange the sum over the tile column `b` with the sum over the row offset `r`
  refine Finset.sum_congr rfl fun a _ => ?_
  exact Finset.sum_comm

end Cert.GridSum
-- ==== Proof.Streaming.lean ====
/-
  The reference's softmax of a whole score row and the kernel's softmax taken tile by tile are the same function.

  With real entries every projection and every score is a real number, and the two scores agree: the kernel
  multiplies the query weights by 1/32 before the products, the reference multiplies the finished score by
  1/√1024 = 1/32, and a real factor moves through finite sums.

  For a row of real scores s and real value rows v the streaming state after n ≥ 1 tiles has a real running
  maximum M, the running denominator ∑ exp (s j − M) and the running numerators ∑ exp (s j − M) · v j d, the sums
  over the keys of the first n tiles: a tile whose maximum is c moves M to M' = max M c and multiplies the carried
  sums by exp (M − M'), which turns each exp (s j − M) into exp (s j − M') because exp (M − M') · exp (s j − M) =
  exp (s j − M'); the first tile starts from the empty sums 0, which any factor leaves 0. The running maximum is
  below a bound exactly when every score so far is, so after all eight tiles it is the row's maximum, the fold of
  max from −∞ over the whole row. The eight tiles are the row: key j is key j % 512 of tile j / 512.

  Then the reference's ∑ (exp (s j − M) / L) · v j d and the kernel's (∑ exp (s j − M) · v j d) / L are the same
  real number, because L = ∑ exp (s j − M) is a sum of positive reals, so not zero, and division by a nonzero real
  is the product with its reciprocal.
-/
import proofs.«171242_j71287867179099_2_alg».proof.Proof.Spec
import proofs.«171242_j71287867179099_2_alg».proof.Proof.Scale
import proofs.«171242_j71287867179099_2_alg».proof.Proof.LibSoftmaxReal
import proofs.«171242_j71287867179099_2_alg».proof.Proof.LibGridSum

noncomputable section

namespace Cert.Attn

open Idealize.ShloMosaic Idealize.ShloMosaic.ValueIdx Finset
open Cert.LibSoftmaxReal (coe_sum foldMax_real)

/-! ## Real entries give real projections and scores, and the two scores agree -/

/-- An a × b array of reals. -/
abbrev RMat (a b : ℕ) : Type := (⟨2, ![a, b]⟩ : Shape).Idx → ℝ

/-- Row i of x times column d of w, in the reals. -/
def rproj (x : RMat 4096 1024) (w : RMat 1024 1024) (i : Fin 4096) (d : Fin 1024) : ℝ :=
  ∑ k : Fin 1024, x (ix2 i k) * w (ix2 k d)

/-- The score of query row i against key row j, in the reals. -/
def rscore (x : RMat 4096 1024) (wq wk : RMat 1024 1024) (i j : Fin 4096) : ℝ :=
  (∑ d : Fin 1024, rproj x wq i d * rproj x wk j d) * (1 / 32)

theorem proj_coe (x : RMat 4096 1024) (w : RMat 1024 1024) (i : Fin 4096) (d : Fin 1024) :
    proj (fun p => (x p : EReal)) (fun p => (w p : EReal)) i d = ((rproj x w i d : ℝ) : EReal) := by
  unfold proj rproj
  rw [← coe_sum]
  exact Finset.sum_congr rfl fun k _ => (EReal.coe_mul _ _).symm

theorem projQ_coe (x : RMat 4096 1024) (w : RMat 1024 1024) (i : Fin 4096) (d : Fin 1024) :
    projQ (fun p => (x p : EReal)) (fun p => (w p : EReal)) i d = ((rproj x w i d * (1 / 32) : ℝ) : EReal) := by
  unfold projQ rproj
  rw [Finset.sum_mul, ← coe_sum, scale_eq]
  refine Finset.sum_congr rfl fun k _ => ?_
  rw [← EReal.coe_mul, ← EReal.coe_mul, mul_assoc]

theorem score_coe (x : RMat 4096 1024) (wq wk : RMat 1024 1024) (i j : Fin 4096) :
    score (fun p => (x p : EReal)) (fun p => (wq p : EReal)) (fun p => (wk p : EReal)) i j
      = ((rscore x wq wk i j : ℝ) : EReal) := by
  unfold score rscore
  rw [Finset.sum_mul, ← coe_sum]
  refine Finset.sum_congr rfl fun d _ => ?_
  rw [projQ_coe, proj_coe, ← EReal.coe_mul]
  congr 1; ring

theorem refScore_coe (x : RMat 4096 1024) (wq wk : RMat 1024 1024) (i j : Fin 4096) :
    refScore (fun p => (x p : EReal)) (fun p => (wq p : EReal)) (fun p => (wk p : EReal)) i j
      = ((rscore x wq wk i j : ℝ) : EReal) := by
  unfold refScore rscore
  rw [refScale_eq, EReal.coe_mul, ← coe_sum]
  congr 1

/-! ## One tile -/

theorem Row.step_m (st : Row) (s : Fin 512 → EReal) (v : Fin 512 → Fin 1024 → EReal) :
    (st.step s v).m = max st.m ((Finset.univ : Finset (Fin 512)).fold max ⊥ s) := rfl

theorem Row.step_l (st : Row) (s : Fin 512 → EReal) (v : Fin 512 → Fin 1024 → EReal) :
    (st.step s v).l = Ideal.exp (st.m - max st.m ((Finset.univ : Finset (Fin 512)).fold max ⊥ s)) * st.l
      + ∑ j : Fin 512, Ideal.exp (s j - max st.m ((Finset.univ : Finset (Fin 512)).fold max ⊥ s)) := rfl

theorem Row.step_acc (st : Row) (s : Fin 512 → EReal) (v : Fin 512 → Fin 1024 → EReal) (d : Fin 1024) :
    (st.step s v).acc d = Ideal.exp (st.m - max st.m ((Finset.univ : Finset (Fin 512)).fold max ⊥ s)) * st.acc d
      + ∑ j : Fin 512, Ideal.exp (s j - max st.m ((Finset.univ : Finset (Fin 512)).fold max ⊥ s)) * v j d := rfl

theorem exp_coe_sub (a b : ℝ) : Ideal.exp ((a : EReal) - (b : EReal)) = ((Real.exp (a - b) : ℝ) : EReal) := by
  rw [← EReal.coe_sub, Ideal.exp_coe]

/-- A tile of real scores t with maximum c, from a state whose maximum M, denominator L and numerators A are real:
    the maximum moves to max M c, and the carried sums are multiplied by exp (M − max M c). -/
theorem step_coe (st : Row) (M L : ℝ) (A : Fin 1024 → ℝ) (t : Fin 512 → ℝ) (w : Fin 512 → Fin 1024 → ℝ) (c : ℝ)
    (hm : st.m = (M : EReal)) (hl : st.l = (L : EReal)) (ha : ∀ d, st.acc d = (A d : EReal))
    (hc : (Finset.univ : Finset (Fin 512)).fold max ⊥ (fun j => (t j : EReal)) = (c : EReal)) :
    (st.step (fun j => (t j : EReal)) (fun j d => (w j d : EReal))).m = ((max M c : ℝ) : EReal)
    ∧ (st.step (fun j => (t j : EReal)) (fun j d => (w j d : EReal))).l
        = ((Real.exp (M - max M c) * L + ∑ j : Fin 512, Real.exp (t j - max M c) : ℝ) : EReal)
    ∧ ∀ d, (st.step (fun j => (t j : EReal)) (fun j d => (w j d : EReal))).acc d
        = ((Real.exp (M - max M c) * A d + ∑ j : Fin 512, Real.exp (t j - max M c) * w j d : ℝ) : EReal) := by
  have hmax : max st.m ((Finset.univ : Finset (Fin 512)).fold max ⊥ (fun j => (t j : EReal))) = ((max M c : ℝ) : EReal) := by
    rw [hm, hc]; exact (EReal.coe_strictMono.monotone.map_max).symm
  refine ⟨by rw [Row.step_m, hmax], ?_, fun d => ?_⟩
  · rw [Row.step_l, hmax, hm, hl, exp_coe_sub, ← EReal.coe_mul, EReal.coe_add, ← coe_sum]
    congr 1
  · rw [Row.step_acc, hmax, hm, ha, exp_coe_sub, ← EReal.coe_mul, EReal.coe_add, ← coe_sum]
    congr 1

/-- The first tile: the carried sums are the empty sums 0, so only the tile's own terms remain. -/
theorem step_init (t : Fin 512 → ℝ) (w : Fin 512 → Fin 1024 → ℝ) (c : ℝ)
    (hc : (Finset.univ : Finset (Fin 512)).fold max ⊥ (fun j => (t j : EReal)) = (c : EReal)) :
    (Row.init.step (fun j => (t j : EReal)) (fun j d => (w j d : EReal))).m = (c : EReal)
    ∧ (Row.init.step (fun j => (t j : EReal)) (fun j d => (w j d : EReal))).l
        = ((∑ j : Fin 512, Real.exp (t j - c) : ℝ) : EReal)
    ∧ ∀ d, (Row.init.step (fun j => (t j : EReal)) (fun j d => (w j d : EReal))).acc d
        = ((∑ j : Fin 512, Real.exp (t j - c) * w j d : ℝ) : EReal) := by
  have hmax : max Row.init.m ((Finset.univ : Finset (Fin 512)).fold max ⊥ (fun j => (t j : EReal))) = (c : EReal) := by
    rw [hc]; exact max_eq_right bot_le
  have hl0 : Row.init.l = 0 := rfl
  have ha0 : ∀ d, Row.init.acc d = 0 := fun _ => rfl
  refine ⟨by rw [Row.step_m, hmax], ?_, fun d => ?_⟩
  · rw [Row.step_l, hmax, hl0, mul_zero, zero_add, ← coe_sum]
    exact Finset.sum_congr rfl fun j _ => exp_coe_sub _ _
  · rw [Row.step_acc, hmax, ha0, mul_zero, zero_add, ← coe_sum]
    refine Finset.sum_congr rfl fun j _ => ?_
    rw [exp_coe_sub, ← EReal.coe_mul]

/-! ## The first n + 1 tiles -/

/-- After n + 1 tiles of a row of real scores: a real maximum M, and the sums of exp (s j − M) and of
    exp (s j − M) · v j d over the keys of those tiles. -/
theorem after_succ_spec (s : Fin 4096 → ℝ) (v : Fin 4096 → Fin 1024 → ℝ) (n : ℕ) :
    ∃ M : ℝ, (Row.after (fun j => (s j : EReal)) (fun j d => (v j d : EReal)) (n + 1)).m = (M : EReal)
      ∧ (Row.after (fun j => (s j : EReal)) (fun j d => (v j d : EReal)) (n + 1)).l
          = ((∑ a ∈ range (n + 1), ∑ r : Fin 512, Real.exp (s (tile a r) - M) : ℝ) : EReal)
      ∧ ∀ d, (Row.after (fun j => (s j : EReal)) (fun j d => (v j d : EReal)) (n + 1)).acc d
          = ((∑ a ∈ range (n + 1), ∑ r : Fin 512, Real.exp (s (tile a r) - M) * v (tile a r) d : ℝ) : EReal) := by
  induction n with
  | zero =>
    obtain ⟨c, hc⟩ := foldMax_real (fun j : Fin 512 => ((s (tile 0 j) : ℝ) : EReal)) (fun j => ⟨_, rfl⟩) 0
    obtain ⟨h1, h2, h3⟩ := step_init (fun j => s (tile 0 j)) (fun j d => v (tile 0 j) d) c hc
    refine ⟨c, h1, ?_, fun d => ?_⟩
    · rw [Finset.sum_range_one]; exact h2
    · rw [Finset.sum_range_one]; exact h3 d
  | succ n ih =>
    obtain ⟨M, i1, i2, i3⟩ := ih
    obtain ⟨c, hc⟩ := foldMax_real (fun j : Fin 512 => ((s (tile (n + 1) j) : ℝ) : EReal)) (fun j => ⟨_, rfl⟩) 0
    obtain ⟨h1, h2, h3⟩ := step_coe _ M _ _ (fun j => s (tile (n + 1) j)) (fun j d => v (tile (n + 1) j) d) c i1 i2 i3 hc
    refine ⟨max M c, h1, ?_, fun d => ?_⟩
    · refine h2.trans ?_
      congr 1
      rw [Finset.sum_range_succ _ (n + 1), Finset.mul_sum]
      congr 1
      refine Finset.sum_congr rfl fun a _ => ?_
      rw [Finset.mul_sum]
      refine Finset.sum_congr rfl fun r _ => ?_
      rw [← Real.exp_add]; congr 1; ring
    · refine (h3 d).trans ?_
      congr 1
      rw [Finset.sum_range_succ _ (n + 1), Finset.mul_sum]
      congr 1
      refine Finset.sum_congr rfl fun a _ => ?_
      rw [Finset.mul_sum]
      refine Finset.sum_congr rfl fun r _ => ?_
      rw [← mul_assoc, ← Real.exp_add]; congr 2; ring

/-- The running maximum after n tiles is below a bound exactly when every score of those tiles is. -/
theorem after_m_le_iff (s : Fin 4096 → EReal) (v : Fin 4096 → Fin 1024 → EReal) (n : ℕ) (b : EReal) :
    (Row.after s v n).m ≤ b ↔ ∀ a < n, ∀ r : Fin 512, s (tile a r) ≤ b := by
  induction n with
  | zero =>
    constructor
    · intro _ a ha; exact absurd ha (Nat.not_lt_zero a)
    · intro _; exact bot_le
  | succ n ih =>
    show max (Row.after s v n).m ((Finset.univ : Finset (Fin 512)).fold max ⊥ (fun j => s (tile n j))) ≤ b ↔ _
    rw [max_le_iff, ih, Finset.fold_max_le]
    constructor
    · rintro ⟨h1, _, h2⟩ a ha r
      rcases Nat.lt_succ_iff_lt_or_eq.1 ha with h | rfl
      · exact h1 a h r
      · exact h2 r (Finset.mem_univ r)
    · intro h
      exact ⟨fun a ha r => h a (Nat.lt_succ_of_lt ha) r, bot_le, fun r _ => h n (Nat.lt_succ_self n) r⟩

/-! ## The eight tiles are the row -/

theorem tile_eq (a : Fin 8) (r : Fin 512) : tile a.val r = (finProdFinEquiv (a, r) : Fin (8 * 512)) := by
  apply Fin.ext
  have ha := a.isLt
  simp only [tile, finProdFinEquiv, Equiv.coe_fn_mk]
  omega

theorem tile_surj (j : Fin 4096) : ∃ a < 8, ∃ r : Fin 512, tile a r = j := by
  have hj := j.isLt
  refine ⟨j.val / 512, by omega, ⟨j.val % 512, Nat.mod_lt _ (by norm_num)⟩, ?_⟩
  apply Fin.ext
  simp only [tile]
  omega

/-- Summing tile by tile over the eight tiles is summing over the row. -/
theorem sum_tiles_eq (f : Fin 4096 → ℝ) : ∑ a ∈ range 8, ∑ r : Fin 512, f (tile a r) = ∑ j : Fin 4096, f j := by
  rw [Finset.sum_range (fun a => ∑ r : Fin 512, f (tile a r))]
  refine Eq.trans ?_ (Cert.GridSum.sum_fin_mul 8 512 f).symm
  exact Finset.sum_congr rfl fun a _ => Finset.sum_congr rfl fun r _ => by rw [tile_eq]

/-- After all eight tiles the running maximum is the row's maximum. -/
theorem after_eight_m (s : Fin 4096 → EReal) (v : Fin 4096 → Fin 1024 → EReal) :
    (Row.after s v 8).m = (Finset.univ : Finset (Fin 4096)).fold max ⊥ s := by
  refine eq_of_forall_ge_iff fun b => ?_
  rw [after_m_le_iff, Finset.fold_max_le]
  constructor
  · intro h
    refine ⟨bot_le, fun j _ => ?_⟩
    obtain ⟨a, ha, r, rfl⟩ := tile_surj j
    exact h a ha r
  · rintro ⟨_, h⟩ a _ r
    exact h _ (Finset.mem_univ _)

/-! ## Whole-row softmax against the streaming one, for real scores -/

theorem softmax_stream (s : Fin 4096 → ℝ) (v : Fin 4096 → Fin 1024 → ℝ) (d : Fin 1024) :
    ∑ j : Fin 4096, Ideal.div (refExp (fun j => (s j : EReal)) j) (refDen (fun j => (s j : EReal))) * ((v j d : ℝ) : EReal)
      = Ideal.div ((Row.after (fun j => (s j : EReal)) (fun j d => (v j d : EReal)) 8).acc d)
          ((Row.after (fun j => (s j : EReal)) (fun j d => (v j d : EReal)) 8).l) := by
  obtain ⟨M, h1, h2, h3⟩ := after_succ_spec s v 7
  have hM : refMax (fun j => (s j : EReal)) = (M : EReal) := by
    unfold refMax
    rw [negInf_eq, max_eq_right bot_le, ← after_eight_m _ (fun j d => (v j d : EReal))]
    exact h1
  have hpos : 0 < ∑ j : Fin 4096, Real.exp (s j - M) :=
    Finset.sum_pos (fun j _ => Real.exp_pos _) ⟨0, Finset.mem_univ _⟩
  have hE : ∀ j, refExp (fun j => (s j : EReal)) j = ((Real.exp (s j - M) : ℝ) : EReal) := fun j => by
    unfold refExp; rw [hM, exp_coe_sub]
  have hD : refDen (fun j => (s j : EReal)) = ((∑ j : Fin 4096, Real.exp (s j - M) : ℝ) : EReal) := by
    unfold refDen
    rw [Ideal.ofBits_zero_f32, zero_add, ← coe_sum]
    exact Finset.sum_congr rfl fun j _ => hE j
  rw [h3 d, h2, sum_tiles_eq (fun j => Real.exp (s j - M)), sum_tiles_eq (fun j => Real.exp (s j - M) * v j d), hD,
    Ideal.div_coe hpos.ne', ← EReal.coe_mul]
  have hterm : ∀ j : Fin 4096, Ideal.div (refExp (fun j => (s j : EReal)) j) ((∑ j : Fin 4096, Real.exp (s j - M) : ℝ) : EReal)
      * ((v j d : ℝ) : EReal)
      = ((Real.exp (s j - M) * (1 / ∑ j : Fin 4096, Real.exp (s j - M)) * v j d : ℝ) : EReal) := fun j => by
    rw [hE, Ideal.div_coe hpos.ne', ← EReal.coe_mul, ← EReal.coe_mul]
  rw [Finset.sum_congr rfl fun j _ => hterm j, coe_sum, EReal.coe_eq_coe_iff, Finset.sum_mul]
  exact Finset.sum_congr rfl fun j _ => by ring

/-! ## The two results agree -/

theorem refSpec_eq_G (x : Mat 4096 1024) (wq wk wv : Mat 1024 1024) (hx : ∀ i, ∃ r : ℝ, x i = (r : EReal))
    (hq : ∀ i, ∃ r : ℝ, wq i = (r : EReal)) (hk : ∀ i, ∃ r : ℝ, wk i = (r : EReal))
    (hv : ∀ i, ∃ r : ℝ, wv i = (r : EReal)) : RefSpec x wq wk wv = G x wq wk wv := by
  choose xr hxr using hx
  choose qr hqr using hq
  choose kr hkr using hk
  choose vr hvr using hv
  obtain rfl : x = fun p => (xr p : EReal) := funext hxr
  obtain rfl : wq = fun p => (qr p : EReal) := funext hqr
  obtain rfl : wk = fun p => (kr p : EReal) := funext hkr
  obtain rfl : wv = fun p => (vr p : EReal) := funext hvr
  funext i
  have hs : score (fun p => (xr p : EReal)) (fun p => (qr p : EReal)) (fun p => (kr p : EReal)) (i 0)
      = fun j => ((rscore xr qr kr (i 0) j : ℝ) : EReal) := funext fun j => score_coe xr qr kr (i 0) j
  have hs' : refScore (fun p => (xr p : EReal)) (fun p => (qr p : EReal)) (fun p => (kr p : EReal)) (i 0)
      = fun j => ((rscore xr qr kr (i 0) j : ℝ) : EReal) := funext fun j => refScore_coe xr qr kr (i 0) j
  have hp : proj (fun p => (xr p : EReal)) (fun p => (vr p : EReal))
      = fun j d => ((rproj xr vr j d : ℝ) : EReal) := funext fun j => funext fun d => proj_coe xr vr j d
  show (∑ j : Fin 4096, Ideal.div (refExp (refScore _ _ _ (i 0)) j) (refDen (refScore _ _ _ (i 0))) * proj _ _ j (i 1))
      = Ideal.div ((Row.after (score _ _ _ (i 0)) (proj _ _) 8).acc (i 1)) ((Row.after (score _ _ _ (i 0)) (proj _ _) 8).l)
  rw [hs, hs', hp]
  exact softmax_stream _ _ (i 1)

end Cert.Attn

end
-- ==== Proof.lean ====
/-
  Self-attention with fused projections against its plain reference, over the extended reals.

  The kernel program scales the query weights by 1/32 and rounds the value weights on the host, forms Q, K, V in one
  pipelined region (row blocks of 256), and in a second region takes, for every block of 512 query rows, the softmax
  of the score rows streaming over eight tiles of 512 keys — a running maximum, denominator and numerators carried
  from tile to tile, one division after the last tile.  The reference forms the same three products, scales the scores
  by 1/√1024, takes each row's softmax whole and multiplies by V.

  Frames: each region's proof data is stated once for any float instance; the program's run is the host lines
  followed by the two regions, the arguments never written.  The reference's frame is its run with the result dropped.
  Idealization: the ideal pass rewrote nothing.
  Equality at the ideal instance: the kernel's result array is the streamed function `G` of the four arguments
  (the projection's arrays are the three matrix products; the attention's array is the streaming recurrence row by
  row); the reference's is `RefSpec`; and on real entries — the precondition — the two agree: 1/√1024 = 1/32 commutes
  with the finite sums, and a softmax rescaled by exp(m − m′) as its maximum moves is the softmax.
-/
import proofs.«171242_j71287867179099_2_alg».proof.Defs
import proofs.«171242_j71287867179099_2_alg».proof.Proof.Gen.Kernel
import proofs.«171242_j71287867179099_2_alg».proof.Proof.Gen.KernelIdeal
import proofs.«171242_j71287867179099_2_alg».proof.Proof.Gen.ReferenceIdeal
import proofs.«171242_j71287867179099_2_alg».proof.Proof.Gen.Pre_finite_inputs
import proofs.«171242_j71287867179099_2_alg».proof.Proof.Gen.ReferenceIdeal.Read
import proofs.«171242_j71287867179099_2_alg».proof.Proof.BitsWhole
import proofs.«171242_j71287867179099_2_alg».proof.Proof.IdealWhole
import proofs.«171242_j71287867179099_2_alg».proof.Proof.KernelValue
import proofs.«171242_j71287867179099_2_alg».proof.Proof.AttnValue
import proofs.«171242_j71287867179099_2_alg».proof.Proof.RefValue
import proofs.«171242_j71287867179099_2_alg».proof.Proof.Finite
import proofs.«171242_j71287867179099_2_alg».proof.Proof.Streaming
import Idealize.ShloMosaic.Adequacy
import Idealize.ShloMosaic.Init

noncomputable section

namespace Cert.Proof

open Idealize.ShloMosaic Idealize.SL.Sem

/-- The word-level program runs and leaves its arguments as launched. -/
theorem frame_kernel : Cert.frame_Kernel (hKernel := Cert.Kernel.Gen.facts) (hPre_finite_inputs := Cert.Pre_finite_inputs.Gen.facts) :=
  fun m ρ _ => Cert.Kernel.Hand.frame (F := Bits) m ρ

/-- So does its reading at the ideal instance. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- The reference's frame is its run with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

open Cert.KernelIdeal Cert.KernelIdeal.Hand in
/-- Both programs end, from memories agreeing on the arguments, with the same result: the kernel's array is `G` of
    the arguments, the reference's is `RefSpec` of them, and on the real entries the precondition grants the two are
    one function. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.Attn.G (m ((c.tc : Thread nD τ).loc main_arg0)) (m ((c.tc : Thread nD τ).loc main_arg1))
      (m ((c.tc : Thread nD τ).loc main_arg2)) (m ((c.tc : Thread nD τ).loc main_arg3)), ?_, ?_⟩
  · refine (θ_run Cert.KernelIdeal.defs _ _).mono (fun r h c => ?_) (whole_run (F := Ideal) m ρ)
    exact ⟨(h c _ (mem_uc main_v4 (by decide))).trans
        (Cert.KernelIdeal.KernelValue.result_is_G m c fun V c => Cert.KernelIdeal.AttnValue.final1_3 V c),
      (h c _ (mem_uc main_arg0 (by decide))).trans (W3_main_arg0 m projData attnData (fun V c w => A_eq0 V c w) c),
      (h c _ (mem_uc main_arg1 (by decide))).trans (W3_main_arg1 m projData attnData c),
      (h c _ (mem_uc main_arg2 (by decide))).trans (W3_main_arg2 m projData attnData (fun V c w => A_eq0 V c w) c),
      (h c _ (mem_uc main_arg3 (by decide))).trans (W3_main_arg3 m projData attnData c)⟩
  · refine (θ_run Cert.ReferenceIdeal.defs _ _).mono (fun r h c => ⟨?_, (h c).2⟩)
      (Cert.ReferenceIdeal.Value.run (F := Ideal) m' ρ')
    obtain ⟨hx, hq, hk, hv⟩ := Cert.Finite.real_of_Pre_KernelIdeal m hpre c
    rw [(h c).1, Cert.ReferenceIdeal.Read.val_main_v19_eq, Cert.ReferenceIdeal.RefValue.reference_eq,
      (hagree c).1, (hagree c).2.1, (hagree c).2.2.1, (hagree c).2.2.2]
    exact Cert.Attn.refSpec_eq_G _ _ _ _ hx hq hk hv

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
